-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v102)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v102) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v201) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S64x256 : Shape := ⟨2, ![64, 256]⟩
abbrev S256 : Shape := ⟨1, ![256]⟩
abbrev S256x128 : Shape := ⟨2, ![256, 128]⟩
abbrev S128x1024 : Shape := ⟨2, ![128, 1024]⟩
abbrev S1024 : Shape := ⟨1, ![1024]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x256 : S_.BroadcastsInDim S64x256 (![] : Fin 0 → Fin S64x256.rank)
  reducesTo_S64x256_S_d0_1 : S64x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128x1024 : S_.BroadcastsInDim S128x1024 (![] : Fin 0 → Fin S128x1024.rank)
  reducesTo_S128x1024_S_d0_1 : S128x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_arg12 : FVec F S128x1024 .f32) (main_arg13 : FVec F S1024 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x1024 .f32 := Host.absf main_arg12
  let main_cst_20 : FVec F S_ .f32 := constant S_ .f32 0x7F800000#32
  let main_v55 : FVec F S128x1024 .f32 := broadcastInDim S128x1024 ![] bcast_S_S128x1024 main_cst_20
  let main_v56 : IVec S128x1024 1 := cmpf .olt main_v54 main_v55
  let main_c_21 : IVec S_ 1 := constantI S_ 1 1#1
  let main_v57 : IVec S_ 1 := (fun x v => Host.reduce IntOp.andi x v reducesTo_S128x1024_S_d0_1 h_S_) main_v56 main_c_21
  let main_v58 : IVec S_ 1 := andi main_v53 main_v57
  let main_v59 : FVec F S1024 .f32 := Host.absf main_arg13
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  main_v63

def fn_part2 {F : FTy → Type} [FloatOps F] (main_arg8 : FVec F S64x256 .f32) (main_arg9 : FVec F S256 .f32) (main_arg10 : FVec F S256x128 .f32) (main_arg11 : FVec F S128 .f32) (main_arg12 : FVec F S128x1024 .f32) (main_arg13 : FVec F S1024 .f32) (main_v33 : IVec S_ 1) : IVec S_ 1 :=
  let main_v34 : FVec F S64x256 .f32 := Host.absf main_arg8
  let main_cst_12 : FVec F S_ .f32 := constant S_ .f32 0x7F800000#32
  let main_v35 : FVec F S64x256 .f32 := broadcastInDim S64x256 ![] bcast_S_S64x256 main_cst_12
  let main_v36 : IVec S64x256 1 := cmpf .olt main_v34 main_v35
  let main_c_13 : IVec S_ 1 := constantI S_ 1 1#1
  let main_v37 : IVec S_ 1 := (fun x v => Host.reduce IntOp.andi x v reducesTo_S64x256_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x128 .f32 := Host.absf main_arg10
  let main_cst_16 : FVec F S_ .f32 := constant S_ .f32 0x7F800000#32
  let main_v45 : FVec F S256x128 .f32 := broadcastInDim S256x128 ![] bcast_S_S256x128 main_cst_16
  let main_v46 : IVec S256x128 1 := cmpf .olt main_v44 main_v45
  let main_c_17 : IVec S_ 1 := constantI S_ 1 1#1
  let main_v47 : IVec S_ 1 := (fun x v => Host.reduce IntOp.andi x v reducesTo_S256x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_v48 main_v49 main_v50

def fn_part1 {F : FTy → Type} [FloatOps F] (main_arg5 : FVec F S64 .f32) (main_arg6 : FVec F S64x64 .f32) (main_arg7 : FVec F S64 .f32) (main_arg8 : FVec F S64x256 .f32) (main_arg9 : FVec F S256 .f32) (main_arg10 : FVec F S256x128 .f32) (main_arg11 : FVec F S128 .f32) (main_arg12 : FVec F S128x1024 .f32) (main_arg13 : FVec F S1024 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S50000x128 .f32) (main_arg1 : IVec S2x800000 32) (main_arg2 : FVec F S128x128 .f32) (main_arg3 : FVec F S128 .f32) (main_arg4 : FVec F S128x64 .f32) (main_arg5 : FVec F S64 .f32) (main_arg6 : FVec F S64x64 .f32) (main_arg7 : FVec F S64 .f32) (main_arg8 : FVec F S64x256 .f32) (main_arg9 : FVec F S256 .f32) (main_arg10 : FVec F S256x128 .f32) (main_arg11 : FVec F S128 .f32) (main_arg12 : FVec F S128x1024 .f32) (main_arg13 : FVec F S1024 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_arg8 main_arg9 main_arg10 main_arg11 main_arg12 main_arg13 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S64x256 : Shape := ⟨2, ![64, 256]⟩
abbrev S256 : Shape := ⟨1, ![256]⟩
abbrev S256x128 : Shape := ⟨2, ![256, 128]⟩
abbrev S128x1024 : Shape := ⟨2, ![128, 1024]⟩
abbrev S1024 : Shape := ⟨1, ![1024]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S1x128 : Shape := ⟨2, ![1, 128]⟩
abbrev S2000x128 : Shape := ⟨2, ![2000, 128]⟩
abbrev S850000x128 : Shape := ⟨2, ![850000, 128]⟩
abbrev S1x64 : Shape := ⟨2, ![1, 64]⟩
abbrev S50000x64 : Shape := ⟨2, ![50000, 64]⟩
abbrev S2000x64 : Shape := ⟨2, ![2000, 64]⟩
abbrev S850000x64 : Shape := ⟨2, ![850000, 64]⟩
abbrev S1x256 : Shape := ⟨2, ![1, 256]⟩
abbrev S50000x256 : Shape := ⟨2, ![50000, 256]⟩
abbrev S2000x256 : Shape := ⟨2, ![2000, 256]⟩
abbrev S850000x256 : Shape := ⟨2, ![850000, 256]⟩
abbrev S1x1024 : Shape := ⟨2, ![1, 1024]⟩
abbrev S50000x1024 : Shape := ⟨2, ![50000, 1024]⟩
abbrev S2000x1024 : Shape := ⟨2, ![2000, 1024]⟩

abbrev nBuf : Space → Nat
  | .hbm => 143
  | .vmem => 56
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x64, .f32⟩
  | 5 => ⟨S64, .f32⟩
  | 6 => ⟨S64x64, .f32⟩
  | 7 => ⟨S64, .f32⟩
  | 8 => ⟨S64x256, .f32⟩
  | 9 => ⟨S256, .f32⟩
  | 10 => ⟨S256x128, .f32⟩
  | 11 => ⟨S128, .f32⟩
  | 12 => ⟨S128x1024, .f32⟩
  | 13 => ⟨S1024, .f32⟩
  | 14 => ⟨S1x800000, .i32⟩
  | 15 => ⟨S800000, .i32⟩
  | 16 => ⟨S50000, .i32⟩
  | 17 => ⟨S850000, .i32⟩
  | 18 => ⟨S1x800000, .i32⟩
  | 19 => ⟨S800000, .i32⟩
  | 20 => ⟨S50000, .i32⟩
  | 21 => ⟨S850000, .i32⟩
  | 22 => ⟨S_, .f32⟩
  | 23 => ⟨S850000, .f32⟩
  | 24 => ⟨S_, .f32⟩
  | 25 => ⟨S50000, .f32⟩
  | 26 => ⟨S850000x1, .i32⟩
  | 27 => ⟨S50000, .f32⟩
  | 28 => ⟨S_, .f32⟩
  | 29 => ⟨S50000, .f32⟩
  | 30 => ⟨S50000, .i1⟩
  | 31 => ⟨S50000, .f32⟩
  | 32 => ⟨S_, .f32⟩
  | 33 => ⟨S_, .f32⟩
  | 34 => ⟨S50000, .f32⟩
  | 35 => ⟨S50000, .f32⟩
  | 36 => ⟨S_, .i32⟩
  | 37 => ⟨S850000, .i32⟩
  | 38 => ⟨S850000, .i1⟩
  | 39 => ⟨S_, .i32⟩
  | 40 => ⟨S850000, .i32⟩
  | 41 => ⟨S850000, .i32⟩
  | 42 => ⟨S850000, .i32⟩
  | 43 => ⟨S850000x1, .i32⟩
  | 44 => ⟨S850000, .f32⟩
  | 45 => ⟨S_, .i32⟩
  | 46 => ⟨S850000, .i32⟩
  | 47 => ⟨S850000, .i1⟩
  | 48 => ⟨S_, .i32⟩
  | 49 => ⟨S850000, .i32⟩
  | 50 => ⟨S850000, .i32⟩
  | 51 => ⟨S850000, .i32⟩
  | 52 => ⟨S850000x1, .i32⟩
  | 53 => ⟨S850000, .f32⟩
  | 54 => ⟨S850000, .f32⟩
  | 55 => ⟨S_, .f32⟩
  | 56 => ⟨S1x128, .f32⟩
  | 57 => ⟨S50000x128, .f32⟩
  | 58 => ⟨S_, .i32⟩
  | 59 => ⟨S850000, .i32⟩
  | 60 => ⟨S850000, .i1⟩
  | 61 => ⟨S_, .i32⟩
  | 62 => ⟨S850000, .i32⟩
  | 63 => ⟨S850000, .i32⟩
  | 64 => ⟨S850000, .i32⟩
  | 65 => ⟨S850000x1, .i32⟩
  | 66 => ⟨S850000x128, .f32⟩
  | 67 => ⟨S850000x1, .f32⟩
  | 68 => ⟨S850000x128, .f32⟩
  | 69 => ⟨S850000x128, .f32⟩
  | 70 => ⟨S_, .f32⟩
  | 71 => ⟨S50000x128, .f32⟩
  | 72 => ⟨S850000x1, .i32⟩
  | 73 => ⟨S50000x128, .f32⟩
  | 74 => ⟨S1x128, .f32⟩
  | 75 => ⟨S50000x128, .f32⟩
  | 76 => ⟨S_, .f32⟩
  | 77 => ⟨S1x64, .f32⟩
  | 78 => ⟨S50000x64, .f32⟩
  | 79 => ⟨S_, .i32⟩
  | 80 => ⟨S850000, .i32⟩
  | 81 => ⟨S850000, .i1⟩
  | 82 => ⟨S_, .i32⟩
  | 83 => ⟨S850000, .i32⟩
  | 84 => ⟨S850000, .i32⟩
  | 85 => ⟨S850000, .i32⟩
  | 86 => ⟨S850000x1, .i32⟩
  | 87 => ⟨S850000x64, .f32⟩
  | 88 => ⟨S850000x1, .f32⟩
  | 89 => ⟨S850000x64, .f32⟩
  | 90 => ⟨S850000x64, .f32⟩
  | 91 => ⟨S_, .f32⟩
  | 92 => ⟨S50000x64, .f32⟩
  | 93 => ⟨S850000x1, .i32⟩
  | 94 => ⟨S50000x64, .f32⟩
  | 95 => ⟨S1x64, .f32⟩
  | 96 => ⟨S50000x64, .f32⟩
  | 97 => ⟨S1x64, .f32⟩
  | 98 => ⟨S50000x64, .f32⟩
  | 99 => ⟨S_, .f32⟩
  | 100 => ⟨S1x256, .f32⟩
  | 101 => ⟨S50000x256, .f32⟩
  | 102 => ⟨S_, .i32⟩
  | 103 => ⟨S850000, .i32⟩
  | 104 => ⟨S850000, .i1⟩
  | 105 => ⟨S_, .i32⟩
  | 106 => ⟨S850000, .i32⟩
  | 107 => ⟨S850000, .i32⟩
  | 108 => ⟨S850000, .i32⟩
  | 109 => ⟨S850000x1, .i32⟩
  | 110 => ⟨S850000x256, .f32⟩
  | 111 => ⟨S850000x1, .f32⟩
  | 112 => ⟨S850000x256, .f32⟩
  | 113 => ⟨S850000x256, .f32⟩
  | 114 => ⟨S_, .f32⟩
  | 115 => ⟨S50000x256, .f32⟩
  | 116 => ⟨S850000x1, .i32⟩
  | 117 => ⟨S50000x256, .f32⟩
  | 118 => ⟨S1x256, .f32⟩
  | 119 => ⟨S50000x256, .f32⟩
  | 120 => ⟨S_, .f32⟩
  | 121 => ⟨S1x128, .f32⟩
  | 122 => ⟨S50000x128, .f32⟩
  | 123 => ⟨S_, .i32⟩
  | 124 => ⟨S850000, .i32⟩
  | 125 => ⟨S850000, .i1⟩
  | 126 => ⟨S_, .i32⟩
  | 127 => ⟨S850000, .i32⟩
  | _ => ⟨S50000x128, .f32⟩

abbrev hbmTy0_1 (i : Nat) : BufTy := match i % 128 with
  | 0 => ⟨S850000, .i32⟩
  | 1 => ⟨S850000, .i32⟩
  | 2 => ⟨S850000x1, .i32⟩
  | 3 => ⟨S850000x128, .f32⟩
  | 4 => ⟨S850000x1, .f32⟩
  | 5 => ⟨S850000x128, .f32⟩
  | 6 => ⟨S850000x128, .f32⟩
  | 7 => ⟨S_, .f32⟩
  | 8 => ⟨S50000x128, .f32⟩
  | 9 => ⟨S850000x1, .i32⟩
  | 10 => ⟨S50000x128, .f32⟩
  | 11 => ⟨S1x128, .f32⟩
  | 12 => ⟨S50000x128, .f32⟩
  | 13 => ⟨S1x1024, .f32⟩
  | 14 => ⟨S50000x1024, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S1x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x64, .f32⟩
  | .local _ .vmem, ⟨14, _⟩ => ⟨S1x64, .f32⟩
  | .local _ .vmem, ⟨15, _⟩ => ⟨S2000x64, .f32⟩
  | .local _ .vmem, ⟨16, _⟩ => ⟨S2000x64, .f32⟩
  | .local _ .vmem, ⟨17, _⟩ => ⟨S2000x64, .f32⟩
  | .local _ .vmem, ⟨18, _⟩ => ⟨S2000x64, .f32⟩
  | .local _ .vmem, ⟨19, _⟩ => ⟨S1x64, .f32⟩
  | .local _ .vmem, ⟨20, _⟩ => ⟨S2000x64, .f32⟩
  | .local _ .vmem, ⟨21, _⟩ => ⟨S2000x64, .f32⟩
  | .local _ .vmem, ⟨22, _⟩ => ⟨S2000x64, .f32⟩
  | .local _ .vmem, ⟨23, _⟩ => ⟨S2000x64, .f32⟩
  | .local _ .vmem, ⟨24, _⟩ => ⟨S64x64, .f32⟩
  | .local _ .vmem, ⟨25, _⟩ => ⟨S1x64, .f32⟩
  | .local _ .vmem, ⟨26, _⟩ => ⟨S2000x64, .f32⟩
  | .local _ .vmem, ⟨27, _⟩ => ⟨S2000x64, .f32⟩
  | .local _ .vmem, ⟨28, _⟩ => ⟨S2000x64, .f32⟩
  | .local _ .vmem, ⟨29, _⟩ => ⟨S2000x64, .f32⟩
  | .local _ .vmem, ⟨30, _⟩ => ⟨S64x256, .f32⟩
  | .local _ .vmem, ⟨31, _⟩ => ⟨S1x256, .f32⟩
  | .local _ .vmem, ⟨32, _⟩ => ⟨S2000x256, .f32⟩
  | .local _ .vmem, ⟨33, _⟩ => ⟨S2000x256, .f32⟩
  | .local _ .vmem, ⟨34, _⟩ => ⟨S2000x256, .f32⟩
  | .local _ .vmem, ⟨35, _⟩ => ⟨S2000x256, .f32⟩
  | .local _ .vmem, ⟨36, _⟩ => ⟨S1x256, .f32⟩
  | .local _ .vmem, ⟨37, _⟩ => ⟨S2000x256, .f32⟩
  | .local _ .vmem, ⟨38, _⟩ => ⟨S2000x256, .f32⟩
  | .local _ .vmem, ⟨39, _⟩ => ⟨S2000x256, .f32⟩
  | .local _ .vmem, ⟨40, _⟩ => ⟨S2000x256, .f32⟩
  | .local _ .vmem, ⟨41, _⟩ => ⟨S256x128, .f32⟩
  | .local _ .vmem, ⟨42, _⟩ => ⟨S1x128, .f32⟩
  | .local _ .vmem, ⟨43, _⟩ => ⟨S2000x128, .f32⟩
  | .local _ .vmem, ⟨44, _⟩ => ⟨S2000x128, .f32⟩
  | .local _ .vmem, ⟨45, _⟩ => ⟨S2000x128, .f32⟩
  | .local _ .vmem, ⟨46, _⟩ => ⟨S2000x128, .f32⟩
  | .local _ .vmem, ⟨47, _⟩ => ⟨S1x128, .f32⟩
  | .local _ .vmem, ⟨48, _⟩ => ⟨S2000x128, .f32⟩
  | .local _ .vmem, ⟨49, _⟩ => ⟨S2000x128, .f32⟩
  | .local _ .vmem, ⟨50, _⟩ => ⟨S2000x128, .f32⟩
  | .local _ .vmem, ⟨51, _⟩ => ⟨S2000x128, .f32⟩
  | .local _ .vmem, ⟨52, _⟩ => ⟨S128x1024, .f32⟩
  | .local _ .vmem, ⟨53, _⟩ => ⟨S1x1024, .f32⟩
  | .local _ .vmem, ⟨54, _⟩ => ⟨S2000x1024, .f32⟩
  | .local _ .vmem, ⟨55, _⟩ => ⟨S2000x1024, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_cst_0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_1 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_v15 : Ref sig .tc := ⟨.hbm, 35, rfl⟩
abbrev main_c : Ref sig .tc := ⟨.hbm, 36, rfl⟩
abbrev main_v16 : Ref sig .tc := ⟨.hbm, 37, rfl⟩
abbrev main_v17 : Ref sig .tc := ⟨.hbm, 38, rfl⟩
abbrev main_c_3 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_c_4 : Ref sig .tc := ⟨.hbm, 45, rfl⟩
abbrev main_v23 : Ref sig .tc := ⟨.hbm, 46, rfl⟩
abbrev main_v24 : Ref sig .tc := ⟨.hbm, 47, rfl⟩
abbrev main_c_5 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_6 : Ref sig .tc := ⟨.hbm, 55, rfl⟩
abbrev main_v31 : Ref sig .tc := ⟨.hbm, 56, rfl⟩
abbrev main_v32 : Ref sig .tc := ⟨.hbm, 57, rfl⟩
abbrev main_c_7 : Ref sig .tc := ⟨.hbm, 58, rfl⟩
abbrev main_v33 : Ref sig .tc := ⟨.hbm, 59, rfl⟩
abbrev main_v34 : Ref sig .tc := ⟨.hbm, 60, rfl⟩
abbrev main_c_8 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_9 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_10 : Ref sig .tc := ⟨.hbm, 76, rfl⟩
abbrev main_v48 : Ref sig .tc := ⟨.hbm, 77, rfl⟩
abbrev main_v49 : Ref sig .tc := ⟨.hbm, 78, rfl⟩
abbrev main_c_11 : Ref sig .tc := ⟨.hbm, 79, rfl⟩
abbrev main_v50 : Ref sig .tc := ⟨.hbm, 80, rfl⟩
abbrev main_v51 : Ref sig .tc := ⟨.hbm, 81, rfl⟩
abbrev main_c_12 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_13 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_cst_14 : Ref sig .tc := ⟨.hbm, 99, rfl⟩
abbrev main_v67 : Ref sig .tc := ⟨.hbm, 100, rfl⟩
abbrev main_v68 : Ref sig .tc := ⟨.hbm, 101, rfl⟩
abbrev main_c_15 : Ref sig .tc := ⟨.hbm, 102, rfl⟩
abbrev main_v69 : Ref sig .tc := ⟨.hbm, 103, rfl⟩
abbrev main_v70 : Ref sig .tc := ⟨.hbm, 104, rfl⟩
abbrev main_c_16 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_cst_17 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_cst_18 : Ref sig .tc := ⟨.hbm, 120, rfl⟩
abbrev main_v84 : Ref sig .tc := ⟨.hbm, 121, rfl⟩
abbrev main_v85 : Ref sig .tc := ⟨.hbm, 122, rfl⟩
abbrev main_c_19 : Ref sig .tc := ⟨.hbm, 123, rfl⟩
abbrev main_v86 : Ref sig .tc := ⟨.hbm, 124, rfl⟩
abbrev main_v87 : Ref sig .tc := ⟨.hbm, 125, rfl⟩
abbrev main_c_20 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_cst_21 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg3_0 : Ref sig .tc := ⟨.vmem, 26, rfl⟩
abbrev cc4_stg3_1 : Ref sig .tc := ⟨.vmem, 27, rfl⟩
abbrev cc5_stg0_0 : Ref sig .tc := ⟨.vmem, 28, rfl⟩
abbrev cc5_stg0_1 : Ref sig .tc := ⟨.vmem, 29, rfl⟩
abbrev cc5_stg1_0 : Ref sig .tc := ⟨.vmem, 30, rfl⟩
abbrev cc5_stg2_0 : Ref sig .tc := ⟨.vmem, 31, rfl⟩
abbrev cc5_stg3_0 : Ref sig .tc := ⟨.vmem, 32, rfl⟩
abbrev cc5_stg3_1 : Ref sig .tc := ⟨.vmem, 33, rfl⟩
abbrev cc6_stg0_0 : Ref sig .tc := ⟨.vmem, 34, rfl⟩
abbrev cc6_stg0_1 : Ref sig .tc := ⟨.vmem, 35, rfl⟩
abbrev cc6_stg1_0 : Ref sig .tc := ⟨.vmem, 36, rfl⟩
abbrev cc6_stg2_0 : Ref sig .tc := ⟨.vmem, 37, rfl⟩
abbrev cc6_stg2_1 : Ref sig .tc := ⟨.vmem, 38, rfl⟩
abbrev cc7_stg0_0 : Ref sig .tc := ⟨.vmem, 39, rfl⟩
abbrev cc7_stg0_1 : Ref sig .tc := ⟨.vmem, 40, rfl⟩
abbrev cc7_stg1_0 : Ref sig .tc := ⟨.vmem, 41, rfl⟩
abbrev cc7_stg2_0 : Ref sig .tc := ⟨.vmem, 42, rfl⟩
abbrev cc7_stg3_0 : Ref sig .tc := ⟨.vmem, 43, rfl⟩
abbrev cc7_stg3_1 : Ref sig .tc := ⟨.vmem, 44, rfl⟩
abbrev cc8_stg0_0 : Ref sig .tc := ⟨.vmem, 45, rfl⟩
abbrev cc8_stg0_1 : Ref sig .tc := ⟨.vmem, 46, rfl⟩
abbrev cc8_stg1_0 : Ref sig .tc := ⟨.vmem, 47, rfl⟩
abbrev cc8_stg2_0 : Ref sig .tc := ⟨.vmem, 48, rfl⟩
abbrev cc8_stg2_1 : Ref sig .tc := ⟨.vmem, 49, rfl⟩
abbrev cc9_stg0_0 : Ref sig .tc := ⟨.vmem, 50, rfl⟩
abbrev cc9_stg0_1 : Ref sig .tc := ⟨.vmem, 51, rfl⟩
abbrev cc9_stg1_0 : Ref sig .tc := ⟨.vmem, 52, rfl⟩
abbrev cc9_stg2_0 : Ref sig .tc := ⟨.vmem, 53, rfl⟩
abbrev cc9_stg3_0 : Ref sig .tc := ⟨.vmem, 54, rfl⟩
abbrev cc9_stg3_1 : Ref sig .tc := ⟨.vmem, 55, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem3_0 : DmaSem sig := 26
abbrev cc4_sem3_1 : DmaSem sig := 27
abbrev cc5_sem0_0 : DmaSem sig := 28
abbrev cc5_sem0_1 : DmaSem sig := 29
abbrev cc5_sem1_0 : DmaSem sig := 30
abbrev cc5_sem2_0 : DmaSem sig := 31
abbrev cc5_sem3_0 : DmaSem sig := 32
abbrev cc5_sem3_1 : DmaSem sig := 33
abbrev cc6_sem0_0 : DmaSem sig := 34
abbrev cc6_sem0_1 : DmaSem sig := 35
abbrev cc6_sem1_0 : DmaSem sig := 36
abbrev cc6_sem2_0 : DmaSem sig := 37
abbrev cc6_sem2_1 : DmaSem sig := 38
abbrev cc7_sem0_0 : DmaSem sig := 39
abbrev cc7_sem0_1 : DmaSem sig := 40
abbrev cc7_sem1_0 : DmaSem sig := 41
abbrev cc7_sem2_0 : DmaSem sig := 42
abbrev cc7_sem3_0 : DmaSem sig := 43
abbrev cc7_sem3_1 : DmaSem sig := 44
abbrev cc8_sem0_0 : DmaSem sig := 45
abbrev cc8_sem0_1 : DmaSem sig := 46
abbrev cc8_sem1_0 : DmaSem sig := 47
abbrev cc8_sem2_0 : DmaSem sig := 48
abbrev cc8_sem2_1 : DmaSem sig := 49
abbrev cc9_sem0_0 : DmaSem sig := 50
abbrev cc9_sem0_1 : DmaSem sig := 51
abbrev cc9_sem1_0 : DmaSem sig := 52
abbrev cc9_sem2_0 : DmaSem sig := 53
abbrev cc9_sem3_0 : DmaSem sig := 54
abbrev cc9_sem3_1 : DmaSem sig := 55

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S2000x256 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x256 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S2000x256 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x256 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S256x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S2000x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![25], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S2000x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![25], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S2000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S128x1024 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x1024 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S2000x1024 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S_S1x128 : S_.BroadcastsInDim S1x128 (![] : Fin 0 → Fin S1x128.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  bcast_S_S1x64 : S_.BroadcastsInDim S1x64 (![] : Fin 0 → Fin S1x64.rank)
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x64_S64x64_0_0 : ∀ a, (![0, 0] : Fin 2 → Nat) a + S64x64.size a ≤ S64x64.size a
  h_S64x64 : 0 < S64x64.numel
  bcast_S_S1x256 : S_.BroadcastsInDim S1x256 (![] : Fin 0 → Fin S1x256.rank)
  inb_S64x256_S64x256_0_0 : ∀ a, (![0, 0] : Fin 2 → Nat) a + S64x256.size a ≤ S64x256.size a
  h_S64x256 : 0 < S64x256.numel
  inb_S2000x256_S2000x256_0_0 : ∀ a, (![0, 0] : Fin 2 → Nat) a + S2000x256.size a ≤ S2000x256.size a
  h_S2000x256 : 0 < S2000x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  shapeCasts_S256_S1x256 : S256.ShapeCasts S1x256
  shapeCasts_S2000x256_S2000x256 : S2000x256.ShapeCasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x128_S256x128_0_0 : ∀ a, (![0, 0] : Fin 2 → Nat) a + S256x128.size a ≤ S256x128.size a
  h_S256x128 : 0 < S256x128.numel
  shapeCasts_S1024_S1x1024 : S1024.ShapeCasts S1x1024
  inb_S128x1024_S128x1024_0_0 : ∀ a, (![0, 0] : Fin 2 → Nat) a + S128x1024.size a ≤ S128x1024.size a
  h_S128x1024 : 0 < S128x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2000x1024 : S1x1024.Broadcasts S2000x1024
  inb_S2000x1024_S2000x1024_0_0 : ∀ a, (![0, 0] : Fin 2 → Nat) a + S2000x1024.size a ≤ S2000x1024.size a
  h_S2000x1024 : 0 < S2000x1024.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x128_S128x128_S2000x128_1_0_0_1_n_n_wf : DotDims.WF S2000x128 S128x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S2000x128_S128x64_S2000x64_1_0_0_1_n_n_wf : DotDims.WF S2000x128 S128x64 S2000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S2000x64_S64x64_S2000x64_1_0_0_1_n_n_wf : DotDims.WF S2000x64 S64x64 S2000x64 [1] [0] [0] [1] [] []
  dot_S2000x64_S64x256_S2000x256_1_0_0_1_n_n_wf : DotDims.WF S2000x64 S64x256 S2000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S2000x256_S256x128_S2000x128_1_0_0_1_n_n_wf : DotDims.WF S2000x256 S256x128 S2000x128 [1] [0] [0] [1] [] []
  dot_S2000x128_S128x1024_S2000x1024_1_0_0_1_n_n_wf : DotDims.WF S2000x128 S128x1024 S2000x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x64.size a ≤ S50000x64.size a
  hwx2_3 : ∀ i : grid2.Coords, EltTy.bits .f32 = 32 ∨ (Rect.block (s := S50000x64) S2000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S50000x64.size a
  hwx3_0 : ∀ i : grid3.Coords, EltTy.bits .f32 = 32 ∨ (Rect.block (s := S50000x64) S2000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x64.size a ≤ S50000x64.size a
  hwx3_2 : ∀ i : grid3.Coords, EltTy.bits .f32 = 32 ∨ (Rect.block (s := S50000x64) S2000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S50000x64.size a
  hwx4_0 : ∀ i : grid4.Coords, EltTy.bits .f32 = 32 ∨ (Rect.block (s := S50000x64) S2000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x64.size a ≤ S50000x64.size a
  hwx4_3 : ∀ i : grid4.Coords, EltTy.bits .f32 = 32 ∨ (Rect.block (s := S50000x64) S2000x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x64.size a ≤ S50000x64.size a
  hwx5_0 : ∀ i : grid5.Coords, EltTy.bits .f32 = 32 ∨ (Rect.block (s := S50000x64) S2000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x256.size a ≤ S64x256.size a
  hwx5_1 : ∀ i : grid5.Coords, EltTy.bits .f32 = 32 ∨ (Rect.block (s := S64x256) S64x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x256.size a ≤ S1x256.size a
  hwx5_2 : ∀ i : grid5.Coords, EltTy.bits .f32 = 32 ∨ (Rect.block (s := S1x256) S1x256.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x256.size a ≤ S50000x256.size a
  hwx5_3 : ∀ i : grid5.Coords, EltTy.bits .f32 = 32 ∨ (Rect.block (s := S50000x256) S2000x256.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x256.size a ≤ S50000x256.size a
  hwx6_0 : ∀ i : grid6.Coords, EltTy.bits .f32 = 32 ∨ (Rect.block (s := S50000x256) S2000x256.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x256.size a ≤ S1x256.size a
  hwx6_1 : ∀ i : grid6.Coords, EltTy.bits .f32 = 32 ∨ (Rect.block (s := S1x256) S1x256.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x256.size a ≤ S50000x256.size a
  hwx6_2 : ∀ i : grid6.Coords, EltTy.bits .f32 = 32 ∨ (Rect.block (s := S50000x256) S2000x256.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x256.size a ≤ S50000x256.size a
  hwx7_0 : ∀ i : grid7.Coords, EltTy.bits .f32 = 32 ∨ (Rect.block (s := S50000x256) S2000x256.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S256x128.size a ≤ S256x128.size a
  hwx7_1 : ∀ i : grid7.Coords, EltTy.bits .f32 = 32 ∨ (Rect.block (s := S256x128) S256x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S2000x128.size a ≤ S50000x128.size a
  hwx7_3 : ∀ i : grid7.Coords, EltTy.bits .f32 = 32 ∨ (Rect.block (s := S50000x128) S2000x128.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x128.size a ≤ S50000x128.size a
  hwx8_0 : ∀ i : grid8.Coords, EltTy.bits .f32 = 32 ∨ (Rect.block (s := S50000x128) S2000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x128.size a ≤ S1x128.size a
  hwx8_1 : ∀ i : grid8.Coords, EltTy.bits .f32 = 32 ∨ (Rect.block (s := S1x128) S1x128.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S2000x128.size a ≤ S50000x128.size a
  hwx8_2 : ∀ i : grid8.Coords, EltTy.bits .f32 = 32 ∨ (Rect.block (s := S50000x128) S2000x128.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2000x128.size a ≤ S50000x128.size a
  hwx9_0 : ∀ i : grid9.Coords, EltTy.bits .f32 = 32 ∨ (Rect.block (s := S50000x128) S2000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S128x1024.size a ≤ S128x1024.size a
  hwx9_1 : ∀ i : grid9.Coords, EltTy.bits .f32 = 32 ∨ (Rect.block (s := S128x1024) S128x1024.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x1024.size a ≤ S1x1024.size a
  hwx9_2 : ∀ i : grid9.Coords, EltTy.bits .f32 = 32 ∨ (Rect.block (s := S1x1024) S1x1024.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S2000x1024.size a ≤ S50000x1024.size a
  hwx9_3 : ∀ i : grid9.Coords, EltTy.bits .f32 = 32 ∨ (Rect.block (s := S50000x1024) S2000x1024.size (cc9_transform_3 i) (hinb9_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x64_S64x256_S2000x256_1_0_0_1_n_n : DotDims S2000x64 S64x256 S2000x256 where
  lhsContracting := [1]
  rhsContracting := [0]
  lhsNonContracting := [0]
  rhsNonContracting := [1]
  lhsBatch := []
  rhsBatch := []
  wf := dot_S2000x64_S64x256_S2000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def dot_S2000x128_S128x1024_S2000x1024_1_0_0_1_n_n : DotDims S2000x128 S128x1024 S2000x1024 where
  lhsContracting := [1]
  rhsContracting := [0]
  lhsNonContracting := [0]
  rhsNonContracting := [1]
  lhsBatch := []
  rhsBatch := []
  wf := dot_S2000x128_S128x1024_S2000x1024_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v32) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v45) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v49) S2000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v62) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v63) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v64) S2000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v64) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v65) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v66) S2000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v66) S2000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg8) S64x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v67) S1x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v68) S2000x256.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v81) S2000x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v82) S1x256.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v83) S2000x256.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v83) S2000x256.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg10) S256x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v84) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v85) S2000x128.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v98) S2000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v99) S1x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v100) S2000x128.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v100) S2000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_arg12) S128x1024.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v101) S1x1024.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v102) S2000x1024.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S64x256 : Shape := ⟨2, ![64, 256]⟩
abbrev S256 : Shape := ⟨1, ![256]⟩
abbrev S256x128 : Shape := ⟨2, ![256, 128]⟩
abbrev S128x1024 : Shape := ⟨2, ![128, 1024]⟩
abbrev S1024 : Shape := ⟨1, ![1024]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩
abbrev S50000x256 : Shape := ⟨2, ![50000, 256]⟩
abbrev S850000x256 : Shape := ⟨2, ![850000, 256]⟩
abbrev S1x256 : Shape := ⟨2, ![1, 256]⟩
abbrev S50000x1024 : Shape := ⟨2, ![50000, 1024]⟩
abbrev S1x1024 : Shape := ⟨2, ![1, 1024]⟩

abbrev nBuf : Space → Nat
  | .hbm => 272
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x64, .f32⟩
  | 5 => ⟨S64, .f32⟩
  | 6 => ⟨S64x64, .f32⟩
  | 7 => ⟨S64, .f32⟩
  | 8 => ⟨S64x256, .f32⟩
  | 9 => ⟨S256, .f32⟩
  | 10 => ⟨S256x128, .f32⟩
  | 11 => ⟨S128, .f32⟩
  | 12 => ⟨S128x1024, .f32⟩
  | 13 => ⟨S1024, .f32⟩
  | 14 => ⟨S1x800000, .i32⟩
  | 15 => ⟨S800000, .i32⟩
  | 16 => ⟨S50000, .i32⟩
  | 17 => ⟨S850000, .i32⟩
  | 18 => ⟨S1x800000, .i32⟩
  | 19 => ⟨S800000, .i32⟩
  | 20 => ⟨S50000, .i32⟩
  | 21 => ⟨S850000, .i32⟩
  | 22 => ⟨S_, .f32⟩
  | 23 => ⟨S850000, .f32⟩
  | 24 => ⟨S_, .f32⟩
  | 25 => ⟨S50000, .f32⟩
  | 26 => ⟨S850000x1, .i32⟩
  | 27 => ⟨S50000, .f32⟩
  | 28 => ⟨S_, .f32⟩
  | 29 => ⟨S50000, .f32⟩
  | 30 => ⟨S50000, .i1⟩
  | 31 => ⟨S50000, .f32⟩
  | 32 => ⟨S_, .f32⟩
  | 33 => ⟨S_, .f32⟩
  | 34 => ⟨S50000, .f32⟩
  | 35 => ⟨S50000, .f32⟩
  | 36 => ⟨S_, .i32⟩
  | 37 => ⟨S850000, .i32⟩
  | 38 => ⟨S850000, .i1⟩
  | 39 => ⟨S_, .i32⟩
  | 40 => ⟨S850000, .i32⟩
  | 41 => ⟨S850000, .i32⟩
  | 42 => ⟨S850000, .i32⟩
  | 43 => ⟨S850000x1, .i32⟩
  | 44 => ⟨S850000, .f32⟩
  | 45 => ⟨S_, .i32⟩
  | 46 => ⟨S850000, .i32⟩
  | 47 => ⟨S850000, .i1⟩
  | 48 => ⟨S_, .i32⟩
  | 49 => ⟨S850000, .i32⟩
  | 50 => ⟨S850000, .i32⟩
  | 51 => ⟨S850000, .i32⟩
  | 52 => ⟨S850000x1, .i32⟩
  | 53 => ⟨S850000, .f32⟩
  | 54 => ⟨S850000, .f32⟩
  | 55 => ⟨S50000x128, .f32⟩
  | 56 => ⟨S_, .i32⟩
  | 57 => ⟨S850000, .i32⟩
  | 58 => ⟨S850000, .i1⟩
  | 59 => ⟨S_, .i32⟩
  | 60 => ⟨S850000, .i32⟩
  | 61 => ⟨S850000, .i32⟩
  | 62 => ⟨S850000, .i32⟩
  | 63 => ⟨S850000x1, .i32⟩
  | 64 => ⟨S850000x128, .f32⟩
  | 65 => ⟨S850000x1, .f32⟩
  | 66 => ⟨S850000x128, .f32⟩
  | 67 => ⟨S850000x128, .f32⟩
  | 68 => ⟨S_, .f32⟩
  | 69 => ⟨S50000x128, .f32⟩
  | 70 => ⟨S850000x1, .i32⟩
  | 71 => ⟨S50000x128, .f32⟩
  | 72 => ⟨S1x128, .f32⟩
  | 73 => ⟨S50000x128, .f32⟩
  | 74 => ⟨S50000x128, .f32⟩
  | 75 => ⟨S_, .f32⟩
  | 76 => ⟨S50000x128, .f32⟩
  | 77 => ⟨S50000x128, .f32⟩
  | 78 => ⟨S1x800000, .i32⟩
  | 79 => ⟨S800000, .i32⟩
  | 80 => ⟨S50000, .i32⟩
  | 81 => ⟨S850000, .i32⟩
  | 82 => ⟨S1x800000, .i32⟩
  | 83 => ⟨S800000, .i32⟩
  | 84 => ⟨S50000, .i32⟩
  | 85 => ⟨S850000, .i32⟩
  | 86 => ⟨S_, .f32⟩
  | 87 => ⟨S850000, .f32⟩
  | 88 => ⟨S_, .f32⟩
  | 89 => ⟨S50000, .f32⟩
  | 90 => ⟨S850000x1, .i32⟩
  | 91 => ⟨S50000, .f32⟩
  | 92 => ⟨S_, .f32⟩
  | 93 => ⟨S50000, .f32⟩
  | 94 => ⟨S50000, .i1⟩
  | 95 => ⟨S50000, .f32⟩
  | 96 => ⟨S_, .f32⟩
  | 97 => ⟨S_, .f32⟩
  | 98 => ⟨S50000, .f32⟩
  | 99 => ⟨S50000, .f32⟩
  | 100 => ⟨S_, .i32⟩
  | 101 => ⟨S850000, .i32⟩
  | 102 => ⟨S850000, .i1⟩
  | 103 => ⟨S_, .i32⟩
  | 104 => ⟨S850000, .i32⟩
  | 105 => ⟨S850000, .i32⟩
  | 106 => ⟨S850000, .i32⟩
  | 107 => ⟨S850000x1, .i32⟩
  | 108 => ⟨S850000, .f32⟩
  | 109 => ⟨S_, .i32⟩
  | 110 => ⟨S850000, .i32⟩
  | 111 => ⟨S850000, .i1⟩
  | 112 => ⟨S_, .i32⟩
  | 113 => ⟨S850000, .i32⟩
  | 114 => ⟨S850000, .i32⟩
  | 115 => ⟨S850000, .i32⟩
  | 116 => ⟨S850000x1, .i32⟩
  | 117 => ⟨S850000, .f32⟩
  | 118 => ⟨S850000, .f32⟩
  | 119 => ⟨S50000x64, .f32⟩
  | 120 => ⟨S_, .i32⟩
  | 121 => ⟨S850000, .i32⟩
  | 122 => ⟨S850000, .i1⟩
  | 123 => ⟨S_, .i32⟩
  | 124 => ⟨S850000, .i32⟩
  | 125 => ⟨S850000, .i32⟩
  | 126 => ⟨S850000, .i32⟩
  | 127 => ⟨S850000x1, .i32⟩
  | _ => ⟨S50000x128, .f32⟩

abbrev hbmTy0_1 (i : Nat) : BufTy := match i % 128 with
  | 0 => ⟨S850000x64, .f32⟩
  | 1 => ⟨S850000x1, .f32⟩
  | 2 => ⟨S850000x64, .f32⟩
  | 3 => ⟨S850000x64, .f32⟩
  | 4 => ⟨S_, .f32⟩
  | 5 => ⟨S50000x64, .f32⟩
  | 6 => ⟨S850000x1, .i32⟩
  | 7 => ⟨S50000x64, .f32⟩
  | 8 => ⟨S1x64, .f32⟩
  | 9 => ⟨S50000x64, .f32⟩
  | 10 => ⟨S50000x64, .f32⟩
  | 11 => ⟨S50000x64, .f32⟩
  | 12 => ⟨S1x64, .f32⟩
  | 13 => ⟨S50000x64, .f32⟩
  | 14 => ⟨S50000x64, .f32⟩
  | 15 => ⟨S1x800000, .i32⟩
  | 16 => ⟨S800000, .i32⟩
  | 17 => ⟨S50000, .i32⟩
  | 18 => ⟨S850000, .i32⟩
  | 19 => ⟨S1x800000, .i32⟩
  | 20 => ⟨S800000, .i32⟩
  | 21 => ⟨S50000, .i32⟩
  | 22 => ⟨S850000, .i32⟩
  | 23 => ⟨S_, .f32⟩
  | 24 => ⟨S850000, .f32⟩
  | 25 => ⟨S_, .f32⟩
  | 26 => ⟨S50000, .f32⟩
  | 27 => ⟨S850000x1, .i32⟩
  | 28 => ⟨S50000, .f32⟩
  | 29 => ⟨S_, .f32⟩
  | 30 => ⟨S50000, .f32⟩
  | 31 => ⟨S50000, .i1⟩
  | 32 => ⟨S50000, .f32⟩
  | 33 => ⟨S_, .f32⟩
  | 34 => ⟨S_, .f32⟩
  | 35 => ⟨S50000, .f32⟩
  | 36 => ⟨S50000, .f32⟩
  | 37 => ⟨S_, .i32⟩
  | 38 => ⟨S850000, .i32⟩
  | 39 => ⟨S850000, .i1⟩
  | 40 => ⟨S_, .i32⟩
  | 41 => ⟨S850000, .i32⟩
  | 42 => ⟨S850000, .i32⟩
  | 43 => ⟨S850000, .i32⟩
  | 44 => ⟨S850000x1, .i32⟩
  | 45 => ⟨S850000, .f32⟩
  | 46 => ⟨S_, .i32⟩
  | 47 => ⟨S850000, .i32⟩
  | 48 => ⟨S850000, .i1⟩
  | 49 => ⟨S_, .i32⟩
  | 50 => ⟨S850000, .i32⟩
  | 51 => ⟨S850000, .i32⟩
  | 52 => ⟨S850000, .i32⟩
  | 53 => ⟨S850000x1, .i32⟩
  | 54 => ⟨S850000, .f32⟩
  | 55 => ⟨S850000, .f32⟩
  | 56 => ⟨S50000x256, .f32⟩
  | 57 => ⟨S_, .i32⟩
  | 58 => ⟨S850000, .i32⟩
  | 59 => ⟨S850000, .i1⟩
  | 60 => ⟨S_, .i32⟩
  | 61 => ⟨S850000, .i32⟩
  | 62 => ⟨S850000, .i32⟩
  | 63 => ⟨S850000, .i32⟩
  | 64 => ⟨S850000x1, .i32⟩
  | 65 => ⟨S850000x256, .f32⟩
  | 66 => ⟨S850000x1, .f32⟩
  | 67 => ⟨S850000x256, .f32⟩
  | 68 => ⟨S850000x256, .f32⟩
  | 69 => ⟨S_, .f32⟩
  | 70 => ⟨S50000x256, .f32⟩
  | 71 => ⟨S850000x1, .i32⟩
  | 72 => ⟨S50000x256, .f32⟩
  | 73 => ⟨S1x256, .f32⟩
  | 74 => ⟨S50000x256, .f32⟩
  | 75 => ⟨S50000x256, .f32⟩
  | 76 => ⟨S_, .f32⟩
  | 77 => ⟨S50000x256, .f32⟩
  | 78 => ⟨S50000x256, .f32⟩
  | 79 => ⟨S1x800000, .i32⟩
  | 80 => ⟨S800000, .i32⟩
  | 81 => ⟨S50000, .i32⟩
  | 82 => ⟨S850000, .i32⟩
  | 83 => ⟨S1x800000, .i32⟩
  | 84 => ⟨S800000, .i32⟩
  | 85 => ⟨S50000, .i32⟩
  | 86 => ⟨S850000, .i32⟩
  | 87 => ⟨S_, .f32⟩
  | 88 => ⟨S850000, .f32⟩
  | 89 => ⟨S_, .f32⟩
  | 90 => ⟨S50000, .f32⟩
  | 91 => ⟨S850000x1, .i32⟩
  | 92 => ⟨S50000, .f32⟩
  | 93 => ⟨S_, .f32⟩
  | 94 => ⟨S50000, .f32⟩
  | 95 => ⟨S50000, .i1⟩
  | 96 => ⟨S50000, .f32⟩
  | 97 => ⟨S_, .f32⟩
  | 98 => ⟨S_, .f32⟩
  | 99 => ⟨S50000, .f32⟩
  | 100 => ⟨S50000, .f32⟩
  | 101 => ⟨S_, .i32⟩
  | 102 => ⟨S850000, .i32⟩
  | 103 => ⟨S850000, .i1⟩
  | 104 => ⟨S_, .i32⟩
  | 105 => ⟨S850000, .i32⟩
  | 106 => ⟨S850000, .i32⟩
  | 107 => ⟨S850000, .i32⟩
  | 108 => ⟨S850000x1, .i32⟩
  | 109 => ⟨S850000, .f32⟩
  | 110 => ⟨S_, .i32⟩
  | 111 => ⟨S850000, .i32⟩
  | 112 => ⟨S850000, .i1⟩
  | 113 => ⟨S_, .i32⟩
  | 114 => ⟨S850000, .i32⟩
  | 115 => ⟨S850000, .i32⟩
  | 116 => ⟨S850000, .i32⟩
  | 117 => ⟨S850000x1, .i32⟩
  | 118 => ⟨S850000, .f32⟩
  | 119 => ⟨S850000, .f32⟩
  | 120 => ⟨S50000x128, .f32⟩
  | 121 => ⟨S_, .i32⟩
  | 122 => ⟨S850000, .i32⟩
  | 123 => ⟨S850000, .i1⟩
  | 124 => ⟨S_, .i32⟩
  | 125 => ⟨S850000, .i32⟩
  | 126 => ⟨S850000, .i32⟩
  | 127 => ⟨S850000, .i32⟩
  | _ => ⟨S50000x128, .f32⟩

abbrev hbmTy0_2 (i : Nat) : BufTy := match i % 128 with
  | 0 => ⟨S850000x1, .i32⟩
  | 1 => ⟨S850000x128, .f32⟩
  | 2 => ⟨S850000x1, .f32⟩
  | 3 => ⟨S850000x128, .f32⟩
  | 4 => ⟨S850000x128, .f32⟩
  | 5 => ⟨S_, .f32⟩
  | 6 => ⟨S50000x128, .f32⟩
  | 7 => ⟨S850000x1, .i32⟩
  | 8 => ⟨S50000x128, .f32⟩
  | 9 => ⟨S1x128, .f32⟩
  | 10 => ⟨S50000x128, .f32⟩
  | 11 => ⟨S50000x128, .f32⟩
  | 12 => ⟨S50000x1024, .f32⟩
  | 13 => ⟨S1x1024, .f32⟩
  | 14 => ⟨S50000x1024, .f32⟩
  | 15 => ⟨S50000x1024, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_cst_0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_1 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_v15 : Ref sig .tc := ⟨.hbm, 35, rfl⟩
abbrev main_c : Ref sig .tc := ⟨.hbm, 36, rfl⟩
abbrev main_v16 : Ref sig .tc := ⟨.hbm, 37, rfl⟩
abbrev main_v17 : Ref sig .tc := ⟨.hbm, 38, rfl⟩
abbrev main_c_3 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_c_4 : Ref sig .tc := ⟨.hbm, 45, rfl⟩
abbrev main_v23 : Ref sig .tc := ⟨.hbm, 46, rfl⟩
abbrev main_v24 : Ref sig .tc := ⟨.hbm, 47, rfl⟩
abbrev main_c_5 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_c_6 : Ref sig .tc := ⟨.hbm, 56, rfl⟩
abbrev main_v32 : Ref sig .tc := ⟨.hbm, 57, rfl⟩
abbrev main_v33 : Ref sig .tc := ⟨.hbm, 58, rfl⟩
abbrev main_c_7 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_8 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_call1_cst : Ref sig .tc := ⟨.hbm, 75, rfl⟩
abbrev main_call1_v0 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_9 : Ref sig .tc := ⟨.hbm, 86, rfl⟩
abbrev main_v57 : Ref sig .tc := ⟨.hbm, 87, rfl⟩
abbrev main_cst_10 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_11 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_cst_12 : Ref sig .tc := ⟨.hbm, 96, rfl⟩
abbrev main_call2_v0 : Ref sig .tc := ⟨.hbm, 97, rfl⟩
abbrev main_call2_v1 : Ref sig .tc := ⟨.hbm, 98, rfl⟩
abbrev main_v64 : Ref sig .tc := ⟨.hbm, 99, rfl⟩
abbrev main_c_13 : Ref sig .tc := ⟨.hbm, 100, rfl⟩
abbrev main_v65 : Ref sig .tc := ⟨.hbm, 101, rfl⟩
abbrev main_v66 : Ref sig .tc := ⟨.hbm, 102, rfl⟩
abbrev main_c_14 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_c_15 : Ref sig .tc := ⟨.hbm, 109, rfl⟩
abbrev main_v72 : Ref sig .tc := ⟨.hbm, 110, rfl⟩
abbrev main_v73 : Ref sig .tc := ⟨.hbm, 111, rfl⟩
abbrev main_c_16 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_c_17 : Ref sig .tc := ⟨.hbm, 120, rfl⟩
abbrev main_v81 : Ref sig .tc := ⟨.hbm, 121, rfl⟩
abbrev main_v82 : Ref sig .tc := ⟨.hbm, 122, rfl⟩
abbrev main_c_18 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_cst_19 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_cst_20 : Ref sig .tc := ⟨.hbm, 151, rfl⟩
abbrev main_v109 : Ref sig .tc := ⟨.hbm, 152, rfl⟩
abbrev main_cst_21 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_cst_22 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_cst_23 : Ref sig .tc := ⟨.hbm, 161, rfl⟩
abbrev main_call3_v0 : Ref sig .tc := ⟨.hbm, 162, rfl⟩
abbrev main_call3_v1 : Ref sig .tc := ⟨.hbm, 163, rfl⟩
abbrev main_v116 : Ref sig .tc := ⟨.hbm, 164, rfl⟩
abbrev main_c_24 : Ref sig .tc := ⟨.hbm, 165, rfl⟩
abbrev main_v117 : Ref sig .tc := ⟨.hbm, 166, rfl⟩
abbrev main_v118 : Ref sig .tc := ⟨.hbm, 167, rfl⟩
abbrev main_c_25 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_c_26 : Ref sig .tc := ⟨.hbm, 174, rfl⟩
abbrev main_v124 : Ref sig .tc := ⟨.hbm, 175, rfl⟩
abbrev main_v125 : Ref sig .tc := ⟨.hbm, 176, rfl⟩
abbrev main_c_27 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_c_28 : Ref sig .tc := ⟨.hbm, 185, rfl⟩
abbrev main_v133 : Ref sig .tc := ⟨.hbm, 186, rfl⟩
abbrev main_v134 : Ref sig .tc := ⟨.hbm, 187, rfl⟩
abbrev main_c_29 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_cst_30 : Ref sig .tc := ⟨.hbm, 197, rfl⟩
abbrev main_v143 : Ref sig .tc := ⟨.hbm, 198, rfl⟩
abbrev main_v144 : Ref sig .tc := ⟨.hbm, 199, rfl⟩
abbrev main_v145 : Ref sig .tc := ⟨.hbm, 200, rfl⟩
abbrev main_v146 : Ref sig .tc := ⟨.hbm, 201, rfl⟩
abbrev main_v147 : Ref sig .tc := ⟨.hbm, 202, rfl⟩
abbrev main_v148 : Ref sig .tc := ⟨.hbm, 203, rfl⟩
abbrev main_call4_cst : Ref sig .tc := ⟨.hbm, 204, rfl⟩
abbrev main_call4_v0 : Ref sig .tc := ⟨.hbm, 205, rfl⟩
abbrev main_v149 : Ref sig .tc := ⟨.hbm, 206, rfl⟩
abbrev main_v150 : Ref sig .tc := ⟨.hbm, 207, rfl⟩
abbrev main_v151 : Ref sig .tc := ⟨.hbm, 208, rfl⟩
abbrev main_v152 : Ref sig .tc := ⟨.hbm, 209, rfl⟩
abbrev main_v153 : Ref sig .tc := ⟨.hbm, 210, rfl⟩
abbrev main_v154 : Ref sig .tc := ⟨.hbm, 211, rfl⟩
abbrev main_v155 : Ref sig .tc := ⟨.hbm, 212, rfl⟩
abbrev main_v156 : Ref sig .tc := ⟨.hbm, 213, rfl⟩
abbrev main_v157 : Ref sig .tc := ⟨.hbm, 214, rfl⟩
abbrev main_cst_31 : Ref sig .tc := ⟨.hbm, 215, rfl⟩
abbrev main_v158 : Ref sig .tc := ⟨.hbm, 216, rfl⟩
abbrev main_cst_32 : Ref sig .tc := ⟨.hbm, 217, rfl⟩
abbrev main_v159 : Ref sig .tc := ⟨.hbm, 218, rfl⟩
abbrev main_v160 : Ref sig .tc := ⟨.hbm, 219, rfl⟩
abbrev main_v161 : Ref sig .tc := ⟨.hbm, 220, rfl⟩
abbrev main_cst_33 : Ref sig .tc := ⟨.hbm, 221, rfl⟩
abbrev main_v162 : Ref sig .tc := ⟨.hbm, 222, rfl⟩
abbrev main_v163 : Ref sig .tc := ⟨.hbm, 223, rfl⟩
abbrev main_v164 : Ref sig .tc := ⟨.hbm, 224, rfl⟩
abbrev main_cst_34 : Ref sig .tc := ⟨.hbm, 225, rfl⟩
abbrev main_call5_v0 : Ref sig .tc := ⟨.hbm, 226, rfl⟩
abbrev main_call5_v1 : Ref sig .tc := ⟨.hbm, 227, rfl⟩
abbrev main_v165 : Ref sig .tc := ⟨.hbm, 228, rfl⟩
abbrev main_c_35 : Ref sig .tc := ⟨.hbm, 229, rfl⟩
abbrev main_v166 : Ref sig .tc := ⟨.hbm, 230, rfl⟩
abbrev main_v167 : Ref sig .tc := ⟨.hbm, 231, rfl⟩
abbrev main_c_36 : Ref sig .tc := ⟨.hbm, 232, rfl⟩
abbrev main_v168 : Ref sig .tc := ⟨.hbm, 233, rfl⟩
abbrev main_v169 : Ref sig .tc := ⟨.hbm, 234, rfl⟩
abbrev main_v170 : Ref sig .tc := ⟨.hbm, 235, rfl⟩
abbrev main_v171 : Ref sig .tc := ⟨.hbm, 236, rfl⟩
abbrev main_v172 : Ref sig .tc := ⟨.hbm, 237, rfl⟩
abbrev main_c_37 : Ref sig .tc := ⟨.hbm, 238, rfl⟩
abbrev main_v173 : Ref sig .tc := ⟨.hbm, 239, rfl⟩
abbrev main_v174 : Ref sig .tc := ⟨.hbm, 240, rfl⟩
abbrev main_c_38 : Ref sig .tc := ⟨.hbm, 241, rfl⟩
abbrev main_v175 : Ref sig .tc := ⟨.hbm, 242, rfl⟩
abbrev main_v176 : Ref sig .tc := ⟨.hbm, 243, rfl⟩
abbrev main_v177 : Ref sig .tc := ⟨.hbm, 244, rfl⟩
abbrev main_v178 : Ref sig .tc := ⟨.hbm, 245, rfl⟩
abbrev main_v179 : Ref sig .tc := ⟨.hbm, 246, rfl⟩
abbrev main_v180 : Ref sig .tc := ⟨.hbm, 247, rfl⟩
abbrev main_v181 : Ref sig .tc := ⟨.hbm, 248, rfl⟩
abbrev main_c_39 : Ref sig .tc := ⟨.hbm, 249, rfl⟩
abbrev main_v182 : Ref sig .tc := ⟨.hbm, 250, rfl⟩
abbrev main_v183 : Ref sig .tc := ⟨.hbm, 251, rfl⟩
abbrev main_c_40 : Ref sig .tc := ⟨.hbm, 252, rfl⟩
abbrev main_v184 : Ref sig .tc := ⟨.hbm, 253, rfl⟩
abbrev main_v185 : Ref sig .tc := ⟨.hbm, 254, rfl⟩
abbrev main_v186 : Ref sig .tc := ⟨.hbm, 255, rfl⟩
abbrev main_v187 : Ref sig .tc := ⟨.hbm, 256, rfl⟩
abbrev main_v188 : Ref sig .tc := ⟨.hbm, 257, rfl⟩
abbrev main_v189 : Ref sig .tc := ⟨.hbm, 258, rfl⟩
abbrev main_v190 : Ref sig .tc := ⟨.hbm, 259, rfl⟩
abbrev main_v191 : Ref sig .tc := ⟨.hbm, 260, rfl⟩
abbrev main_cst_41 : Ref sig .tc := ⟨.hbm, 261, rfl⟩
abbrev main_v192 : Ref sig .tc := ⟨.hbm, 262, rfl⟩
abbrev main_v193 : Ref sig .tc := ⟨.hbm, 263, rfl⟩
abbrev main_v194 : Ref sig .tc := ⟨.hbm, 264, rfl⟩
abbrev main_v195 : Ref sig .tc := ⟨.hbm, 265, rfl⟩
abbrev main_v196 : Ref sig .tc := ⟨.hbm, 266, rfl⟩
abbrev main_v197 : Ref sig .tc := ⟨.hbm, 267, rfl⟩
abbrev main_v198 : Ref sig .tc := ⟨.hbm, 268, rfl⟩
abbrev main_v199 : Ref sig .tc := ⟨.hbm, 269, rfl⟩
abbrev main_v200 : Ref sig .tc := ⟨.hbm, 270, rfl⟩
abbrev main_v201 : Ref sig .tc := ⟨.hbm, 271, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S1024_S1x1024_1 : S1024.BroadcastsInDim S1x1024 (![1] : Fin 1 → Fin S1x1024.rank)
  bcast_S1x1024_S50000x1024_0_1 : S1x1024.BroadcastsInDim S50000x1024 (![0, 1] : Fin 2 → Fin S50000x1024.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x64_S50000x64_1_0_0_1_n_n_wf : DotDims.WF S50000x64 S64x64 S50000x64 [1] [0] [0] [1] [] []
  dot_S50000x64_S64x256_S50000x256_1_0_0_1_n_n_wf : DotDims.WF S50000x64 S64x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x128_S50000x128_1_0_0_1_n_n_wf : DotDims.WF S50000x256 S256x128 S50000x128 [1] [0] [0] [1] [] []
  dot_S50000x128_S128x1024_S50000x1024_1_0_0_1_n_n_wf : DotDims.WF S50000x128 S128x1024 S50000x1024 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x64_S64x256_S50000x256_1_0_0_1_n_n : DotDims S50000x64 S64x256 S50000x256 where
  lhsContracting := [1]
  rhsContracting := [0]
  lhsNonContracting := [0]
  rhsNonContracting := [1]
  lhsBatch := []
  rhsBatch := []
  wf := dot_S50000x64_S64x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x1024_S50000x1024_1_0_0_1_n_n : DotDims S50000x128 S128x1024 S50000x1024 where
  lhsContracting := [1]
  rhsContracting := [0]
  lhsNonContracting := [0]
  rhsNonContracting := [1]
  lhsBatch := []
  rhsBatch := []
  wf := dot_S50000x128_S128x1024_S50000x1024_1_0_0_1_n_n_wf

class Facts : Prop extends Facts₀ where

variable [Facts]
-- ==== Proof.KernelNamed.lean ====
/-
  The idealized kernel program's run with its result named.

  The program is ten row-blocked regions among stretches of host operations. Its run ends in a thread
  state that holds every unscoped buffer at the contents the last boundary of the fold through the
  program gives it: after a stretch of host operations, the operations' results; after a region, its
  windows' arrays at what the write-backs leave and every other buffer as the region found it. Read
  against the final memory, that state gives the result buffer at the fold's last contents of it, and
  each argument buffer at its launch contents (no host operation and no region writes an argument).
-/
import proofs.«113196_j25048249270387_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes
-- unfolding plain definitions in a metavariable's type
set_option backward.isDefEq.respectTransparency.types false in
/-- Every weakly fair execution of the program terminates, nothing faulting, with the result buffer at the
    last boundary's contents of it and every argument as launched. -/
theorem run_named : θ_run defs (onTc (τ := τ) (main (F := F))) ⟨m, fun _ => 0, ρ⟩ (fun r => ∀ c : Dev nD,
      r.2.mem ((c.tc : Thread nD τ).loc main_v102) = W22 m ρ c (Proc.devRef .tc main_v102)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W22 m ρ c b)
    (hfin := fun c s' => by
      iintro ⟨⟨Hh, -⟩, HSI⟩
      unfold StableHlo.held
      imodintro
      iapply (pointsTo_read_all (Pipeline.ucRefs τ sig) (fun b => (((c : Thread nD τ)).1, b)) (W22 m ρ c) s')
      isplitl [Hh] <;> iassumption)
    (hQ := fun s h c =>
      ⟨h c _ (mem_uc main_v102 (by decide)),
       (h c _ (mem_uc main_arg0 (by decide))).trans (W22_main_arg0 m ρ c),
       (h c _ (mem_uc main_arg1 (by decide))).trans (W22_main_arg1 m ρ c),
       (h c _ (mem_uc main_arg2 (by decide))).trans (W22_main_arg2 m ρ c),
       (h c _ (mem_uc main_arg3 (by decide))).trans (W22_main_arg3 m ρ c),
       (h c _ (mem_uc main_arg4 (by decide))).trans (W22_main_arg4 m ρ c),
       (h c _ (mem_uc main_arg5 (by decide))).trans (W22_main_arg5 m ρ c),
       (h c _ (mem_uc main_arg6 (by decide))).trans (W22_main_arg6 m ρ c),
       (h c _ (mem_uc main_arg7 (by decide))).trans (W22_main_arg7 m ρ c),
       (h c _ (mem_uc main_arg8 (by decide))).trans (W22_main_arg8 m ρ c),
       (h c _ (mem_uc main_arg9 (by decide))).trans (W22_main_arg9 m ρ c),
       (h c _ (mem_uc main_arg10 (by decide))).trans (W22_main_arg10 m ρ c),
       (h c _ (mem_uc main_arg11 (by decide))).trans (W22_main_arg11 m ρ c),
       (h c _ (mem_uc main_arg12 (by decide))).trans (W22_main_arg12 m ρ c),
       (h c _ (mem_uc main_arg13 (by decide))).trans (W22_main_arg13 m ρ c)⟩)

end Cert.KernelIdeal.Named

end
-- ==== Proof.KernelKeep.lean ====
/-
  Buffers the program leaves alone.

  The program's run is a fold through its stretches of host operations and its regions. A stretch of host
  operations changes only the buffers its operations write; a region changes only its output window's
  array and leaves every buffer that is none of its windows' arrays as it found it. So a buffer written
  before the first region (the edges' end nodes, the edge weights) is still what it was at every later
  boundary, and an argument buffer is still the launch contents, as long as no stretch in between writes
  it and no region in between has it as a window. Each step is stated for ANY buffer outside an explicit
  list, and the steps are chained back to the first region's entry and to the launch.
-/
import proofs.«113196_j25048249270387_1_alg».proof.Proof.Gen.KernelIdeal.Frame
import Idealize.ShloMosaic.Lib.StableHlo.Run
import Idealize.ShloMosaic.PureOps.Ideal

noncomputable section

namespace Cert.KernelIdeal.Keep

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-! ## What each stretch writes, what each region's windows are -/

/-- The buffers `hostOps0` writes. -/
abbrev wr_hostOps0 : List (Ref sig .tc) := [main_v0, main_v1, main_v2, main_v3, main_v4, main_v5, main_v6, main_v7, main_cst, main_v8, main_cst_0, main_v9, main_v10, main_v11, main_cst_1, main_v12, main_v13, main_v14, main_cst_2]
/-- The buffers `hostOps0_1` writes. -/
abbrev wr_hostOps0_1 : List (Ref sig .tc) := [main_call0_v0, main_call0_v1, main_v15]
/-- The buffers `hostOps0_2` writes. -/
abbrev wr_hostOps0_2 : List (Ref sig .tc) := [main_c, main_v16, main_v17, main_c_3, main_v18, main_v19, main_v20, main_v21, main_v22, main_c_4, main_v23, main_v24, main_c_5, main_v25, main_v26, main_v27, main_v28, main_v29, main_v30, main_cst_6, main_v31]
/-- The buffers `hostOps1` writes. -/
abbrev wr_hostOps1 : List (Ref sig .tc) := [main_c_7, main_v33, main_v34, main_c_8, main_v35, main_v36, main_v37, main_v38, main_v39, main_v40, main_v41, main_v42, main_cst_9, main_v43, main_v44, main_v45, main_v46]
/-- The buffers `hostOps2` writes. -/
abbrev wr_hostOps2 : List (Ref sig .tc) := [main_cst_10, main_v48]
/-- The buffers `hostOps3` writes. -/
abbrev wr_hostOps3 : List (Ref sig .tc) := [main_c_11, main_v50, main_v51, main_c_12, main_v52, main_v53, main_v54, main_v55, main_v56, main_v57, main_v58, main_v59, main_cst_13, main_v60, main_v61, main_v62, main_v63]
/-- The buffers `hostOps4` writes. -/
abbrev wr_hostOps4 : List (Ref sig .tc) := [main_v65]
/-- The buffers `hostOps5` writes. -/
abbrev wr_hostOps5 : List (Ref sig .tc) := [main_cst_14, main_v67]
/-- The buffers `hostOps6` writes. -/
abbrev wr_hostOps6 : List (Ref sig .tc) := [main_c_15, main_v69, main_v70, main_c_16, main_v71, main_v72, main_v73, main_v74, main_v75, main_v76, main_v77, main_v78, main_cst_17, main_v79, main_v80, main_v81, main_v82]
/-- The buffers `hostOps7` writes. -/
abbrev wr_hostOps7 : List (Ref sig .tc) := [main_cst_18, main_v84]
/-- The buffers `hostOps8` writes. -/
abbrev wr_hostOps8 : List (Ref sig .tc) := [main_c_19, main_v86, main_v87, main_c_20, main_v88, main_v89, main_v90, main_v91, main_v92, main_v93, main_v94, main_v95, main_cst_21, main_v96, main_v97, main_v98, main_v99]
/-- The buffers `hostOps9` writes. -/
abbrev wr_hostOps9 : List (Ref sig .tc) := [main_v101]
/-- Region 0's windows' arrays. -/
abbrev win_0 : List (Ref sig .tc) := [main_arg0, main_arg2, main_v31, main_v32]
/-- Region 1's windows' arrays. -/
abbrev win_1 : List (Ref sig .tc) := [main_v45, main_v46, main_v47]
/-- Region 2's windows' arrays. -/
abbrev win_2 : List (Ref sig .tc) := [main_v47, main_arg4, main_v48, main_v49]
/-- Region 3's windows' arrays. -/
abbrev win_3 : List (Ref sig .tc) := [main_v62, main_v63, main_v64]
/-- Region 4's windows' arrays. -/
abbrev win_4 : List (Ref sig .tc) := [main_v64, main_arg6, main_v65, main_v66]
/-- Region 5's windows' arrays. -/
abbrev win_5 : List (Ref sig .tc) := [main_v66, main_arg8, main_v67, main_v68]
/-- Region 6's windows' arrays. -/
abbrev win_6 : List (Ref sig .tc) := [main_v81, main_v82, main_v83]
/-- Region 7's windows' arrays. -/
abbrev win_7 : List (Ref sig .tc) := [main_v83, main_arg10, main_v84, main_v85]
/-- Region 8's windows' arrays. -/
abbrev win_8 : List (Ref sig .tc) := [main_v98, main_v99, main_v100]
/-- Region 9's windows' arrays. -/
abbrev win_9 : List (Ref sig .tc) := [main_v100, main_arg12, main_v101, main_v102]

/-! ## One step -/

/-- A buffer `hostOps0` does not write is unchanged by it. -/
theorem host_1 (c : Dev nD) (b : Ref sig .tc) (h : ∀ x ∈ wr_hostOps0, b ≠ x) :
    W1 (F := Ideal) m ρ c (Proc.devRef .tc b) = W0 m ρ c (Proc.devRef .tc b) :=
  StableHlo.after_of_forall_not_mem (b := Proc.devRef .tc b) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (h _ (by decide))))
/-- A buffer `hostOps0_1` does not write is unchanged by it. -/
theorem host_2 (c : Dev nD) (b : Ref sig .tc) (h : ∀ x ∈ wr_hostOps0_1, b ≠ x) :
    W2 (F := Ideal) m ρ c (Proc.devRef .tc b) = W1 m ρ c (Proc.devRef .tc b) :=
  StableHlo.after_of_forall_not_mem (b := Proc.devRef .tc b) _ _ (List.forall_iff_forall_mem.mp (by
    simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (h _ (by decide))))
/-- A buffer `hostOps0_2` does not write is unchanged by it. -/
theorem host_3 (c : Dev nD) (b : Ref sig .tc) (h : ∀ x ∈ wr_hostOps0_2, b ≠ x) :
    W3 (F := Ideal) m ρ c (Proc.devRef .tc b) = W2 m ρ c (Proc.devRef .tc b) :=
  StableHlo.after_of_forall_not_mem (b := Proc.devRef .tc b) _ _ (List.forall_iff_forall_mem.mp (by
    simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (h _ (by decide))))
/-- A buffer `hostOps1` does not write is unchanged by it. -/
theorem host_5 (c : Dev nD) (b : Ref sig .tc) (h : ∀ x ∈ wr_hostOps1, b ≠ x) :
    W5 (F := Ideal) m ρ c (Proc.devRef .tc b) = W4 m ρ c (Proc.devRef .tc b) :=
  StableHlo.after_of_forall_not_mem (b := Proc.devRef .tc b) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (h _ (by decide))))
/-- A buffer `hostOps2` does not write is unchanged by it. -/
theorem host_7 (c : Dev nD) (b : Ref sig .tc) (h : ∀ x ∈ wr_hostOps2, b ≠ x) :
    W7 (F := Ideal) m ρ c (Proc.devRef .tc b) = W6 m ρ c (Proc.devRef .tc b) :=
  StableHlo.after_of_forall_not_mem (b := Proc.devRef .tc b) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (h _ (by decide))))
/-- A buffer `hostOps3` does not write is unchanged by it. -/
theorem host_9 (c : Dev nD) (b : Ref sig .tc) (h : ∀ x ∈ wr_hostOps3, b ≠ x) :
    W9 (F := Ideal) m ρ c (Proc.devRef .tc b) = W8 m ρ c (Proc.devRef .tc b) :=
  StableHlo.after_of_forall_not_mem (b := Proc.devRef .tc b) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (h _ (by decide))))
/-- A buffer `hostOps4` does not write is unchanged by it. -/
theorem host_11 (c : Dev nD) (b : Ref sig .tc) (h : ∀ x ∈ wr_hostOps4, b ≠ x) :
    W11 (F := Ideal) m ρ c (Proc.devRef .tc b) = W10 m ρ c (Proc.devRef .tc b) :=
  StableHlo.after_of_forall_not_mem (b := Proc.devRef .tc b) _ _ (List.forall_iff_forall_mem.mp (by
    simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (h _ (by decide))))
/-- A buffer `hostOps5` does not write is unchanged by it. -/
theorem host_13 (c : Dev nD) (b : Ref sig .tc) (h : ∀ x ∈ wr_hostOps5, b ≠ x) :
    W13 (F := Ideal) m ρ c (Proc.devRef .tc b) = W12 m ρ c (Proc.devRef .tc b) :=
  StableHlo.after_of_forall_not_mem (b := Proc.devRef .tc b) _ _ (List.forall_iff_forall_mem.mp (by
    simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (h _ (by decide))))
/-- A buffer `hostOps6` does not write is unchanged by it. -/
theorem host_15 (c : Dev nD) (b : Ref sig .tc) (h : ∀ x ∈ wr_hostOps6, b ≠ x) :
    W15 (F := Ideal) m ρ c (Proc.devRef .tc b) = W14 m ρ c (Proc.devRef .tc b) :=
  StableHlo.after_of_forall_not_mem (b := Proc.devRef .tc b) _ _ (List.forall_iff_forall_mem.mp (by
    simp only [hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (h _ (by decide))))
/-- A buffer `hostOps7` does not write is unchanged by it. -/
theorem host_17 (c : Dev nD) (b : Ref sig .tc) (h : ∀ x ∈ wr_hostOps7, b ≠ x) :
    W17 (F := Ideal) m ρ c (Proc.devRef .tc b) = W16 m ρ c (Proc.devRef .tc b) :=
  StableHlo.after_of_forall_not_mem (b := Proc.devRef .tc b) _ _ (List.forall_iff_forall_mem.mp (by
    simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (h _ (by decide))))
/-- A buffer `hostOps8` does not write is unchanged by it. -/
theorem host_19 (c : Dev nD) (b : Ref sig .tc) (h : ∀ x ∈ wr_hostOps8, b ≠ x) :
    W19 (F := Ideal) m ρ c (Proc.devRef .tc b) = W18 m ρ c (Proc.devRef .tc b) :=
  StableHlo.after_of_forall_not_mem (b := Proc.devRef .tc b) _ _ (List.forall_iff_forall_mem.mp (by
    simp only [hostOps8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (h _ (by decide))))
/-- A buffer `hostOps9` does not write is unchanged by it. -/
theorem host_21 (c : Dev nD) (b : Ref sig .tc) (h : ∀ x ∈ wr_hostOps9, b ≠ x) :
    W21 (F := Ideal) m ρ c (Proc.devRef .tc b) = W20 m ρ c (Proc.devRef .tc b) :=
  StableHlo.after_of_forall_not_mem (b := Proc.devRef .tc b) _ _ (List.forall_iff_forall_mem.mp (by
    simp only [hostOps9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (h _ (by decide))))
/-- A buffer that is none of region 0's windows' arrays is unchanged by the region. -/
theorem region_4 (c : Dev nD) (b : Ref sig .tc) (h : ∀ x ∈ win_0, b ≠ x) :
    W4 (F := Ideal) m ρ c (Proc.devRef .tc b) = W3 m ρ c (Proc.devRef .tc b) :=
  W4_of_ne m ρ c b (fun w => match w with
    | ⟨0, _⟩ => fun e => h main_arg0 (by decide) e.symm
    | ⟨1, _⟩ => fun e => h main_arg2 (by decide) e.symm
    | ⟨2, _⟩ => fun e => h main_v31 (by decide) e.symm
    | ⟨3, _⟩ => fun e => h main_v32 (by decide) e.symm)
/-- A buffer that is none of region 1's windows' arrays is unchanged by the region. -/
theorem region_6 (c : Dev nD) (b : Ref sig .tc) (h : ∀ x ∈ win_1, b ≠ x) :
    W6 (F := Ideal) m ρ c (Proc.devRef .tc b) = W5 m ρ c (Proc.devRef .tc b) :=
  W6_of_ne m ρ c b (fun w => match w with
    | ⟨0, _⟩ => fun e => h main_v45 (by decide) e.symm
    | ⟨1, _⟩ => fun e => h main_v46 (by decide) e.symm
    | ⟨2, _⟩ => fun e => h main_v47 (by decide) e.symm)
/-- A buffer that is none of region 2's windows' arrays is unchanged by the region. -/
theorem region_8 (c : Dev nD) (b : Ref sig .tc) (h : ∀ x ∈ win_2, b ≠ x) :
    W8 (F := Ideal) m ρ c (Proc.devRef .tc b) = W7 m ρ c (Proc.devRef .tc b) :=
  W8_of_ne m ρ c b (fun w => match w with
    | ⟨0, _⟩ => fun e => h main_v47 (by decide) e.symm
    | ⟨1, _⟩ => fun e => h main_arg4 (by decide) e.symm
    | ⟨2, _⟩ => fun e => h main_v48 (by decide) e.symm
    | ⟨3, _⟩ => fun e => h main_v49 (by decide) e.symm)
/-- A buffer that is none of region 3's windows' arrays is unchanged by the region. -/
theorem region_10 (c : Dev nD) (b : Ref sig .tc) (h : ∀ x ∈ win_3, b ≠ x) :
    W10 (F := Ideal) m ρ c (Proc.devRef .tc b) = W9 m ρ c (Proc.devRef .tc b) :=
  W10_of_ne m ρ c b (fun w => match w with
    | ⟨0, _⟩ => fun e => h main_v62 (by decide) e.symm
    | ⟨1, _⟩ => fun e => h main_v63 (by decide) e.symm
    | ⟨2, _⟩ => fun e => h main_v64 (by decide) e.symm)
/-- A buffer that is none of region 4's windows' arrays is unchanged by the region. -/
theorem region_12 (c : Dev nD) (b : Ref sig .tc) (h : ∀ x ∈ win_4, b ≠ x) :
    W12 (F := Ideal) m ρ c (Proc.devRef .tc b) = W11 m ρ c (Proc.devRef .tc b) :=
  W12_of_ne m ρ c b (fun w => match w with
    | ⟨0, _⟩ => fun e => h main_v64 (by decide) e.symm
    | ⟨1, _⟩ => fun e => h main_arg6 (by decide) e.symm
    | ⟨2, _⟩ => fun e => h main_v65 (by decide) e.symm
    | ⟨3, _⟩ => fun e => h main_v66 (by decide) e.symm)
/-- A buffer that is none of region 5's windows' arrays is unchanged by the region. -/
theorem region_14 (c : Dev nD) (b : Ref sig .tc) (h : ∀ x ∈ win_5, b ≠ x) :
    W14 (F := Ideal) m ρ c (Proc.devRef .tc b) = W13 m ρ c (Proc.devRef .tc b) :=
  W14_of_ne m ρ c b (fun w => match w with
    | ⟨0, _⟩ => fun e => h main_v66 (by decide) e.symm
    | ⟨1, _⟩ => fun e => h main_arg8 (by decide) e.symm
    | ⟨2, _⟩ => fun e => h main_v67 (by decide) e.symm
    | ⟨3, _⟩ => fun e => h main_v68 (by decide) e.symm)
/-- A buffer that is none of region 6's windows' arrays is unchanged by the region. -/
theorem region_16 (c : Dev nD) (b : Ref sig .tc) (h : ∀ x ∈ win_6, b ≠ x) :
    W16 (F := Ideal) m ρ c (Proc.devRef .tc b) = W15 m ρ c (Proc.devRef .tc b) :=
  W16_of_ne m ρ c b (fun w => match w with
    | ⟨0, _⟩ => fun e => h main_v81 (by decide) e.symm
    | ⟨1, _⟩ => fun e => h main_v82 (by decide) e.symm
    | ⟨2, _⟩ => fun e => h main_v83 (by decide) e.symm)
/-- A buffer that is none of region 7's windows' arrays is unchanged by the region. -/
theorem region_18 (c : Dev nD) (b : Ref sig .tc) (h : ∀ x ∈ win_7, b ≠ x) :
    W18 (F := Ideal) m ρ c (Proc.devRef .tc b) = W17 m ρ c (Proc.devRef .tc b) :=
  W18_of_ne m ρ c b (fun w => match w with
    | ⟨0, _⟩ => fun e => h main_v83 (by decide) e.symm
    | ⟨1, _⟩ => fun e => h main_arg10 (by decide) e.symm
    | ⟨2, _⟩ => fun e => h main_v84 (by decide) e.symm
    | ⟨3, _⟩ => fun e => h main_v85 (by decide) e.symm)
/-- A buffer that is none of region 8's windows' arrays is unchanged by the region. -/
theorem region_20 (c : Dev nD) (b : Ref sig .tc) (h : ∀ x ∈ win_8, b ≠ x) :
    W20 (F := Ideal) m ρ c (Proc.devRef .tc b) = W19 m ρ c (Proc.devRef .tc b) :=
  W20_of_ne m ρ c b (fun w => match w with
    | ⟨0, _⟩ => fun e => h main_v98 (by decide) e.symm
    | ⟨1, _⟩ => fun e => h main_v99 (by decide) e.symm
    | ⟨2, _⟩ => fun e => h main_v100 (by decide) e.symm)
/-- A buffer that is none of region 9's windows' arrays is unchanged by the region. -/
theorem region_22 (c : Dev nD) (b : Ref sig .tc) (h : ∀ x ∈ win_9, b ≠ x) :
    W22 (F := Ideal) m ρ c (Proc.devRef .tc b) = W21 m ρ c (Proc.devRef .tc b) :=
  W22_of_ne m ρ c b (fun w => match w with
    | ⟨0, _⟩ => fun e => h main_v100 (by decide) e.symm
    | ⟨1, _⟩ => fun e => h main_arg12 (by decide) e.symm
    | ⟨2, _⟩ => fun e => h main_v101 (by decide) e.symm
    | ⟨3, _⟩ => fun e => h main_v102 (by decide) e.symm)

/-! ## Back to the first region's entry -/

abbrev upTo_4 : List (Ref sig .tc) := win_0
/-- Unchanged from the first region's entry to boundary 4. -/
theorem back_4 (c : Dev nD) (b : Ref sig .tc) (h : ∀ x ∈ upTo_4, b ≠ x) :
    W4 (F := Ideal) m ρ c (Proc.devRef .tc b) = W3 m ρ c (Proc.devRef .tc b) := region_4 m ρ c b h
abbrev upTo_5 : List (Ref sig .tc) := upTo_4 ++ wr_hostOps1
/-- Unchanged from the first region's entry to boundary 5. -/
theorem back_5 (c : Dev nD) (b : Ref sig .tc) (h : ∀ x ∈ upTo_5, b ≠ x) :
    W5 (F := Ideal) m ρ c (Proc.devRef .tc b) = W3 m ρ c (Proc.devRef .tc b) :=
  (host_5 m ρ c b fun x hx => h x (List.mem_append_right _ hx)).trans (back_4 m ρ c b fun x hx => h x (List.mem_append_left _ hx))
abbrev upTo_6 : List (Ref sig .tc) := upTo_5 ++ win_1
/-- Unchanged from the first region's entry to boundary 6. -/
theorem back_6 (c : Dev nD) (b : Ref sig .tc) (h : ∀ x ∈ upTo_6, b ≠ x) :
    W6 (F := Ideal) m ρ c (Proc.devRef .tc b) = W3 m ρ c (Proc.devRef .tc b) :=
  (region_6 m ρ c b fun x hx => h x (List.mem_append_right _ hx)).trans (back_5 m ρ c b fun x hx => h x (List.mem_append_left _ hx))
abbrev upTo_7 : List (Ref sig .tc) := upTo_6 ++ wr_hostOps2
/-- Unchanged from the first region's entry to boundary 7. -/
theorem back_7 (c : Dev nD) (b : Ref sig .tc) (h : ∀ x ∈ upTo_7, b ≠ x) :
    W7 (F := Ideal) m ρ c (Proc.devRef .tc b) = W3 m ρ c (Proc.devRef .tc b) :=
  (host_7 m ρ c b fun x hx => h x (List.mem_append_right _ hx)).trans (back_6 m ρ c b fun x hx => h x (List.mem_append_left _ hx))
abbrev upTo_8 : List (Ref sig .tc) := upTo_7 ++ win_2
/-- Unchanged from the first region's entry to boundary 8. -/
theorem back_8 (c : Dev nD) (b : Ref sig .tc) (h : ∀ x ∈ upTo_8, b ≠ x) :
    W8 (F := Ideal) m ρ c (Proc.devRef .tc b) = W3 m ρ c (Proc.devRef .tc b) :=
  (region_8 m ρ c b fun x hx => h x (List.mem_append_right _ hx)).trans (back_7 m ρ c b fun x hx => h x (List.mem_append_left _ hx))
abbrev upTo_9 : List (Ref sig .tc) := upTo_8 ++ wr_hostOps3
/-- Unchanged from the first region's entry to boundary 9. -/
theorem back_9 (c : Dev nD) (b : Ref sig .tc) (h : ∀ x ∈ upTo_9, b ≠ x) :
    W9 (F := Ideal) m ρ c (Proc.devRef .tc b) = W3 m ρ c (Proc.devRef .tc b) :=
  (host_9 m ρ c b fun x hx => h x (List.mem_append_right _ hx)).trans (back_8 m ρ c b fun x hx => h x (List.mem_append_left _ hx))
abbrev upTo_10 : List (Ref sig .tc) := upTo_9 ++ win_3
/-- Unchanged from the first region's entry to boundary 10. -/
theorem back_10 (c : Dev nD) (b : Ref sig .tc) (h : ∀ x ∈ upTo_10, b ≠ x) :
    W10 (F := Ideal) m ρ c (Proc.devRef .tc b) = W3 m ρ c (Proc.devRef .tc b) :=
  (region_10 m ρ c b fun x hx => h x (List.mem_append_right _ hx)).trans (back_9 m ρ c b fun x hx => h x (List.mem_append_left _ hx))
abbrev upTo_11 : List (Ref sig .tc) := upTo_10 ++ wr_hostOps4
/-- Unchanged from the first region's entry to boundary 11. -/
theorem back_11 (c : Dev nD) (b : Ref sig .tc) (h : ∀ x ∈ upTo_11, b ≠ x) :
    W11 (F := Ideal) m ρ c (Proc.devRef .tc b) = W3 m ρ c (Proc.devRef .tc b) :=
  (host_11 m ρ c b fun x hx => h x (List.mem_append_right _ hx)).trans (back_10 m ρ c b fun x hx => h x (List.mem_append_left _ hx))
abbrev upTo_12 : List (Ref sig .tc) := upTo_11 ++ win_4
/-- Unchanged from the first region's entry to boundary 12. -/
theorem back_12 (c : Dev nD) (b : Ref sig .tc) (h : ∀ x ∈ upTo_12, b ≠ x) :
    W12 (F := Ideal) m ρ c (Proc.devRef .tc b) = W3 m ρ c (Proc.devRef .tc b) :=
  (region_12 m ρ c b fun x hx => h x (List.mem_append_right _ hx)).trans (back_11 m ρ c b fun x hx => h x (List.mem_append_left _ hx))
abbrev upTo_13 : List (Ref sig .tc) := upTo_12 ++ wr_hostOps5
/-- Unchanged from the first region's entry to boundary 13. -/
theorem back_13 (c : Dev nD) (b : Ref sig .tc) (h : ∀ x ∈ upTo_13, b ≠ x) :
    W13 (F := Ideal) m ρ c (Proc.devRef .tc b) = W3 m ρ c (Proc.devRef .tc b) :=
  (host_13 m ρ c b fun x hx => h x (List.mem_append_right _ hx)).trans (back_12 m ρ c b fun x hx => h x (List.mem_append_left _ hx))
abbrev upTo_14 : List (Ref sig .tc) := upTo_13 ++ win_5
/-- Unchanged from the first region's entry to boundary 14. -/
theorem back_14 (c : Dev nD) (b : Ref sig .tc) (h : ∀ x ∈ upTo_14, b ≠ x) :
    W14 (F := Ideal) m ρ c (Proc.devRef .tc b) = W3 m ρ c (Proc.devRef .tc b) :=
  (region_14 m ρ c b fun x hx => h x (List.mem_append_right _ hx)).trans (back_13 m ρ c b fun x hx => h x (List.mem_append_left _ hx))
abbrev upTo_15 : List (Ref sig .tc) := upTo_14 ++ wr_hostOps6
/-- Unchanged from the first region's entry to boundary 15. -/
theorem back_15 (c : Dev nD) (b : Ref sig .tc) (h : ∀ x ∈ upTo_15, b ≠ x) :
    W15 (F := Ideal) m ρ c (Proc.devRef .tc b) = W3 m ρ c (Proc.devRef .tc b) :=
  (host_15 m ρ c b fun x hx => h x (List.mem_append_right _ hx)).trans (back_14 m ρ c b fun x hx => h x (List.mem_append_left _ hx))
abbrev upTo_16 : List (Ref sig .tc) := upTo_15 ++ win_6
/-- Unchanged from the first region's entry to boundary 16. -/
theorem back_16 (c : Dev nD) (b : Ref sig .tc) (h : ∀ x ∈ upTo_16, b ≠ x) :
    W16 (F := Ideal) m ρ c (Proc.devRef .tc b) = W3 m ρ c (Proc.devRef .tc b) :=
  (region_16 m ρ c b fun x hx => h x (List.mem_append_right _ hx)).trans (back_15 m ρ c b fun x hx => h x (List.mem_append_left _ hx))
abbrev upTo_17 : List (Ref sig .tc) := upTo_16 ++ wr_hostOps7
/-- Unchanged from the first region's entry to boundary 17. -/
theorem back_17 (c : Dev nD) (b : Ref sig .tc) (h : ∀ x ∈ upTo_17, b ≠ x) :
    W17 (F := Ideal) m ρ c (Proc.devRef .tc b) = W3 m ρ c (Proc.devRef .tc b) :=
  (host_17 m ρ c b fun x hx => h x (List.mem_append_right _ hx)).trans (back_16 m ρ c b fun x hx => h x (List.mem_append_left _ hx))
abbrev upTo_18 : List (Ref sig .tc) := upTo_17 ++ win_7
/-- Unchanged from the first region's entry to boundary 18. -/
theorem back_18 (c : Dev nD) (b : Ref sig .tc) (h : ∀ x ∈ upTo_18, b ≠ x) :
    W18 (F := Ideal) m ρ c (Proc.devRef .tc b) = W3 m ρ c (Proc.devRef .tc b) :=
  (region_18 m ρ c b fun x hx => h x (List.mem_append_right _ hx)).trans (back_17 m ρ c b fun x hx => h x (List.mem_append_left _ hx))
abbrev upTo_19 : List (Ref sig .tc) := upTo_18 ++ wr_hostOps8
/-- Unchanged from the first region's entry to boundary 19. -/
theorem back_19 (c : Dev nD) (b : Ref sig .tc) (h : ∀ x ∈ upTo_19, b ≠ x) :
    W19 (F := Ideal) m ρ c (Proc.devRef .tc b) = W3 m ρ c (Proc.devRef .tc b) :=
  (host_19 m ρ c b fun x hx => h x (List.mem_append_right _ hx)).trans (back_18 m ρ c b fun x hx => h x (List.mem_append_left _ hx))
abbrev upTo_20 : List (Ref sig .tc) := upTo_19 ++ win_8
/-- Unchanged from the first region's entry to boundary 20. -/
theorem back_20 (c : Dev nD) (b : Ref sig .tc) (h : ∀ x ∈ upTo_20, b ≠ x) :
    W20 (F := Ideal) m ρ c (Proc.devRef .tc b) = W3 m ρ c (Proc.devRef .tc b) :=
  (region_20 m ρ c b fun x hx => h x (List.mem_append_right _ hx)).trans (back_19 m ρ c b fun x hx => h x (List.mem_append_left _ hx))
abbrev upTo_21 : List (Ref sig .tc) := upTo_20 ++ wr_hostOps9
/-- Unchanged from the first region's entry to boundary 21. -/
theorem back_21 (c : Dev nD) (b : Ref sig .tc) (h : ∀ x ∈ upTo_21, b ≠ x) :
    W21 (F := Ideal) m ρ c (Proc.devRef .tc b) = W3 m ρ c (Proc.devRef .tc b) :=
  (host_21 m ρ c b fun x hx => h x (List.mem_append_right _ hx)).trans (back_20 m ρ c b fun x hx => h x (List.mem_append_left _ hx))

/-! ## Back to the launch -/

/-- A buffer none of the three opening stretches writes holds, at the first region's entry, its launch contents. -/
theorem launch_3 (c : Dev nD) (b : Ref sig .tc) (h : ∀ x ∈ wr_hostOps0 ++ wr_hostOps0_1 ++ wr_hostOps0_2, b ≠ x) :
    W3 (F := Ideal) m ρ c (Proc.devRef .tc b) = m ((c : Thread nD τ).loc b) :=
  (host_3 m ρ c b fun x hx => h x (List.mem_append_right _ hx)).trans
    ((host_2 m ρ c b fun x hx => h x (List.mem_append_left _ (List.mem_append_right _ hx))).trans
      ((host_1 m ρ c b fun x hx => h x (List.mem_append_left _ (List.mem_append_left _ hx))).trans rfl))

end Cert.KernelIdeal.Keep

end
-- ==== Proof.Chain.lean ====
/-
  The host side of a graph-convolution layer, as named functions of whole arrays.

  From the edge list (two rows of node numbers) the program forms the source and the target node of every
  edge, the self-loops appended; the degree of a node is the number of edges that end in it; the weight of
  an edge is the product of the inverse square roots of its end nodes' degrees (zero where a degree is not
  positive). A layer's aggregation gathers the transformed features of every edge's source node (a node
  number below zero counting from the end), scales the row by the edge's weight, and adds it into the
  row of the edge's target node, starting from zero. These are the operations the host applies, in the
  host's own spelling, read at any float instance: the gather and the scattered sum are kept as the host's
  operations, never opened.
-/
import proofs.«113196_j25048249270387_1_alg».proof.Proof.Gen.KernelIdeal

noncomputable section

namespace Cert.KernelIdeal.Chain

open Cert.KernelIdeal Cert.KernelIdeal.Facts₀ Cert.KernelIdeal.Facts Idealize.ShloMosaic

variable {F : FTy → Type} [FloatOps F]

/-- Row `r` of the edge list with the node numbers `0 … 49999` appended (the self-loops). -/
def ends0 (ei : (⟨S2x800000, .i32⟩ : BufTy).Contents (Elt F)) : (⟨S850000, .i32⟩ : BufTy).Contents (Elt F) :=
  concatenate S850000 0 [⟨S800000, shapeCast _ (extractStridedSlice S1x800000 ![0, 0] ei slices_S2x800000_S1x800000_0_0) shapeCasts_S1x800000_S800000⟩, ⟨S50000, iotaInDim S50000 32 0⟩] concatenates_S800000_S50000_S850000_d0

/-- The target node of every edge, the self-loops appended. -/
def ends1 (ei : (⟨S2x800000, .i32⟩ : BufTy).Contents (Elt F)) : (⟨S850000, .i32⟩ : BufTy).Contents (Elt F) :=
  concatenate S850000 0 [⟨S800000, shapeCast _ (extractStridedSlice S1x800000 ![1, 0] ei slices_S2x800000_S1x800000_1_0) shapeCasts_S1x800000_S800000⟩, ⟨S50000, iotaInDim S50000 32 0⟩] concatenates_S800000_S50000_S850000_d0

/-- A node number below zero counts from the end; the numbers as a column. -/
def wrapCol (s : (⟨S850000, .i32⟩ : BufTy).Contents (Elt F)) : (⟨S850000x1, .i32⟩ : BufTy).Contents (Elt F) :=
  broadcastInDim S850000x1 ![0] bcast_S850000_S850000x1_0
    (select (cmpi .slt s (broadcastInDim S850000 ![] bcast_S_S850000 (constantI S_ 32 0#32)))
      (addi s (broadcastInDim S850000 ![] bcast_S_S850000 (constantI S_ 32 50000#32))) s)

/-- The number of edges that end in each node. -/
def degree (d : (⟨S850000, .i32⟩ : BufTy).Contents (Elt F)) : (⟨S50000, .f32⟩ : BufTy).Contents (Elt F) :=
  Host.scatterAdd scatter_S50000_S850000x1_S850000_n_0_0_1
    (broadcastInDim S50000 ![] bcast_S_S50000 (constant (F := F) S_ .f32 0x00000000#32))
    (broadcastInDim S850000x1 ![0] bcast_S850000_S850000x1_0 d)
    (broadcastInDim S850000 ![] bcast_S_S850000 (constant (F := F) S_ .f32 0x3F800000#32))

/-- The inverse square root of each node's degree, zero where the degree is not positive. -/
def invSqrtDegree (d : (⟨S850000, .i32⟩ : BufTy).Contents (Elt F)) : (⟨S50000, .f32⟩ : BufTy).Contents (Elt F) :=
  select (cmpf (F := F) .ogt (degree (F := F) d) (broadcastInDim S50000 ![] bcast_S_S50000 (constant (F := F) S_ .f32 0x00000000#32)))
    (Host.rsqrt (degree (F := F) d))
    (broadcastInDim S50000 ![] bcast_S_S50000 (id (constant (F := F) S_ .f32 0x00000000#32)))

/-- The weight of every edge: the product of its end nodes' inverse square root degrees. -/
def edgeWeight (s d : (⟨S850000, .i32⟩ : BufTy).Contents (Elt F)) : (⟨S850000, .f32⟩ : BufTy).Contents (Elt F) :=
  mulf (Host.gather gather_S50000_S850000x1_S850000_n_0_n_n_0_1_1 (invSqrtDegree (F := F) d) (wrapCol (F := F) s))
    (Host.gather gather_S50000_S850000x1_S850000_n_0_n_n_0_1_1 (invSqrtDegree (F := F) d) (wrapCol (F := F) d))

/-- A layer's aggregation at 128 features: gather each edge's source row, scale by the edge's weight, add into the target row. -/
def aggregate128 (h : (⟨S50000x128, .f32⟩ : BufTy).Contents (Elt F)) (s d : (⟨S850000, .i32⟩ : BufTy).Contents (Elt F))
    (wt : (⟨S850000, .f32⟩ : BufTy).Contents (Elt F)) : (⟨S50000x128, .f32⟩ : BufTy).Contents (Elt F) :=
  Host.scatterAdd scatter_S50000x128_S850000x1_S850000x128_1_0_0_1
    (broadcastInDim S50000x128 ![] bcast_S_S50000x128 (constant (F := F) S_ .f32 0x00000000#32))
    (broadcastInDim S850000x1 ![0] bcast_S850000_S850000x1_0 d)
    (mulf (Host.gather gather_S50000x128_S850000x1_S850000x128_1_0_n_n_0_1_1128 h (wrapCol (F := F) s))
      (broadcastInDim S850000x128 ![0, 1] bcast_S850000x1_S850000x128_0_1 (broadcastInDim S850000x1 ![0] bcast_S850000_S850000x1_0 wt)))

/-- The same at 64 features. -/
def aggregate64 (h : (⟨S50000x64, .f32⟩ : BufTy).Contents (Elt F)) (s d : (⟨S850000, .i32⟩ : BufTy).Contents (Elt F))
    (wt : (⟨S850000, .f32⟩ : BufTy).Contents (Elt F)) : (⟨S50000x64, .f32⟩ : BufTy).Contents (Elt F) :=
  Host.scatterAdd scatter_S50000x64_S850000x1_S850000x64_1_0_0_1
    (broadcastInDim S50000x64 ![] bcast_S_S50000x64 (constant (F := F) S_ .f32 0x00000000#32))
    (broadcastInDim S850000x1 ![0] bcast_S850000_S850000x1_0 d)
    (mulf (Host.gather gather_S50000x64_S850000x1_S850000x64_1_0_n_n_0_1_164 h (wrapCol (F := F) s))
      (broadcastInDim S850000x64 ![0, 1] bcast_S850000x1_S850000x64_0_1 (broadcastInDim S850000x1 ![0] bcast_S850000_S850000x1_0 wt)))

/-- The same at 256 features. -/
def aggregate256 (h : (⟨S50000x256, .f32⟩ : BufTy).Contents (Elt F)) (s d : (⟨S850000, .i32⟩ : BufTy).Contents (Elt F))
    (wt : (⟨S850000, .f32⟩ : BufTy).Contents (Elt F)) : (⟨S50000x256, .f32⟩ : BufTy).Contents (Elt F) :=
  Host.scatterAdd scatter_S50000x256_S850000x1_S850000x256_1_0_0_1
    (broadcastInDim S50000x256 ![] bcast_S_S50000x256 (constant (F := F) S_ .f32 0x00000000#32))
    (broadcastInDim S850000x1 ![0] bcast_S850000_S850000x1_0 d)
    (mulf (Host.gather gather_S50000x256_S850000x1_S850000x256_1_0_n_n_0_1_1256 h (wrapCol (F := F) s))
      (broadcastInDim S850000x256 ![0, 1] bcast_S850000x1_S850000x256_0_1 (broadcastInDim S850000x1 ![0] bcast_S850000_S850000x1_0 wt)))

end Cert.KernelIdeal.Chain

end
-- ==== Proof.KernelPrelude.lean ====
/-
  The program's opening: from the edge list to the edges' end nodes and weights.

  Three stretches of host operations run before the first region. The first forms, from the two rows of the
  edge list, the source and the target node of every edge with the self-loops appended, counts the edges that
  end in each node (its degree), and prepares the inverse square root of every degree together with the test
  "the degree is positive". The second selects, node by node, that inverse square root where the degree is
  positive and zero elsewhere. The third gathers the selected values at every edge's two end nodes (a node
  number below zero counting from the end) and multiplies them: the edge's weight. Each stretch is read at the
  buffers it writes as the named functions of the arrays it found, and the three are joined: at the first
  region's entry the end nodes and the weights are those functions of the edge list as launched.
-/
import proofs.«113196_j25048249270387_1_alg».proof.Proof.Gen.KernelIdeal.Frame
import proofs.«113196_j25048249270387_1_alg».proof.Proof.Chain
import Idealize.ShloMosaic.Lib.StableHlo.Run
import Idealize.ShloMosaic.PureOps.Ideal

noncomputable section

namespace Cert.KernelIdeal.Prelude

open Cert.KernelIdeal Cert.KernelIdeal.Gen Cert.KernelIdeal.Chain Cert.KernelIdeal.Facts₀ Cert.KernelIdeal.Facts Idealize.ShloMosaic Idealize.ShloMosaic.TcCoe Idealize.SL.Sem

variable (m : (ℓ : Loc nD τ sig) → Buf (Elt Ideal) ℓ) (ρ : Dev nD → PrngReg)

/-! ## The first stretch: the end nodes, the degrees, and what the inverse square root is selected from -/

/-- The source node of every edge, the self-loops appended. -/
theorem ends0_at1 (c : Dev nD) : W1 (F := Ideal) m ρ c (Proc.devRef .tc main_v3) = ends0 (F := Ideal) (m ((c : Thread nD τ).loc main_arg1)) := by
  show StableHlo.after hostOps0 (W0 m ρ c) (Proc.devRef .tc main_v3) = _
  after_results
  rfl

/-- The target node of every edge, the self-loops appended. -/
theorem ends1_at1 (c : Dev nD) : W1 (F := Ideal) m ρ c (Proc.devRef .tc main_v7) = ends1 (F := Ideal) (m ((c : Thread nD τ).loc main_arg1)) := by
  show StableHlo.after hostOps0 (W0 m ρ c) (Proc.devRef .tc main_v7) = _
  after_results
  rfl

/-- Where a node's degree is positive. -/
theorem positive_at1 (c : Dev nD) : W1 (F := Ideal) m ρ c (Proc.devRef .tc main_v13)
    = cmpf (F := Ideal) .ogt (degree (F := Ideal) (ends1 (m ((c : Thread nD τ).loc main_arg1)))) (broadcastInDim S50000 ![] Gen.bcast_S_S50000 (constant (F := Ideal) S_ .f32 0x00000000#32)) := by
  show StableHlo.after hostOps0 (W0 m ρ c) (Proc.devRef .tc main_v13) = _
  after_results
  rfl

/-- The inverse square root of every node's degree, before the selection. -/
theorem rsqrt_at1 (c : Dev nD) : W1 (F := Ideal) m ρ c (Proc.devRef .tc main_v14)
    = Host.rsqrt (F := Ideal) (s := S50000) (φ := .f32) (degree (F := Ideal) (ends1 (m ((c : Thread nD τ).loc main_arg1)))) := by
  show StableHlo.after hostOps0 (W0 m ρ c) (Proc.devRef .tc main_v14) = _
  after_results
  rfl

/-- The zero the selection falls back to. -/
theorem zero_at1 (c : Dev nD) : W1 (F := Ideal) m ρ c (Proc.devRef .tc main_cst_2) = constant (F := Ideal) S_ .f32 0x00000000#32 := by
  show StableHlo.after hostOps0 (W0 m ρ c) (Proc.devRef .tc main_cst_2) = _
  after_results

/-! ## The second stretch: the selection, from any contents -/

/-- The second stretch selects, entry by entry, its second operand where the first holds and the broadcast scalar elsewhere. -/
theorem select_of (X : Valuation τ sig (Elt Ideal)) :
    StableHlo.after hostOps0_1 X (Proc.devRef .tc main_v15)
      = select (α := Elt Ideal .f32) (s := S50000) (X (Proc.devRef .tc main_v13)) (X (Proc.devRef .tc main_v14))
          (broadcastInDim S50000 ![] Gen.bcast_S_S50000 (id (X (Proc.devRef .tc main_cst_2)))) := by
  after_results
  rfl

/-- It leaves the source nodes … -/
theorem kept0_of (X : Valuation τ sig (Elt Ideal)) : StableHlo.after hostOps0_1 X (Proc.devRef .tc main_v3) = X (Proc.devRef .tc main_v3) := by
  after_results
/-- … and the target nodes as they were. -/
theorem kept1_of (X : Valuation τ sig (Elt Ideal)) : StableHlo.after hostOps0_1 X (Proc.devRef .tc main_v7) = X (Proc.devRef .tc main_v7) := by
  after_results

/-- The inverse square root of every node's degree, zero where the degree is not positive. -/
theorem invSqrt_at2 (c : Dev nD) : W2 (F := Ideal) m ρ c (Proc.devRef .tc main_v15) = invSqrtDegree (F := Ideal) (ends1 (m ((c : Thread nD τ).loc main_arg1))) := by
  show StableHlo.after hostOps0_1 (W1 m ρ c) (Proc.devRef .tc main_v15) = _
  rw [select_of, positive_at1, rsqrt_at1, zero_at1]
  rfl

/-- After the second stretch the source nodes … -/
theorem ends0_at2 (c : Dev nD) : W2 (F := Ideal) m ρ c (Proc.devRef .tc main_v3) = ends0 (F := Ideal) (m ((c : Thread nD τ).loc main_arg1)) :=
  (kept0_of (W1 m ρ c)).trans (ends0_at1 m ρ c)

/-- … and the target nodes are as the first stretch left them. -/
theorem ends1_at2 (c : Dev nD) : W2 (F := Ideal) m ρ c (Proc.devRef .tc main_v7) = ends1 (F := Ideal) (m ((c : Thread nD τ).loc main_arg1)) :=
  (kept1_of (W1 m ρ c)).trans (ends1_at1 m ρ c)

/-! ## The third stretch: the edges' weights, from any contents -/

/-- The third stretch multiplies, edge by edge, the inverse square root degrees gathered at the edge's two end nodes. -/
theorem weight_of (X : Valuation τ sig (Elt Ideal)) (s d : (⟨S850000, .i32⟩ : BufTy).Contents (Elt Ideal))
    (h3 : X (Proc.devRef .tc main_v3) = s) (h7 : X (Proc.devRef .tc main_v7) = d)
    (h15 : X (Proc.devRef .tc main_v15) = invSqrtDegree (F := Ideal) d) :
    StableHlo.after hostOps0_2 X (Proc.devRef .tc main_v30) = edgeWeight (F := Ideal) s d := by
  after_results_simp
  rw [h15, h3, h7]
  rfl

/-- It leaves the source nodes … -/
theorem sources_kept_of (X : Valuation τ sig (Elt Ideal)) : StableHlo.after hostOps0_2 X (Proc.devRef .tc main_v3) = X (Proc.devRef .tc main_v3) := by
  after_results_simp
/-- … and the target nodes as they were. -/
theorem targets_kept_of (X : Valuation τ sig (Elt Ideal)) : StableHlo.after hostOps0_2 X (Proc.devRef .tc main_v7) = X (Proc.devRef .tc main_v7) := by
  after_results_simp

/-! ## At the first region's entry -/

/-- The source node of every edge, the self-loops appended. -/
theorem ends0_at3 (c : Dev nD) : W3 (F := Ideal) m ρ c (Proc.devRef .tc main_v3) = ends0 (F := Ideal) (m ((c : Thread nD τ).loc main_arg1)) :=
  (sources_kept_of (W2 m ρ c)).trans (ends0_at2 m ρ c)

/-- The target node of every edge, the self-loops appended. -/
theorem ends1_at3 (c : Dev nD) : W3 (F := Ideal) m ρ c (Proc.devRef .tc main_v7) = ends1 (F := Ideal) (m ((c : Thread nD τ).loc main_arg1)) :=
  (targets_kept_of (W2 m ρ c)).trans (ends1_at2 m ρ c)

/-- The weight of every edge: the product of its end nodes' inverse square root degrees. -/
theorem weight_at3 (c : Dev nD) : W3 (F := Ideal) m ρ c (Proc.devRef .tc main_v30) = edgeWeight (F := Ideal) (ends0 (m ((c : Thread nD τ).loc main_arg1))) (ends1 (m ((c : Thread nD τ).loc main_arg1))) :=
  weight_of (W2 m ρ c) _ _ (ends0_at2 m ρ c) (ends1_at2 m ρ c) (invSqrt_at2 m ρ c)

end Cert.KernelIdeal.Prelude
end
-- ==== Proof.KernelStretch.lean ====
/-
  The host stretches between the regions, read as named functions of the arrays they find.

  Between two regions the host either aggregates over the graph or only prepares a bias row. An aggregating
  stretch takes the array the previous region left (one row of features per node), the two lists of edge end
  nodes and the edge weights; it gathers every edge's source row, scales it by the edge's weight, and adds it
  into the row of the edge's target node, starting from zero: the layer's aggregation at that feature width.
  Every stretch that precedes a bias region also views the next bias vector of length C as a [1, C] row. Each
  statement below says that one array, after the stretch, is that function of the arrays before the stretch:
  the stretch's operations are composed in order, each one's result read at its own array and every other array
  left as it was, and what remains is the named function with its name unfolded.
-/
import proofs.«113196_j25048249270387_1_alg».proof.Proof.Gen.KernelIdeal.Frame
import proofs.«113196_j25048249270387_1_alg».proof.Proof.Chain
import Idealize.ShloMosaic.Lib.StableHlo.Run
import Idealize.ShloMosaic.PureOps.Ideal

noncomputable section

namespace Cert.KernelIdeal.Stretch

open Cert.KernelIdeal Cert.KernelIdeal.Gen Cert.KernelIdeal.Chain Cert.KernelIdeal.Facts₀ Cert.KernelIdeal.Facts
open Idealize.ShloMosaic Idealize.ShloMosaic.TcCoe Idealize.SL.Sem

variable (m : (ℓ : Loc nD τ sig) → Buf (Elt Ideal) ℓ) (ρ : Dev nD → PrngReg)

/-! ## After the first layer's feature transform (128 features) -/

/-- The first layer's aggregation: the transformed features gathered along the edges, scaled by the edge weights and added
    into the target nodes' rows. -/
theorem agg_at5 (c : Dev nD) :
    W5 (F := Ideal) m ρ c (Proc.devRef .tc main_v45)
      = aggregate128 (F := Ideal) (W4 m ρ c (Proc.devRef .tc main_v32)) (W4 m ρ c (Proc.devRef .tc main_v3))
          (W4 m ρ c (Proc.devRef .tc main_v7)) (W4 m ρ c (Proc.devRef .tc main_v30)) := by
  after_results_simp
  rfl

/-- The first layer's bias vector as a [1, 128] row. -/
theorem row_at5 (c : Dev nD) :
    W5 (F := Ideal) m ρ c (Proc.devRef .tc main_v46)
      = shapeCast S1x128 (W4 m ρ c (Proc.devRef .tc main_arg3)) Facts₀.shapeCasts_S128_S1x128 := by
  after_results_simp
  rfl

/-! ## After the second layer's feature transform (64 features) -/

/-- The second layer's aggregation, at 64 features. -/
theorem agg_at9 (c : Dev nD) :
    W9 (F := Ideal) m ρ c (Proc.devRef .tc main_v62)
      = aggregate64 (F := Ideal) (W8 m ρ c (Proc.devRef .tc main_v49)) (W8 m ρ c (Proc.devRef .tc main_v3))
          (W8 m ρ c (Proc.devRef .tc main_v7)) (W8 m ρ c (Proc.devRef .tc main_v30)) := by
  after_results_simp
  rfl

/-- The second layer's bias vector as a [1, 64] row. -/
theorem row_at9 (c : Dev nD) :
    W9 (F := Ideal) m ρ c (Proc.devRef .tc main_v63)
      = shapeCast S1x64 (W8 m ρ c (Proc.devRef .tc main_arg5)) Facts₀.shapeCasts_S64_S1x64 := by
  after_results_simp
  rfl

/-! ## Before the dense layer with bias at 64 features -/

/-- That layer's bias vector as a [1, 64] row: the stretch does nothing else. -/
theorem row_at11 (c : Dev nD) :
    W11 (F := Ideal) m ρ c (Proc.devRef .tc main_v65)
      = shapeCast S1x64 (W10 m ρ c (Proc.devRef .tc main_arg7)) Facts₀.shapeCasts_S64_S1x64 := by
  after_results_simp
  rfl

/-! ## After the third layer's feature transform (256 features) -/

/-- The third layer's aggregation, at 256 features. -/
theorem agg_at15 (c : Dev nD) :
    W15 (F := Ideal) m ρ c (Proc.devRef .tc main_v81)
      = aggregate256 (F := Ideal) (W14 m ρ c (Proc.devRef .tc main_v68)) (W14 m ρ c (Proc.devRef .tc main_v3))
          (W14 m ρ c (Proc.devRef .tc main_v7)) (W14 m ρ c (Proc.devRef .tc main_v30)) := by
  after_results_simp
  rfl

/-- The third layer's bias vector as a [1, 256] row. -/
theorem row_at15 (c : Dev nD) :
    W15 (F := Ideal) m ρ c (Proc.devRef .tc main_v82)
      = shapeCast S1x256 (W14 m ρ c (Proc.devRef .tc main_arg9)) Facts₀.shapeCasts_S256_S1x256 := by
  after_results_simp
  rfl

/-! ## After the fourth layer's feature transform (128 features) -/

/-- The fourth layer's aggregation, at 128 features. -/
theorem agg_at19 (c : Dev nD) :
    W19 (F := Ideal) m ρ c (Proc.devRef .tc main_v98)
      = aggregate128 (F := Ideal) (W18 m ρ c (Proc.devRef .tc main_v85)) (W18 m ρ c (Proc.devRef .tc main_v3))
          (W18 m ρ c (Proc.devRef .tc main_v7)) (W18 m ρ c (Proc.devRef .tc main_v30)) := by
  after_results_simp
  rfl

/-- The fourth layer's bias vector as a [1, 128] row. -/
theorem row_at19 (c : Dev nD) :
    W19 (F := Ideal) m ρ c (Proc.devRef .tc main_v99)
      = shapeCast S1x128 (W18 m ρ c (Proc.devRef .tc main_arg11)) Facts₀.shapeCasts_S128_S1x128 := by
  after_results_simp
  rfl

/-! ## Before the last dense layer -/

/-- The last layer's bias vector as a [1, 1024] row: the stretch does nothing else. -/
theorem row_at21 (c : Dev nD) :
    W21 (F := Ideal) m ρ c (Proc.devRef .tc main_v101)
      = shapeCast S1x1024 (W20 m ρ c (Proc.devRef .tc main_arg13)) Facts₀.shapeCasts_S1024_S1x1024 := by
  after_results_simp
  rfl

end Cert.KernelIdeal.Stretch

end
-- ==== Proof.BiasRows.lean ====
/-
  Bias vectors as bias rows.

  Each dense layer's bias is given as a vector of length C and handed to its region as a [1, C] array: the
  same C numbers in the same row-major order, with a leading axis of extent one. So entry `(0, q)` of the row
  is entry `q` of the vector. Stated here for the four lengths the network uses: 128, 64, 256, 1024.
-/
import proofs.«113196_j25048249270387_1_alg».proof.Proof.Gen.KernelIdeal
import Idealize.ShloMosaic.PureOps.Ideal
import Idealize.ShloMosaic.Lib.ValueIdx
import Idealize.ShloMosaic.Lib.Pipeline.Value

noncomputable section

namespace Cert.KernelIdeal.BiasRows

open Cert.KernelIdeal Cert.KernelIdeal.Facts₀ Cert.KernelIdeal.Facts
open Idealize.ShloMosaic Idealize.ShloMosaic.ValueIdx

/-- The [128] vector viewed as a [1, 128] row: entry `(0, q)` of the row is entry `q` of the vector (both sit at
    row-major position `q`). -/
theorem row_128 (b : (⟨S128, .f32⟩ : BufTy).Contents (Elt Ideal)) :
    (shapeCast S1x128 b shapeCasts_S128_S1x128 : S1x128.Idx → EReal) = fun i => b (ix1 (i 1)) := by
  funext i
  refine shapeCast_apply (s := S128) (t := S1x128) b shapeCasts_S128_S1x128 i (ix1 (i 1)) ?_
  rw [Shape.rowMajor_val_one, Shape.rowMajor_val_two]
  have h0 : (i 0).val < 1 := (i 0).isLt
  show (i 1).val = (i 0).val * 128 + (i 1).val
  omega

/-- The [64] vector viewed as a [1, 64] row: entry `(0, q)` of the row is entry `q` of the vector (both sit at
    row-major position `q`). -/
theorem row_64 (b : (⟨S64, .f32⟩ : BufTy).Contents (Elt Ideal)) :
    (shapeCast S1x64 b shapeCasts_S64_S1x64 : S1x64.Idx → EReal) = fun i => b (ix1 (i 1)) := by
  funext i
  refine shapeCast_apply (s := S64) (t := S1x64) b shapeCasts_S64_S1x64 i (ix1 (i 1)) ?_
  rw [Shape.rowMajor_val_one, Shape.rowMajor_val_two]
  have h0 : (i 0).val < 1 := (i 0).isLt
  show (i 1).val = (i 0).val * 64 + (i 1).val
  omega

/-- The [256] vector viewed as a [1, 256] row: entry `(0, q)` of the row is entry `q` of the vector (both sit at
    row-major position `q`). -/
theorem row_256 (b : (⟨S256, .f32⟩ : BufTy).Contents (Elt Ideal)) :
    (shapeCast S1x256 b shapeCasts_S256_S1x256 : S1x256.Idx → EReal) = fun i => b (ix1 (i 1)) := by
  funext i
  refine shapeCast_apply (s := S256) (t := S1x256) b shapeCasts_S256_S1x256 i (ix1 (i 1)) ?_
  rw [Shape.rowMajor_val_one, Shape.rowMajor_val_two]
  have h0 : (i 0).val < 1 := (i 0).isLt
  show (i 1).val = (i 0).val * 256 + (i 1).val
  omega

/-- The [1024] vector viewed as a [1, 1024] row: entry `(0, q)` of the row is entry `q` of the vector (both sit at
    row-major position `q`). -/
theorem row_1024 (b : (⟨S1024, .f32⟩ : BufTy).Contents (Elt Ideal)) :
    (shapeCast S1x1024 b shapeCasts_S1024_S1x1024 : S1x1024.Idx → EReal) = fun i => b (ix1 (i 1)) := by
  funext i
  refine shapeCast_apply (s := S1024) (t := S1x1024) b shapeCasts_S1024_S1x1024 i (ix1 (i 1)) ?_
  rw [Shape.rowMajor_val_one, Shape.rowMajor_val_two]
  have h0 : (i 0).val < 1 := (i 0).isLt
  show (i 1).val = (i 0).val * 1024 + (i 1).val
  omega

end Cert.KernelIdeal.BiasRows

end
-- ==== Proof.LibDenseRows.lean ====
/-
  Dense layers over row blocks, as whole-array functions on the extended reals.

  A node-feature matrix `x` has one row per node. A dense layer sends it to `x · w`, possibly plus one
  bias row added to every row, possibly followed by the positive part entry by entry. Each of these is
  stated here as ONE function of the whole arrays, index by index: entry `(r, q)` of `x · w` is the sum
  over `j` of `x (r, j) * w (j, q)`; entry `(r, q)` of `a` plus the row `b` is `a (r, q) + b (0, q)`.
  Nothing here depends on how the rows are tiled into blocks, nor on the order in which the products of
  one entry are added: on the extended reals addition is commutative and associative, so a sum over a
  finite index type is one value. The shapes are parameters; a use instantiates them at literals.
-/
import Idealize.ShloMosaic.PureOps.Ideal
import Idealize.ShloMosaic.Lib.ValueIdx

noncomputable section

namespace Cert.DenseRows

open Idealize.ShloMosaic Idealize.ShloMosaic.ValueIdx

/-- The matrix product `x · w`: entry `(r, q)` is the sum over `j` of `x (r, j) * w (j, q)`. -/
def mul {n k c : Nat} (x : (⟨2, ![n, k]⟩ : Shape).Idx → EReal) (w : (⟨2, ![k, c]⟩ : Shape).Idx → EReal) :
    (⟨2, ![n, c]⟩ : Shape).Idx → EReal :=
  fun i => ∑ j : Fin k, x (ix2 (i 0) j) * w (ix2 j (i 1))

/-- The one row `b` added to every row of `a`: entry `(r, q)` is `a (r, q) + b (0, q)`. -/
def addRow {n c : Nat} (a : (⟨2, ![n, c]⟩ : Shape).Idx → EReal) (b : (⟨2, ![1, c]⟩ : Shape).Idx → EReal) :
    (⟨2, ![n, c]⟩ : Shape).Idx → EReal :=
  fun i => a i + b (ix2 0 (i 1))

/-- The positive part, entry by entry: `max (a (r, q)) 0`. -/
def pos {n c : Nat} (a : (⟨2, ![n, c]⟩ : Shape).Idx → EReal) : (⟨2, ![n, c]⟩ : Shape).Idx → EReal :=
  fun i => max (a i) 0

theorem mul_apply {n k c : Nat} (x : (⟨2, ![n, k]⟩ : Shape).Idx → EReal) (w : (⟨2, ![k, c]⟩ : Shape).Idx → EReal)
    (i : (⟨2, ![n, c]⟩ : Shape).Idx) : mul x w i = ∑ j : Fin k, x (ix2 (i 0) j) * w (ix2 j (i 1)) := rfl

theorem addRow_apply {n c : Nat} (a : (⟨2, ![n, c]⟩ : Shape).Idx → EReal) (b : (⟨2, ![1, c]⟩ : Shape).Idx → EReal)
    (i : (⟨2, ![n, c]⟩ : Shape).Idx) : addRow a b i = a i + b (ix2 0 (i 1)) := rfl

theorem pos_apply {n c : Nat} (a : (⟨2, ![n, c]⟩ : Shape).Idx → EReal) (i : (⟨2, ![n, c]⟩ : Shape).Idx) :
    pos a i = max (a i) 0 := rfl

end Cert.DenseRows

end
-- ==== Proof.Layers.lean ====
/-
  The network as one function of its arguments, on the extended reals.

  Four graph-convolution layers and two dense layers. A graph-convolution layer multiplies the node
  features by its weight matrix, aggregates over the edges (each edge adds its source node's row, scaled by
  the edge's weight, into its target node's row; every node also has an edge to itself), and adds its bias
  to every row; the first and the third are followed by the positive part. A dense layer multiplies by its
  weight matrix and adds its bias to every row. The edges' end nodes and weights depend on the edge list
  alone and are the same in every layer.
-/
import proofs.«113196_j25048249270387_1_alg».proof.Proof.Chain
import proofs.«113196_j25048249270387_1_alg».proof.Proof.LibDenseRows
import Idealize.ShloMosaic.PureOps.Ideal
import Idealize.ShloMosaic.Lib.ValueIdx

noncomputable section

namespace Cert.KernelIdeal.Layers

open Cert.KernelIdeal Cert.KernelIdeal.Chain Cert.DenseRows Idealize.ShloMosaic Idealize.ShloMosaic.ValueIdx

/-- A bias vector as the one row added to every row: entry `(0, q)` is entry `q` of the vector. -/
def row {c : Nat} (b : (⟨1, ![c]⟩ : Shape).Idx → EReal) : (⟨2, ![1, c]⟩ : Shape).Idx → EReal := fun i => b (ix1 (i 1))

theorem row_apply {c : Nat} (b : (⟨1, ![c]⟩ : Shape).Idx → EReal) (i : (⟨2, ![1, c]⟩ : Shape).Idx) : row b i = b (ix1 (i 1)) := rfl

/-- The first layer: 128 features to 128, aggregated over the edges, plus the bias, positive part. -/
def layer1 (x : (⟨S50000x128, .f32⟩ : BufTy).Contents (Elt Ideal)) (ei : (⟨S2x800000, .i32⟩ : BufTy).Contents (Elt Ideal)) (w : (⟨S128x128, .f32⟩ : BufTy).Contents (Elt Ideal)) (b : (⟨S128, .f32⟩ : BufTy).Contents (Elt Ideal)) : (⟨S50000x128, .f32⟩ : BufTy).Contents (Elt Ideal) :=
  pos (n := 50000) (c := 128) (addRow (n := 50000) (c := 128)
    (aggregate128 (F := Ideal) (mul (n := 50000) (k := 128) (c := 128) x w) (ends0 (F := Ideal) ei) (ends1 (F := Ideal) ei)
      (edgeWeight (F := Ideal) (ends0 ei) (ends1 ei)))
    (row (c := 128) b))

/-- The second layer: 128 features to 64, aggregated over the edges, plus the bias. -/
def layer2 (h : (⟨S50000x128, .f32⟩ : BufTy).Contents (Elt Ideal)) (ei : (⟨S2x800000, .i32⟩ : BufTy).Contents (Elt Ideal)) (w : (⟨S128x64, .f32⟩ : BufTy).Contents (Elt Ideal)) (b : (⟨S64, .f32⟩ : BufTy).Contents (Elt Ideal)) : (⟨S50000x64, .f32⟩ : BufTy).Contents (Elt Ideal) :=
  addRow (n := 50000) (c := 64)
    (aggregate64 (F := Ideal) (mul (n := 50000) (k := 128) (c := 64) h w) (ends0 (F := Ideal) ei) (ends1 (F := Ideal) ei)
      (edgeWeight (F := Ideal) (ends0 ei) (ends1 ei)))
    (row (c := 64) b)

/-- The encoder's dense layer: 64 features to 64, plus the bias. -/
def dense1 (h : (⟨S50000x64, .f32⟩ : BufTy).Contents (Elt Ideal)) (w : (⟨S64x64, .f32⟩ : BufTy).Contents (Elt Ideal)) (b : (⟨S64, .f32⟩ : BufTy).Contents (Elt Ideal)) : (⟨S50000x64, .f32⟩ : BufTy).Contents (Elt Ideal) :=
  addRow (n := 50000) (c := 64) (mul (n := 50000) (k := 64) (c := 64) h w) (row (c := 64) b)

/-- The third layer: 64 features to 256, aggregated over the edges, plus the bias, positive part. -/
def layer3 (z : (⟨S50000x64, .f32⟩ : BufTy).Contents (Elt Ideal)) (ei : (⟨S2x800000, .i32⟩ : BufTy).Contents (Elt Ideal)) (w : (⟨S64x256, .f32⟩ : BufTy).Contents (Elt Ideal)) (b : (⟨S256, .f32⟩ : BufTy).Contents (Elt Ideal)) : (⟨S50000x256, .f32⟩ : BufTy).Contents (Elt Ideal) :=
  pos (n := 50000) (c := 256) (addRow (n := 50000) (c := 256)
    (aggregate256 (F := Ideal) (mul (n := 50000) (k := 64) (c := 256) z w) (ends0 (F := Ideal) ei) (ends1 (F := Ideal) ei)
      (edgeWeight (F := Ideal) (ends0 ei) (ends1 ei)))
    (row (c := 256) b))

/-- The fourth layer: 256 features to 128, aggregated over the edges, plus the bias. -/
def layer4 (h : (⟨S50000x256, .f32⟩ : BufTy).Contents (Elt Ideal)) (ei : (⟨S2x800000, .i32⟩ : BufTy).Contents (Elt Ideal)) (w : (⟨S256x128, .f32⟩ : BufTy).Contents (Elt Ideal)) (b : (⟨S128, .f32⟩ : BufTy).Contents (Elt Ideal)) : (⟨S50000x128, .f32⟩ : BufTy).Contents (Elt Ideal) :=
  addRow (n := 50000) (c := 128)
    (aggregate128 (F := Ideal) (mul (n := 50000) (k := 256) (c := 128) h w) (ends0 (F := Ideal) ei) (ends1 (F := Ideal) ei)
      (edgeWeight (F := Ideal) (ends0 ei) (ends1 ei)))
    (row (c := 128) b)

/-- The decoder's dense layer: 128 features to 1024, plus the bias. -/
def dense2 (h : (⟨S50000x128, .f32⟩ : BufTy).Contents (Elt Ideal)) (w : (⟨S128x1024, .f32⟩ : BufTy).Contents (Elt Ideal)) (b : (⟨S1024, .f32⟩ : BufTy).Contents (Elt Ideal)) : (⟨S50000x1024, .f32⟩ : BufTy).Contents (Elt Ideal) :=
  addRow (n := 50000) (c := 1024) (mul (n := 50000) (k := 128) (c := 1024) h w) (row (c := 1024) b)

/-- The network's output from the node features `x`, the edge list `ei` and the six layers' weights and biases. -/
def network (x : (⟨S50000x128, .f32⟩ : BufTy).Contents (Elt Ideal)) (ei : (⟨S2x800000, .i32⟩ : BufTy).Contents (Elt Ideal))
    (w1 : (⟨S128x128, .f32⟩ : BufTy).Contents (Elt Ideal)) (b1 : (⟨S128, .f32⟩ : BufTy).Contents (Elt Ideal)) (w2 : (⟨S128x64, .f32⟩ : BufTy).Contents (Elt Ideal)) (b2 : (⟨S64, .f32⟩ : BufTy).Contents (Elt Ideal))
    (wf : (⟨S64x64, .f32⟩ : BufTy).Contents (Elt Ideal)) (bf : (⟨S64, .f32⟩ : BufTy).Contents (Elt Ideal)) (dw1 : (⟨S64x256, .f32⟩ : BufTy).Contents (Elt Ideal)) (db1 : (⟨S256, .f32⟩ : BufTy).Contents (Elt Ideal))
    (dw2 : (⟨S256x128, .f32⟩ : BufTy).Contents (Elt Ideal)) (db2 : (⟨S128, .f32⟩ : BufTy).Contents (Elt Ideal)) (dwf : (⟨S128x1024, .f32⟩ : BufTy).Contents (Elt Ideal)) (dbf : (⟨S1024, .f32⟩ : BufTy).Contents (Elt Ideal)) : (⟨S50000x1024, .f32⟩ : BufTy).Contents (Elt Ideal) :=
  dense2 (layer4 (layer3 (dense1 (layer2 (layer1 x ei w1 b1) ei w2 b2) wf bf) ei dw1 db1) ei dw2 db2) dwf dbf

end Cert.KernelIdeal.Layers

end
-- ==== Proof.KernelQuiet.lean ====
/-
  What has not changed when the kernel program reads it.

  An argument buffer still holds its launch contents at the boundary where a region or a host stretch reads
  it; the edges' source nodes, target nodes and weights, computed before the first region, are unchanged at
  every later stretch that reads them; and the row a region fetches as its bias is the bias vector, entry
  `(0, q)` its entry `q`. Each is the chain of single steps (a stretch changes only what it writes, a
  region only its windows' arrays) from the boundary back to the first region's entry or to the launch.
-/
import proofs.«113196_j25048249270387_1_alg».proof.Proof.KernelKeep
import proofs.«113196_j25048249270387_1_alg».proof.Proof.KernelPrelude
import proofs.«113196_j25048249270387_1_alg».proof.Proof.KernelStretch
import proofs.«113196_j25048249270387_1_alg».proof.Proof.BiasRows
import proofs.«113196_j25048249270387_1_alg».proof.Proof.Layers

noncomputable section

namespace Cert.KernelIdeal.Quiet

open Cert.KernelIdeal Cert.KernelIdeal.Gen Cert.KernelIdeal.Chain Cert.KernelIdeal.Layers Cert.KernelIdeal.Keep
open Cert.KernelIdeal.Prelude Cert.KernelIdeal.Stretch Cert.DenseRows
open Cert.KernelIdeal.Facts₀ Cert.KernelIdeal.Facts
open Idealize.ShloMosaic Idealize.ShloMosaic.TcCoe Idealize.ShloMosaic.ValueIdx Idealize.SL.Sem

variable (m : (ℓ : Loc nD τ sig) → Buf (Elt Ideal) ℓ) (ρ : Dev nD → PrngReg)

/-! ## What has not changed when it is read -/

/-- Arguments 0 and 2 are the launch contents when the first region is entered. -/
theorem arg0_at3 (c : Dev nD) : W3 (F := Ideal) m ρ c (Proc.devRef .tc main_arg0) = (m ((c : Thread nD τ).loc main_arg0)) := launch_3 m ρ c main_arg0 (by decide +kernel)
theorem arg2_at3 (c : Dev nD) : W3 (F := Ideal) m ρ c (Proc.devRef .tc main_arg2) = (m ((c : Thread nD τ).loc main_arg2)) := launch_3 m ρ c main_arg2 (by decide +kernel)
/-- Argument 3 is still the launch contents at boundary 4. -/
theorem arg3_at4 (c : Dev nD) : W4 (F := Ideal) m ρ c (Proc.devRef .tc main_arg3) = (m ((c : Thread nD τ).loc main_arg3)) :=
  (back_4 m ρ c main_arg3 (by decide +kernel)).trans (launch_3 m ρ c main_arg3 (by decide +kernel))
/-- Argument 4 is still the launch contents at boundary 7. -/
theorem arg4_at7 (c : Dev nD) : W7 (F := Ideal) m ρ c (Proc.devRef .tc main_arg4) = (m ((c : Thread nD τ).loc main_arg4)) :=
  (back_7 m ρ c main_arg4 (by decide +kernel)).trans (launch_3 m ρ c main_arg4 (by decide +kernel))
/-- Argument 5 is still the launch contents at boundary 8. -/
theorem arg5_at8 (c : Dev nD) : W8 (F := Ideal) m ρ c (Proc.devRef .tc main_arg5) = (m ((c : Thread nD τ).loc main_arg5)) :=
  (back_8 m ρ c main_arg5 (by decide +kernel)).trans (launch_3 m ρ c main_arg5 (by decide +kernel))
/-- Argument 6 is still the launch contents at boundary 11. -/
theorem arg6_at11 (c : Dev nD) : W11 (F := Ideal) m ρ c (Proc.devRef .tc main_arg6) = (m ((c : Thread nD τ).loc main_arg6)) :=
  (back_11 m ρ c main_arg6 (by decide +kernel)).trans (launch_3 m ρ c main_arg6 (by decide +kernel))
/-- Argument 7 is still the launch contents at boundary 10. -/
theorem arg7_at10 (c : Dev nD) : W10 (F := Ideal) m ρ c (Proc.devRef .tc main_arg7) = (m ((c : Thread nD τ).loc main_arg7)) :=
  (back_10 m ρ c main_arg7 (by decide +kernel)).trans (launch_3 m ρ c main_arg7 (by decide +kernel))
/-- Argument 8 is still the launch contents at boundary 13. -/
theorem arg8_at13 (c : Dev nD) : W13 (F := Ideal) m ρ c (Proc.devRef .tc main_arg8) = (m ((c : Thread nD τ).loc main_arg8)) :=
  (back_13 m ρ c main_arg8 (by decide +kernel)).trans (launch_3 m ρ c main_arg8 (by decide +kernel))
/-- Argument 9 is still the launch contents at boundary 14. -/
theorem arg9_at14 (c : Dev nD) : W14 (F := Ideal) m ρ c (Proc.devRef .tc main_arg9) = (m ((c : Thread nD τ).loc main_arg9)) :=
  (back_14 m ρ c main_arg9 (by decide +kernel)).trans (launch_3 m ρ c main_arg9 (by decide +kernel))
/-- Argument 10 is still the launch contents at boundary 17. -/
theorem arg10_at17 (c : Dev nD) : W17 (F := Ideal) m ρ c (Proc.devRef .tc main_arg10) = (m ((c : Thread nD τ).loc main_arg10)) :=
  (back_17 m ρ c main_arg10 (by decide +kernel)).trans (launch_3 m ρ c main_arg10 (by decide +kernel))
/-- Argument 11 is still the launch contents at boundary 18. -/
theorem arg11_at18 (c : Dev nD) : W18 (F := Ideal) m ρ c (Proc.devRef .tc main_arg11) = (m ((c : Thread nD τ).loc main_arg11)) :=
  (back_18 m ρ c main_arg11 (by decide +kernel)).trans (launch_3 m ρ c main_arg11 (by decide +kernel))
/-- Argument 12 is still the launch contents at boundary 21. -/
theorem arg12_at21 (c : Dev nD) : W21 (F := Ideal) m ρ c (Proc.devRef .tc main_arg12) = (m ((c : Thread nD τ).loc main_arg12)) :=
  (back_21 m ρ c main_arg12 (by decide +kernel)).trans (launch_3 m ρ c main_arg12 (by decide +kernel))
/-- Argument 13 is still the launch contents at boundary 20. -/
theorem arg13_at20 (c : Dev nD) : W20 (F := Ideal) m ρ c (Proc.devRef .tc main_arg13) = (m ((c : Thread nD τ).loc main_arg13)) :=
  (back_20 m ρ c main_arg13 (by decide +kernel)).trans (launch_3 m ρ c main_arg13 (by decide +kernel))

/-- The edges' source nodes, target nodes and weights are unchanged at boundary 4. -/
theorem ends0_at4 (c : Dev nD) : W4 (F := Ideal) m ρ c (Proc.devRef .tc main_v3) = ends0 (F := Ideal) (m ((c : Thread nD τ).loc main_arg1)) :=
  (back_4 m ρ c main_v3 (by decide +kernel)).trans (ends0_at3 m ρ c)
theorem ends1_at4 (c : Dev nD) : W4 (F := Ideal) m ρ c (Proc.devRef .tc main_v7) = ends1 (F := Ideal) (m ((c : Thread nD τ).loc main_arg1)) :=
  (back_4 m ρ c main_v7 (by decide +kernel)).trans (ends1_at3 m ρ c)
theorem weight_at4 (c : Dev nD) : W4 (F := Ideal) m ρ c (Proc.devRef .tc main_v30) = edgeWeight (F := Ideal) (ends0 (m ((c : Thread nD τ).loc main_arg1))) (ends1 (m ((c : Thread nD τ).loc main_arg1))) :=
  (back_4 m ρ c main_v30 (by decide +kernel)).trans (weight_at3 m ρ c)
/-- The edges' source nodes, target nodes and weights are unchanged at boundary 8. -/
theorem ends0_at8 (c : Dev nD) : W8 (F := Ideal) m ρ c (Proc.devRef .tc main_v3) = ends0 (F := Ideal) (m ((c : Thread nD τ).loc main_arg1)) :=
  (back_8 m ρ c main_v3 (by decide +kernel)).trans (ends0_at3 m ρ c)
theorem ends1_at8 (c : Dev nD) : W8 (F := Ideal) m ρ c (Proc.devRef .tc main_v7) = ends1 (F := Ideal) (m ((c : Thread nD τ).loc main_arg1)) :=
  (back_8 m ρ c main_v7 (by decide +kernel)).trans (ends1_at3 m ρ c)
theorem weight_at8 (c : Dev nD) : W8 (F := Ideal) m ρ c (Proc.devRef .tc main_v30) = edgeWeight (F := Ideal) (ends0 (m ((c : Thread nD τ).loc main_arg1))) (ends1 (m ((c : Thread nD τ).loc main_arg1))) :=
  (back_8 m ρ c main_v30 (by decide +kernel)).trans (weight_at3 m ρ c)
/-- The edges' source nodes, target nodes and weights are unchanged at boundary 14. -/
theorem ends0_at14 (c : Dev nD) : W14 (F := Ideal) m ρ c (Proc.devRef .tc main_v3) = ends0 (F := Ideal) (m ((c : Thread nD τ).loc main_arg1)) :=
  (back_14 m ρ c main_v3 (by decide +kernel)).trans (ends0_at3 m ρ c)
theorem ends1_at14 (c : Dev nD) : W14 (F := Ideal) m ρ c (Proc.devRef .tc main_v7) = ends1 (F := Ideal) (m ((c : Thread nD τ).loc main_arg1)) :=
  (back_14 m ρ c main_v7 (by decide +kernel)).trans (ends1_at3 m ρ c)
theorem weight_at14 (c : Dev nD) : W14 (F := Ideal) m ρ c (Proc.devRef .tc main_v30) = edgeWeight (F := Ideal) (ends0 (m ((c : Thread nD τ).loc main_arg1))) (ends1 (m ((c : Thread nD τ).loc main_arg1))) :=
  (back_14 m ρ c main_v30 (by decide +kernel)).trans (weight_at3 m ρ c)
/-- The edges' source nodes, target nodes and weights are unchanged at boundary 18. -/
theorem ends0_at18 (c : Dev nD) : W18 (F := Ideal) m ρ c (Proc.devRef .tc main_v3) = ends0 (F := Ideal) (m ((c : Thread nD τ).loc main_arg1)) :=
  (back_18 m ρ c main_v3 (by decide +kernel)).trans (ends0_at3 m ρ c)
theorem ends1_at18 (c : Dev nD) : W18 (F := Ideal) m ρ c (Proc.devRef .tc main_v7) = ends1 (F := Ideal) (m ((c : Thread nD τ).loc main_arg1)) :=
  (back_18 m ρ c main_v7 (by decide +kernel)).trans (ends1_at3 m ρ c)
theorem weight_at18 (c : Dev nD) : W18 (F := Ideal) m ρ c (Proc.devRef .tc main_v30) = edgeWeight (F := Ideal) (ends0 (m ((c : Thread nD τ).loc main_arg1))) (ends1 (m ((c : Thread nD τ).loc main_arg1))) :=
  (back_18 m ρ c main_v30 (by decide +kernel)).trans (weight_at3 m ρ c)

/-! ## The bias rows -/

/-- The bias row a region fetches at boundary 5 is bias vector 3, entry `(0, q)` its entry `q`. -/
theorem row_v46 (c : Dev nD) : W5 (F := Ideal) m ρ c (Proc.devRef .tc main_v46) = row (c := 128) (m ((c : Thread nD τ).loc main_arg3)) :=
  (row_at5 m ρ c).trans (((congrArg (fun b => shapeCast S1x128 b Facts₀.shapeCasts_S128_S1x128) (arg3_at4 m ρ c))).trans (Cert.KernelIdeal.BiasRows.row_128 (m ((c : Thread nD τ).loc main_arg3))))
/-- The bias row a region fetches at boundary 9 is bias vector 5, entry `(0, q)` its entry `q`. -/
theorem row_v63 (c : Dev nD) : W9 (F := Ideal) m ρ c (Proc.devRef .tc main_v63) = row (c := 64) (m ((c : Thread nD τ).loc main_arg5)) :=
  (row_at9 m ρ c).trans (((congrArg (fun b => shapeCast S1x64 b Facts₀.shapeCasts_S64_S1x64) (arg5_at8 m ρ c))).trans (Cert.KernelIdeal.BiasRows.row_64 (m ((c : Thread nD τ).loc main_arg5))))
/-- The bias row a region fetches at boundary 11 is bias vector 7, entry `(0, q)` its entry `q`. -/
theorem row_v65 (c : Dev nD) : W11 (F := Ideal) m ρ c (Proc.devRef .tc main_v65) = row (c := 64) (m ((c : Thread nD τ).loc main_arg7)) :=
  (row_at11 m ρ c).trans (((congrArg (fun b => shapeCast S1x64 b Facts₀.shapeCasts_S64_S1x64) (arg7_at10 m ρ c))).trans (Cert.KernelIdeal.BiasRows.row_64 (m ((c : Thread nD τ).loc main_arg7))))
/-- The bias row a region fetches at boundary 15 is bias vector 9, entry `(0, q)` its entry `q`. -/
theorem row_v82 (c : Dev nD) : W15 (F := Ideal) m ρ c (Proc.devRef .tc main_v82) = row (c := 256) (m ((c : Thread nD τ).loc main_arg9)) :=
  (row_at15 m ρ c).trans (((congrArg (fun b => shapeCast S1x256 b Facts₀.shapeCasts_S256_S1x256) (arg9_at14 m ρ c))).trans (Cert.KernelIdeal.BiasRows.row_256 (m ((c : Thread nD τ).loc main_arg9))))
/-- The bias row a region fetches at boundary 19 is bias vector 11, entry `(0, q)` its entry `q`. -/
theorem row_v99 (c : Dev nD) : W19 (F := Ideal) m ρ c (Proc.devRef .tc main_v99) = row (c := 128) (m ((c : Thread nD τ).loc main_arg11)) :=
  (row_at19 m ρ c).trans (((congrArg (fun b => shapeCast S1x128 b Facts₀.shapeCasts_S128_S1x128) (arg11_at18 m ρ c))).trans (Cert.KernelIdeal.BiasRows.row_128 (m ((c : Thread nD τ).loc main_arg11))))
/-- The bias row a region fetches at boundary 21 is bias vector 13, entry `(0, q)` its entry `q`. -/
theorem row_v101 (c : Dev nD) : W21 (F := Ideal) m ρ c (Proc.devRef .tc main_v101) = row (c := 1024) (m ((c : Thread nD τ).loc main_arg13)) :=
  (row_at21 m ρ c).trans (((congrArg (fun b => shapeCast S1x1024 b Facts₀.shapeCasts_S1024_S1x1024) (arg13_at20 m ρ c))).trans (Cert.KernelIdeal.BiasRows.row_1024 (m ((c : Thread nD τ).loc main_arg13))))

end Cert.KernelIdeal.Quiet

end
-- ==== Proof.Region0.lean ====
/-
  Region 0: the first dense product of the network, one block of rows at a time.

  The node-feature matrix has 50000 rows and 128 columns; the weight matrix is 128 by 128. The grid has 25
  points; point `t` takes rows 2000 t up to 2000 t + 2000 of the features and the whole weight matrix,
  multiplies them (entry (r, q) of a block product is the sum over j of the row's entry j times the weight's
  entry (j, q); rounding the operands to the shorter format is the identity on the extended reals, and the
  accumulator starts at zero), and writes the product back to the same rows of the output. A third operand, a
  row of zeros, is fetched and never read. Since every row lies in exactly one block, the output array after
  the 25 points is the whole product of the two arrays as the region found them.
-/
import proofs.«113196_j25048249270387_1_alg».proof.Proof.Gen.KernelIdeal.Frame
import proofs.«113196_j25048249270387_1_alg».proof.Proof.LibDenseRows
import Idealize.ShloMosaic.Lib.Pipeline.Value
import Idealize.ShloMosaic.Lib.ValueIdx
import Idealize.ShloMosaic.PureOps.Ideal.Laws

noncomputable section

namespace Cert.KernelIdeal.Region0

open Cert.KernelIdeal Cert.KernelIdeal.Gen Idealize.ShloMosaic Idealize.ShloMosaic.TcCoe Idealize.ShloMosaic.ValueIdx Idealize.ShloMosaic.Pipeline

/-! ## The block product at an entry -/

/-- The contraction of the block product: a [2000, 128] block against the [128, 128] weights, over the block's
    column axis and the weights' row axis. -/
local notation "dd" => dot_S2000x128_S128x128_S2000x128_1_0_0_1_n_n

/-- The left operand is read at the output entry's row … -/
theorem lhs_row (i : S2000x128.Idx) (k : (dd).contr.Idx) : ((dd).lhsIdx i k 0).val = (i 0).val := by
  unfold DotDims.lhsIdx
  rw [dif_neg (show ¬(0 : Fin S2000x128.rank) ∈ (dd).lhsBatch by decide), dif_pos (show (0 : Fin S2000x128.rank) ∈ (dd).lhsNonContracting by decide)]
  rfl
/-- … and at the summation index as its column. -/
theorem lhs_col (i : S2000x128.Idx) (k : (dd).contr.Idx) : ((dd).lhsIdx i k 1).val = (k ⟨0, by decide⟩).val :=
  (dd).lhsIdx_val_of_single rfl i k
/-- The right operand is read at the summation index as its row … -/
theorem rhs_row (i : S2000x128.Idx) (k : (dd).contr.Idx) : ((dd).rhsIdx i k 0).val = (k ⟨0, by decide⟩).val :=
  (dd).rhsIdx_val_of_single rfl i k
/-- … and at the output entry's column. -/
theorem rhs_col (i : S2000x128.Idx) (k : (dd).contr.Idx) : ((dd).rhsIdx i k 1).val = (i 1).val := by
  unfold DotDims.rhsIdx
  rw [dif_neg (show ¬(1 : Fin S128x128.rank) ∈ (dd).rhsBatch by decide), dif_pos (show (1 : Fin S128x128.rank) ∈ (dd).rhsNonContracting by decide)]
  rfl

/-- Entry `(p, q)` of what the body computes from a block `x0` of rows and the weights `x1`: the sum over
    `j` of `x0 (p, j) * x1 (j, q)`. On the extended reals the change of format is the identity and the product
    into a zero accumulator is the plain sum over the contraction index, which has one axis of extent 128. -/
theorem pay_apply (x0 : Vec Ideal S2000x128 .f32) (x1 : Vec Ideal S128x128 .f32) (p : Fin 2000) (q : Fin 128) :
    k0_pay1 (F := Ideal) x0 x1 (ix2 p q) = ∑ j : Fin 128, x0 (ix2 p j) * x1 (ix2 j q) := by
  unfold k0_pay1
  refine (Ideal.matmul_constant_zero_apply (dd) none _ _ (ix2 p q)).trans ?_
  rw [← Equiv.sum_comp (contrEquiv1 (dd) 128 rfl rfl).symm]
  refine Finset.sum_congr rfl fun k _ => ?_
  have hk := contrEquiv1_symm_val (dd) 128 rfl rfl k
  have el : (dd).lhsIdx (ix2 p q) ((contrEquiv1 (dd) 128 rfl rfl).symm k) = ix2 p k := funext fun a => Fin.ext (by
    match a with
    | ⟨0, _⟩ => exact lhs_row _ _
    | ⟨1, _⟩ => exact (lhs_col _ _).trans hk)
  have er : (dd).rhsIdx (ix2 p q) ((contrEquiv1 (dd) 128 rfl rfl).symm k) = ix2 k q := funext fun a => Fin.ext (by
    match a with
    | ⟨0, _⟩ => exact (rhs_row _ _).trans hk
    | ⟨1, _⟩ => exact rhs_col _ _)
  show x0 ((dd).lhsIdx (ix2 p q) ((contrEquiv1 (dd) 128 rfl rfl).symm k)) * x1 ((dd).rhsIdx (ix2 p q) ((contrEquiv1 (dd) 128 rfl rfl).symm k)) = _
  rw [el, er]

/-! ## The blocks, the cover, the array -/

variable (V : (c : Dev nD) → (b : Ref sig .tc) → Buf (Elt Ideal) ((c : Thread nD τ).loc b))

/-- The body reads and writes its staging buffers from their origin. -/
theorem hz : (![0, 0] : Fin 2 → Nat) = fun _ => 0 := funext fun a => by fin_cases a <;> rfl

/-- The block indices over the grid: at point `t` the feature rows and the output rows are block `t` of their
    arrays (column block 0), and the weights are their one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_3.index t (0 : Fin 2) = t.val ∧ win0_3.index t (1 : Fin 2) = 0 :=
  (by decide +kernel : ∀ t : Fin grid0.N, _)

/-- Entry `y` of the block of feature rows at point `t` is the array's entry in row `2000 t + y 0`, column `y 1`. -/
theorem read_rows (c : Dev nD) (t : Fin cfg0.N) (y : S2000x128.Idx) (i : S50000x128.Idx)
    (h0 : (i 0).val = t.val * 2000 + (y 0).val) (h1 : (i 1).val = (y 1).val) :
    iblk0 V c 0 t y = V c main_arg0 i := by
  obtain ⟨e0, e1, -, -, -, -⟩ := idx_facts t
  show V c main_arg0 (((cfg0.win 0).blk t).view.emb y) = V c main_arg0 i
  refine congrArg _ (funext fun a => Fin.ext ?_)
  match a with
  | ⟨0, _⟩ => show win0_0.index t (0 : Fin 2) * 2000 + 1 * (y 0).val = (i 0).val; omega
  | ⟨1, _⟩ => show win0_0.index t (1 : Fin 2) * 128 + 1 * (y 1).val = (i 1).val; omega

/-- The block of weights at every point is the whole weight array. -/
theorem read_weights (c : Dev nD) (t : Fin cfg0.N) (y : S128x128.Idx) (i : S128x128.Idx)
    (h0 : (i 0).val = (y 0).val) (h1 : (i 1).val = (y 1).val) :
    iblk0 V c 1 t y = V c main_arg2 i := by
  obtain ⟨-, -, e2, e3, -, -⟩ := idx_facts t
  show V c main_arg2 (((cfg0.win 1).blk t).view.emb y) = V c main_arg2 i
  refine congrArg _ (funext fun a => Fin.ext ?_)
  match a with
  | ⟨0, _⟩ => show win0_1.index t (0 : Fin 2) * 128 + 1 * (y 0).val = (i 0).val; omega
  | ⟨1, _⟩ => show win0_1.index t (1 : Fin 2) * 128 + 1 * (y 1).val = (i 1).val; omega

/-- What point `t` writes back is rows `2000 t` up to `2000 t + 2000` of the product of the two arrays: entry
    `(p, q)` of the block product reads the features in row `2000 t + p` and the weights in column `q`, which is
    entry `(2000 t + p, q)` of the whole product. -/
theorem flushed_eq (c : Dev nD) (t : Fin cfg0.N) :
    (dat0 V c).flushed 3 t = ((cfg0.win 3).blk t).view.read (Elt Ideal)
      (Cert.DenseRows.mul (n := 50000) (k := 128) (c := 128) (V c main_arg0) (V c main_arg2)) := by
  show (cfg0.win 3).cut (grid0.coords t) ((dat0 V c).after 3 t) = _
  rw [after0_3]
  unfold out0_3
  rw [View.canon_unit_zero hz]
  simp only [View.ld_unit_zero (S := S2000x128) hz, View.ld_unit_zero (S := S128x128) hz]
  obtain ⟨-, -, -, -, e4, e5⟩ := idx_facts t
  funext j
  obtain ⟨p, q, rfl⟩ : ∃ (p : Fin 2000) (q : Fin 128), j = ix2 p q := ⟨j 0, j 1, eq_ix2 j⟩
  show k0_pay1 (iblk0 V c 0 t) (iblk0 V c 1 t) (ix2 p q)
    = Cert.DenseRows.mul (n := 50000) (k := 128) (c := 128) (V c main_arg0) (V c main_arg2) (((cfg0.win 3).blk t).view.emb (ix2 p q))
  have hE0 : ((((cfg0.win 3).blk t).view.emb (ix2 p q)) 0).val = t.val * 2000 + p.val := by
    show win0_3.index t (0 : Fin 2) * 2000 + 1 * p.val = _; omega
  have hE1 : ((((cfg0.win 3).blk t).view.emb (ix2 p q)) 1).val = q.val := by
    show win0_3.index t (1 : Fin 2) * 128 + 1 * q.val = _; omega
  refine (pay_apply _ _ p q).trans ?_
  rw [Cert.DenseRows.mul_apply]
  refine Finset.sum_congr rfl fun k _ => ?_
  refine congrArg₂ (· * ·) ?_ ?_
  · exact read_rows V c t _ _ hE0 rfl
  · exact read_weights V c t _ _ rfl hE1

/-- An entry of the output array is in point `t`'s block iff each coordinate is in the block's range on its axis. -/
theorem mem_blk (t : Fin cfg0.N) (i : S50000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v32).slice (win0_3.rect t)).set ↔ _
  rw [View.set_slice_whole, Rect.mem_set_unit]
  exact Iff.rfl

/-- Every entry of the output array is written back by some point: row `r` by point `r / 2000`. -/
theorem cover (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : grid0.N = 25 := N_0
  have ht : (i 0).val / 2000 < grid0.N := by omega
  obtain ⟨-, -, -, -, e4, e5⟩ := idx_facts ⟨(i 0).val / 2000, ht⟩
  have e4' : win0_3.index ⟨(i 0).val / 2000, ht⟩ (0 : Fin 2) = (i 0).val / 2000 := e4
  refine ⟨⟨(i 0).val / 2000, ht⟩, flush0_3 _, ?_⟩
  rw [mem_blk]
  intro a
  match a with
  | ⟨0, _⟩ =>
    show win0_3.index ⟨(i 0).val / 2000, ht⟩ (0 : Fin 2) * 2000 ≤ (i 0).val ∧ (i 0).val < win0_3.index ⟨(i 0).val / 2000, ht⟩ (0 : Fin 2) * 2000 + 2000
    omega
  | ⟨1, _⟩ =>
    show win0_3.index ⟨(i 0).val / 2000, ht⟩ (1 : Fin 2) * 128 ≤ (i 1).val ∧ (i 1).val < win0_3.index ⟨(i 0).val / 2000, ht⟩ (1 : Fin 2) * 128 + 128
    omega

/-- THE ARRAY after the region's 25 points: the product of the feature array and the weight array as the region
    found them. -/
theorem array (c : Dev nD) :
    (dat0 V c).arrAt 3 cfg0.N = Cert.DenseRows.mul (n := 50000) (k := 128) (c := 128) (V c main_arg0) (V c main_arg2) :=
  (dat0 V c).arrAt_eq_of_cover 3 _ (fun t _ => flushed_eq V c t) cover

end Cert.KernelIdeal.Region0

end
-- ==== Proof.Region1.lean ====
/-
  Region 1: a bias row added to every row of a node-feature matrix, then the positive part.

  The region walks the [50000, 128] matrix in 25 blocks of 2000 rows. At block `t` it reads rows
  `2000 t … 2000 t + 1999` of the matrix and the whole [1, 128] bias row, and writes back, to the same rows of
  the result, each entry plus the bias entry of its column, replaced by zero where that is negative. The blocks
  tile the rows, so the result array ends holding `max (a (r, q) + b (0, q)) 0` at every `(r, q)`: the positive
  part of the matrix with the row added, as one function of the two whole arrays.
-/
import proofs.«113196_j25048249270387_1_alg».proof.Proof.Gen.KernelIdeal.Frame
import proofs.«113196_j25048249270387_1_alg».proof.Proof.LibDenseRows
import Idealize.ShloMosaic.Lib.Pipeline.Value
import Idealize.ShloMosaic.Lib.ValueIdx
import Idealize.ShloMosaic.PureOps.Ideal.Laws

noncomputable section

namespace Cert.KernelIdeal.Region1

open Cert.KernelIdeal Cert.KernelIdeal.Gen Idealize.ShloMosaic Idealize.ShloMosaic.TcCoe Idealize.ShloMosaic.ValueIdx Idealize.ShloMosaic.Pipeline
open Cert.DenseRows (addRow pos)

/-- The stored value at row `p`, column `q` of a block: the block's entry plus the bias row's entry in that
    column, then the positive part. The two casts are between equal shapes, hence identities; the bias row is
    repeated down the rows; the constant compared against is the extended real zero. -/
theorem pay_apply (x0 : Vec Ideal S2000x128 .f32) (x1 : Vec Ideal S1x128 .f32) (p : Fin 2000) (q : Fin 128) :
    k1_pay1 (F := Ideal) x0 x1 (ix2 p q) = max (x0 (ix2 p q) + x1 (ix2 (0 : Fin 1) q)) 0 := by
  unfold k1_pay1
  show max (shapeCast S2000x128 x0 shapeCasts_S2000x128_S2000x128 (ix2 p q)
      + broadcastTo S2000x128 (shapeCast S1x128 x1 shapeCasts_S1x128_S1x128) broadcasts_S1x128_S2000x128 (ix2 p q))
      (Ideal.ofBits .f32 0x00000000#32) = _
  rw [shapeCast_self, shapeCast_self, Ideal.ofBits_zero_f32]
  rw [broadcastTo_apply x1 broadcasts_S1x128_S2000x128 (ix2 p q) (ix2 (0 : Fin 1) q)]
  intro a
  match a with
  | ⟨0, _⟩ => rfl
  | ⟨1, _⟩ => rfl

/-- The offsets of the body's one load and one store per buffer are all zero. -/
theorem hz : (![0, 0] : Fin 2 → Nat) = fun _ => 0 := funext fun a => by fin_cases a <;> rfl

/-- The block indices over the 25 points, decided once: the matrix's block and the result's block at point `t`
    are block `t` of the rows and block 0 of the columns; the bias row's block is always block (0, 0). -/
theorem idx_facts : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

/-- There are 25 points. -/
theorem point_lt (t : Fin cfg1.N) : t.val < 25 := lt_of_lt_of_eq t.isLt N_1

/-- Row `p` of block `t` is row `2000 t + p` of the matrix. -/
def row (t : Fin cfg1.N) (p : Fin 2000) : Fin 50000 :=
  ⟨2000 * t.val + p.val, by have := point_lt t; have := p.isLt; omega⟩

/-- Where entry `(p, q)` of the result's block at point `t` sits in the result array: `(2000 t + p, q)`. -/
theorem emb_out (t : Fin cfg1.N) (p : Fin 2000) (q : Fin 128) :
    ((cfg1.win 2).blk t).view.emb (ix2 p q) = ix2 (row t p) q := by
  obtain ⟨e0, e1, e2, e3, e4, e5⟩ := idx_facts t
  funext a; apply Fin.ext
  match a with
  | ⟨0, _⟩ => show win1_2.index t (0 : Fin 2) * 2000 + 1 * p.val = 2000 * t.val + p.val; omega
  | ⟨1, _⟩ => show win1_2.index t (1 : Fin 2) * 128 + 1 * q.val = q.val; omega

variable (V : (c : Dev nD) → (b : Ref sig .tc) → Buf (Elt Ideal) ((c : Thread nD τ).loc b))

/-- Entry `(p, q)` of the matrix's block at point `t` is entry `(2000 t + p, q)` of the matrix. -/
theorem blk0_apply (c : Dev nD) (t : Fin cfg1.N) (p : Fin 2000) (q : Fin 128) :
    iblk1 (F := Ideal) V c 0 t (ix2 p q) = V c main_v45 (ix2 (row t p) q) := by
  obtain ⟨e0, e1, e2, e3, e4, e5⟩ := idx_facts t
  show V c main_v45 (((cfg1.win 0).blk t).view.emb (ix2 p q)) = _
  refine congrArg (V c main_v45 : S50000x128.Idx → EReal) (funext fun a => Fin.ext ?_)
  match a with
  | ⟨0, _⟩ => show win1_0.index t (0 : Fin 2) * 2000 + 1 * p.val = 2000 * t.val + p.val; omega
  | ⟨1, _⟩ => show win1_0.index t (1 : Fin 2) * 128 + 1 * q.val = q.val; omega

/-- The bias row's block at every point is the whole row: entry `(0, q)` of the block is entry `(0, q)` of the row. -/
theorem blk1_apply (c : Dev nD) (t : Fin cfg1.N) (q : Fin 128) :
    iblk1 (F := Ideal) V c 1 t (ix2 (0 : Fin 1) q) = V c main_v46 (ix2 (0 : Fin 1) q) := by
  obtain ⟨e0, e1, e2, e3, e4, e5⟩ := idx_facts t
  show V c main_v46 (((cfg1.win 1).blk t).view.emb (ix2 (0 : Fin 1) q)) = _
  refine congrArg (V c main_v46 : S1x128.Idx → EReal) (funext fun a => Fin.ext ?_)
  match a with
  | ⟨0, _⟩ => show win1_1.index t (0 : Fin 2) * 1 + 1 * 0 = 0; omega
  | ⟨1, _⟩ => show win1_1.index t (1 : Fin 2) * 128 + 1 * q.val = q.val; omega

/-- What point `t` writes back is block `t` of the whole-array function: at `(p, q)` of the block, the stored value
    is the function's value at `(2000 t + p, q)`. -/
theorem flushed_eq (c : Dev nD) (t : Fin cfg1.N) :
    (dat1 (F := Ideal) V c).flushed 2 t
      = ((cfg1.win 2).blk t).view.read (Elt Ideal) (pos (addRow (V c main_v45) (V c main_v46))) := by
  show (cfg1.win 2).cut (grid1.coords t) ((dat1 V c).after 2 t) = _
  rw [after1_2]
  unfold out1_2
  rw [View.canon_unit_zero hz]
  simp only [View.ld_unit_zero (S := S2000x128) hz, View.ld_unit_zero (S := S1x128) hz]
  funext j
  obtain ⟨p, q, rfl⟩ : ∃ (p : Fin 2000) (q : Fin 128), j = ix2 p q := ⟨j 0, j 1, eq_ix2 j⟩
  show k1_pay1 (F := Ideal) (iblk1 V c 0 t) (iblk1 V c 1 t) (ix2 p q)
    = (pos (addRow (V c main_v45) (V c main_v46))) (((cfg1.win 2).blk t).view.emb (ix2 p q))
  rw [emb_out]
  refine (pay_apply _ _ p q).trans ?_
  rw [blk0_apply V c t p q, blk1_apply V c t q]
  rfl

/-- An index of the result array is in point `t`'s block iff each coordinate is in the block's range on its axis. -/
theorem mem_blk (t : Fin cfg1.N) (i : S50000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v47).slice (win1_2.rect t)).set ↔ _
  rw [View.set_slice_whole, Rect.mem_set_unit]
  exact Iff.rfl

/-- The blocks tile the rows: row `r` is in the block of point `r / 2000`, and every point writes its block back. -/
theorem cover (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  let t : Fin cfg1.N := Fin.cast N_1.symm ⟨(i 0).val / 2000, by omega⟩
  have ht : t.val = (i 0).val / 2000 := rfl
  obtain ⟨e0, e1, e2, e3, e4, e5⟩ := idx_facts t
  refine ⟨t, flush1_2 t, ?_⟩
  rw [mem_blk]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 128 ≤ (i 1).val ∧ (i 1).val < win1_2.index t (1 : Fin 2) * 128 + 128; omega

/-- The result array after the region: the positive part of the matrix with the bias row added to every row,
    as one function of the two arrays the region found on entry. -/
theorem array (c : Dev nD) :
    (dat1 (F := Ideal) V c).arrAt 2 cfg1.N = pos (addRow (V c main_v45) (V c main_v46)) :=
  (dat1 V c).arrAt_eq_of_cover 2 (pos (addRow (V c main_v45) (V c main_v46))) (fun t _ => flushed_eq V c t) cover

end Cert.KernelIdeal.Region1

end
-- ==== Proof.Region2.lean ====
/-
  Region 2: a dense product with a 128 by 64 weight matrix, one block of rows at a time.

  The input array has 50000 rows and 128 columns; the weight matrix is 128 by 64. The grid has 25 points;
  point `t` takes rows 2000 t up to 2000 t + 2000 of the input and the whole weight matrix, multiplies them
  (entry (r, q) of a block product is the sum over j of the row's entry j times the weight's entry (j, q);
  rounding the operands to the shorter format is the identity on the extended reals, and the accumulator starts
  at zero), and writes the product back to the same rows of the output. A third operand, a row of zeros, is
  fetched and never read. Since every row lies in exactly one block, the output array after the 25 points is
  the whole product of the two arrays as the region found them.
-/
import proofs.«113196_j25048249270387_1_alg».proof.Proof.Gen.KernelIdeal.Frame
import proofs.«113196_j25048249270387_1_alg».proof.Proof.LibDenseRows
import Idealize.ShloMosaic.Lib.Pipeline.Value
import Idealize.ShloMosaic.Lib.ValueIdx
import Idealize.ShloMosaic.PureOps.Ideal.Laws

noncomputable section

namespace Cert.KernelIdeal.Region2

open Cert.KernelIdeal Cert.KernelIdeal.Gen Idealize.ShloMosaic Idealize.ShloMosaic.TcCoe Idealize.ShloMosaic.ValueIdx Idealize.ShloMosaic.Pipeline

/-! ## The block product at an entry -/

/-- The contraction of the block product: a [2000, 128] block against the [128, 64] weights, over the block's
    column axis and the weights' row axis. -/
local notation "dd" => dot_S2000x128_S128x64_S2000x64_1_0_0_1_n_n

/-- The left operand is read at the output entry's row … -/
theorem lhs_row (i : S2000x64.Idx) (k : (dd).contr.Idx) : ((dd).lhsIdx i k 0).val = (i 0).val := by
  unfold DotDims.lhsIdx
  rw [dif_neg (show ¬(0 : Fin S2000x128.rank) ∈ (dd).lhsBatch by decide), dif_pos (show (0 : Fin S2000x128.rank) ∈ (dd).lhsNonContracting by decide)]
  rfl
/-- … and at the summation index as its column. -/
theorem lhs_col (i : S2000x64.Idx) (k : (dd).contr.Idx) : ((dd).lhsIdx i k 1).val = (k ⟨0, by decide⟩).val :=
  (dd).lhsIdx_val_of_single rfl i k
/-- The right operand is read at the summation index as its row … -/
theorem rhs_row (i : S2000x64.Idx) (k : (dd).contr.Idx) : ((dd).rhsIdx i k 0).val = (k ⟨0, by decide⟩).val :=
  (dd).rhsIdx_val_of_single rfl i k
/-- … and at the output entry's column. -/
theorem rhs_col (i : S2000x64.Idx) (k : (dd).contr.Idx) : ((dd).rhsIdx i k 1).val = (i 1).val := by
  unfold DotDims.rhsIdx
  rw [dif_neg (show ¬(1 : Fin S128x64.rank) ∈ (dd).rhsBatch by decide), dif_pos (show (1 : Fin S128x64.rank) ∈ (dd).rhsNonContracting by decide)]
  rfl

/-- Entry `(p, q)` of what the body computes from a block `x0` of rows and the weights `x1`: the sum over
    `j` of `x0 (p, j) * x1 (j, q)`. Recasting the block to its own shape and the change of format are the identity on the extended
    reals, and the product into a zero accumulator is the plain sum over the contraction index, which has one axis of extent 128. -/
theorem pay_apply (x0 : Vec Ideal S2000x128 .f32) (x1 : Vec Ideal S128x64 .f32) (p : Fin 2000) (q : Fin 64) :
    k2_pay1 (F := Ideal) x0 x1 (ix2 p q) = ∑ j : Fin 128, x0 (ix2 p j) * x1 (ix2 j q) := by
  unfold k2_pay1
  refine (Ideal.matmul_constant_zero_apply (dd) none _ _ (ix2 p q)).trans ?_
  rw [← Equiv.sum_comp (contrEquiv1 (dd) 128 rfl rfl).symm]
  refine Finset.sum_congr rfl fun k _ => ?_
  have hk := contrEquiv1_symm_val (dd) 128 rfl rfl k
  have el : (dd).lhsIdx (ix2 p q) ((contrEquiv1 (dd) 128 rfl rfl).symm k) = ix2 p k := funext fun a => Fin.ext (by
    match a with
    | ⟨0, _⟩ => exact lhs_row _ _
    | ⟨1, _⟩ => exact (lhs_col _ _).trans hk)
  have er : (dd).rhsIdx (ix2 p q) ((contrEquiv1 (dd) 128 rfl rfl).symm k) = ix2 k q := funext fun a => Fin.ext (by
    match a with
    | ⟨0, _⟩ => exact (rhs_row _ _).trans hk
    | ⟨1, _⟩ => exact rhs_col _ _)
  show shapeCast S2000x128 x0 shapeCasts_S2000x128_S2000x128 ((dd).lhsIdx (ix2 p q) ((contrEquiv1 (dd) 128 rfl rfl).symm k)) * x1 ((dd).rhsIdx (ix2 p q) ((contrEquiv1 (dd) 128 rfl rfl).symm k)) = _
  rw [shapeCast_self, el, er]

/-! ## The blocks, the cover, the array -/

variable (V : (c : Dev nD) → (b : Ref sig .tc) → Buf (Elt Ideal) ((c : Thread nD τ).loc b))

/-- The body reads and writes its staging buffers from their origin. -/
theorem hz : (![0, 0] : Fin 2 → Nat) = fun _ => 0 := funext fun a => by fin_cases a <;> rfl

/-- The block indices over the grid: at point `t` the feature rows and the output rows are block `t` of their
    arrays (column block 0), and the weights are their one block. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_3.index t (0 : Fin 2) = t.val ∧ win2_3.index t (1 : Fin 2) = 0 :=
  (by decide +kernel : ∀ t : Fin grid2.N, _)

/-- Entry `y` of the block of feature rows at point `t` is the array's entry in row `2000 t + y 0`, column `y 1`. -/
theorem read_rows (c : Dev nD) (t : Fin cfg2.N) (y : S2000x128.Idx) (i : S50000x128.Idx)
    (h0 : (i 0).val = t.val * 2000 + (y 0).val) (h1 : (i 1).val = (y 1).val) :
    iblk2 V c 0 t y = V c main_v47 i := by
  obtain ⟨e0, e1, -, -, -, -⟩ := idx_facts t
  show V c main_v47 (((cfg2.win 0).blk t).view.emb y) = V c main_v47 i
  refine congrArg _ (funext fun a => Fin.ext ?_)
  match a with
  | ⟨0, _⟩ => show win2_0.index t (0 : Fin 2) * 2000 + 1 * (y 0).val = (i 0).val; omega
  | ⟨1, _⟩ => show win2_0.index t (1 : Fin 2) * 128 + 1 * (y 1).val = (i 1).val; omega

/-- The block of weights at every point is the whole weight array. -/
theorem read_weights (c : Dev nD) (t : Fin cfg2.N) (y : S128x64.Idx) (i : S128x64.Idx)
    (h0 : (i 0).val = (y 0).val) (h1 : (i 1).val = (y 1).val) :
    iblk2 V c 1 t y = V c main_arg4 i := by
  obtain ⟨-, -, e2, e3, -, -⟩ := idx_facts t
  show V c main_arg4 (((cfg2.win 1).blk t).view.emb y) = V c main_arg4 i
  refine congrArg _ (funext fun a => Fin.ext ?_)
  match a with
  | ⟨0, _⟩ => show win2_1.index t (0 : Fin 2) * 128 + 1 * (y 0).val = (i 0).val; omega
  | ⟨1, _⟩ => show win2_1.index t (1 : Fin 2) * 64 + 1 * (y 1).val = (i 1).val; omega

/-- What point `t` writes back is rows `2000 t` up to `2000 t + 2000` of the product of the two arrays: entry
    `(p, q)` of the block product reads the features in row `2000 t + p` and the weights in column `q`, which is
    entry `(2000 t + p, q)` of the whole product. -/
theorem flushed_eq (c : Dev nD) (t : Fin cfg2.N) :
    (dat2 V c).flushed 3 t = ((cfg2.win 3).blk t).view.read (Elt Ideal)
      (Cert.DenseRows.mul (n := 50000) (k := 128) (c := 64) (V c main_v47) (V c main_arg4)) := by
  show (cfg2.win 3).cut (grid2.coords t) ((dat2 V c).after 3 t) = _
  rw [after2_3]
  unfold out2_3
  rw [View.canon_unit_zero hz]
  simp only [View.ld_unit_zero (S := S2000x128) hz, View.ld_unit_zero (S := S128x64) hz]
  obtain ⟨-, -, -, -, e4, e5⟩ := idx_facts t
  funext j
  obtain ⟨p, q, rfl⟩ : ∃ (p : Fin 2000) (q : Fin 64), j = ix2 p q := ⟨j 0, j 1, eq_ix2 j⟩
  show k2_pay1 (iblk2 V c 0 t) (iblk2 V c 1 t) (ix2 p q)
    = Cert.DenseRows.mul (n := 50000) (k := 128) (c := 64) (V c main_v47) (V c main_arg4) (((cfg2.win 3).blk t).view.emb (ix2 p q))
  have hE0 : ((((cfg2.win 3).blk t).view.emb (ix2 p q)) 0).val = t.val * 2000 + p.val := by
    show win2_3.index t (0 : Fin 2) * 2000 + 1 * p.val = _; omega
  have hE1 : ((((cfg2.win 3).blk t).view.emb (ix2 p q)) 1).val = q.val := by
    show win2_3.index t (1 : Fin 2) * 64 + 1 * q.val = _; omega
  refine (pay_apply _ _ p q).trans ?_
  rw [Cert.DenseRows.mul_apply]
  refine Finset.sum_congr rfl fun k _ => ?_
  refine congrArg₂ (· * ·) ?_ ?_
  · exact read_rows V c t _ _ hE0 rfl
  · exact read_weights V c t _ _ rfl hE1

/-- An entry of the output array is in point `t`'s block iff each coordinate is in the block's range on its axis. -/
theorem mem_blk (t : Fin cfg2.N) (i : S50000x64.Idx) :
    i ∈ ((cfg2.win 3).blk t).view.set ↔ ∀ a : Fin 2, win2_3.index t a * S2000x64.size a ≤ (i a).val ∧ (i a).val < win2_3.index t a * S2000x64.size a + S2000x64.size a := by
  show i ∈ ((View.whole main_v49).slice (win2_3.rect t)).set ↔ _
  rw [View.set_slice_whole, Rect.mem_set_unit]
  exact Iff.rfl

/-- Every entry of the output array is written back by some point: row `r` by point `r / 2000`. -/
theorem cover (i : S50000x64.Idx) :
    ∃ t : Fin cfg2.N, (cfg2.win 3).flush t = true ∧ i ∈ ((cfg2.win 3).blk t).view.set := by
  have hi0 : (i 0).val < 50000 := (i 0).isLt
  have hi1 : (i 1).val < 64 := (i 1).isLt
  have hN : grid2.N = 25 := N_2
  have ht : (i 0).val / 2000 < grid2.N := by omega
  obtain ⟨-, -, -, -, e4, e5⟩ := idx_facts ⟨(i 0).val / 2000, ht⟩
  have e4' : win2_3.index ⟨(i 0).val / 2000, ht⟩ (0 : Fin 2) = (i 0).val / 2000 := e4
  refine ⟨⟨(i 0).val / 2000, ht⟩, flush2_3 _, ?_⟩
  rw [mem_blk]
  intro a
  match a with
  | ⟨0, _⟩ =>
    show win2_3.index ⟨(i 0).val / 2000, ht⟩ (0 : Fin 2) * 2000 ≤ (i 0).val ∧ (i 0).val < win2_3.index ⟨(i 0).val / 2000, ht⟩ (0 : Fin 2) * 2000 + 2000
    omega
  | ⟨1, _⟩ =>
    show win2_3.index ⟨(i 0).val / 2000, ht⟩ (1 : Fin 2) * 64 ≤ (i 1).val ∧ (i 1).val < win2_3.index ⟨(i 0).val / 2000, ht⟩ (1 : Fin 2) * 64 + 64
    omega

/-- THE ARRAY after the region's 25 points: the product of the feature array and the weight array as the region
    found them. -/
theorem array (c : Dev nD) :
    (dat2 V c).arrAt 3 cfg2.N = Cert.DenseRows.mul (n := 50000) (k := 128) (c := 64) (V c main_v47) (V c main_arg4) :=
  (dat2 V c).arrAt_eq_of_cover 3 _ (fun t _ => flushed_eq V c t) cover

end Cert.KernelIdeal.Region2

end
-- ==== Proof.Region3.lean ====
/-
  Region 3: a bias row added to every row of a node-feature matrix.

  The region walks the [50000, 64] matrix in 25 blocks of 2000 rows. At block `t` it reads rows
  `2000 t … 2000 t + 1999` of the matrix and the whole [1, 64] bias row, and writes back, to the same rows of
  the result, each entry plus the bias entry of its column. The blocks tile the rows, so the result array ends
  holding `a (r, q) + b (0, q)` at every `(r, q)`: the matrix with the row added, as one function of the two
  whole arrays.
-/
import proofs.«113196_j25048249270387_1_alg».proof.Proof.Gen.KernelIdeal.Frame
import proofs.«113196_j25048249270387_1_alg».proof.Proof.LibDenseRows
import Idealize.ShloMosaic.Lib.Pipeline.Value
import Idealize.ShloMosaic.Lib.ValueIdx
import Idealize.ShloMosaic.PureOps.Ideal.Laws

noncomputable section

namespace Cert.KernelIdeal.Region3

open Cert.KernelIdeal Cert.KernelIdeal.Gen Idealize.ShloMosaic Idealize.ShloMosaic.TcCoe Idealize.ShloMosaic.ValueIdx Idealize.ShloMosaic.Pipeline
open Cert.DenseRows (addRow pos)

/-- The stored value at row `p`, column `q` of a block: the block's entry plus the bias row's entry in that
    column. The two casts are between equal shapes, hence identities; the bias row is repeated down the rows. -/
theorem pay_apply (x0 : Vec Ideal S2000x64 .f32) (x1 : Vec Ideal S1x64 .f32) (p : Fin 2000) (q : Fin 64) :
    k3_pay1 (F := Ideal) x0 x1 (ix2 p q) = x0 (ix2 p q) + x1 (ix2 (0 : Fin 1) q) := by
  unfold k3_pay1
  show shapeCast S2000x64 x0 shapeCasts_S2000x64_S2000x64 (ix2 p q)
      + broadcastTo S2000x64 (shapeCast S1x64 x1 shapeCasts_S1x64_S1x64) broadcasts_S1x64_S2000x64 (ix2 p q) = _
  rw [shapeCast_self, shapeCast_self]
  rw [broadcastTo_apply x1 broadcasts_S1x64_S2000x64 (ix2 p q) (ix2 (0 : Fin 1) q)]
  intro a
  match a with
  | ⟨0, _⟩ => rfl
  | ⟨1, _⟩ => rfl

/-- The offsets of the body's one load and one store per buffer are all zero. -/
theorem hz : (![0, 0] : Fin 2 → Nat) = fun _ => 0 := funext fun a => by fin_cases a <;> rfl

/-- The block indices over the 25 points, decided once: the matrix's block and the result's block at point `t`
    are block `t` of the rows and block 0 of the columns; the bias row's block is always block (0, 0). -/
theorem idx_facts : ∀ t : Fin cfg3.N, win3_0.index t (0 : Fin 2) = t.val
    ∧ win3_0.index t (1 : Fin 2) = 0
    ∧ win3_1.index t (0 : Fin 2) = 0
    ∧ win3_1.index t (1 : Fin 2) = 0
    ∧ win3_2.index t (0 : Fin 2) = t.val
    ∧ win3_2.index t (1 : Fin 2) = 0 :=
  (by decide +kernel : ∀ t : Fin grid3.N, _)

/-- There are 25 points. -/
theorem point_lt (t : Fin cfg3.N) : t.val < 25 := lt_of_lt_of_eq t.isLt N_3

/-- Row `p` of block `t` is row `2000 t + p` of the matrix. -/
def row (t : Fin cfg3.N) (p : Fin 2000) : Fin 50000 :=
  ⟨2000 * t.val + p.val, by have := point_lt t; have := p.isLt; omega⟩

/-- Where entry `(p, q)` of the result's block at point `t` sits in the result array: `(2000 t + p, q)`. -/
theorem emb_out (t : Fin cfg3.N) (p : Fin 2000) (q : Fin 64) :
    ((cfg3.win 2).blk t).view.emb (ix2 p q) = ix2 (row t p) q := by
  obtain ⟨e0, e1, e2, e3, e4, e5⟩ := idx_facts t
  funext a; apply Fin.ext
  match a with
  | ⟨0, _⟩ => show win3_2.index t (0 : Fin 2) * 2000 + 1 * p.val = 2000 * t.val + p.val; omega
  | ⟨1, _⟩ => show win3_2.index t (1 : Fin 2) * 64 + 1 * q.val = q.val; omega

variable (V : (c : Dev nD) → (b : Ref sig .tc) → Buf (Elt Ideal) ((c : Thread nD τ).loc b))

/-- Entry `(p, q)` of the matrix's block at point `t` is entry `(2000 t + p, q)` of the matrix. -/
theorem blk0_apply (c : Dev nD) (t : Fin cfg3.N) (p : Fin 2000) (q : Fin 64) :
    iblk3 (F := Ideal) V c 0 t (ix2 p q) = V c main_v62 (ix2 (row t p) q) := by
  obtain ⟨e0, e1, e2, e3, e4, e5⟩ := idx_facts t
  show V c main_v62 (((cfg3.win 0).blk t).view.emb (ix2 p q)) = _
  refine congrArg (V c main_v62 : S50000x64.Idx → EReal) (funext fun a => Fin.ext ?_)
  match a with
  | ⟨0, _⟩ => show win3_0.index t (0 : Fin 2) * 2000 + 1 * p.val = 2000 * t.val + p.val; omega
  | ⟨1, _⟩ => show win3_0.index t (1 : Fin 2) * 64 + 1 * q.val = q.val; omega

/-- The bias row's block at every point is the whole row: entry `(0, q)` of the block is entry `(0, q)` of the row. -/
theorem blk1_apply (c : Dev nD) (t : Fin cfg3.N) (q : Fin 64) :
    iblk3 (F := Ideal) V c 1 t (ix2 (0 : Fin 1) q) = V c main_v63 (ix2 (0 : Fin 1) q) := by
  obtain ⟨e0, e1, e2, e3, e4, e5⟩ := idx_facts t
  show V c main_v63 (((cfg3.win 1).blk t).view.emb (ix2 (0 : Fin 1) q)) = _
  refine congrArg (V c main_v63 : S1x64.Idx → EReal) (funext fun a => Fin.ext ?_)
  match a with
  | ⟨0, _⟩ => show win3_1.index t (0 : Fin 2) * 1 + 1 * 0 = 0; omega
  | ⟨1, _⟩ => show win3_1.index t (1 : Fin 2) * 64 + 1 * q.val = q.val; omega

/-- What point `t` writes back is block `t` of the whole-array function: at `(p, q)` of the block, the stored value
    is the function's value at `(2000 t + p, q)`. -/
theorem flushed_eq (c : Dev nD) (t : Fin cfg3.N) :
    (dat3 (F := Ideal) V c).flushed 2 t
      = ((cfg3.win 2).blk t).view.read (Elt Ideal) (addRow (V c main_v62) (V c main_v63)) := by
  show (cfg3.win 2).cut (grid3.coords t) ((dat3 V c).after 2 t) = _
  rw [after3_2]
  unfold out3_2
  rw [View.canon_unit_zero hz]
  simp only [View.ld_unit_zero (S := S2000x64) hz, View.ld_unit_zero (S := S1x64) hz]
  funext j
  obtain ⟨p, q, rfl⟩ : ∃ (p : Fin 2000) (q : Fin 64), j = ix2 p q := ⟨j 0, j 1, eq_ix2 j⟩
  show k3_pay1 (F := Ideal) (iblk3 V c 0 t) (iblk3 V c 1 t) (ix2 p q)
    = (addRow (V c main_v62) (V c main_v63)) (((cfg3.win 2).blk t).view.emb (ix2 p q))
  rw [emb_out]
  refine (pay_apply _ _ p q).trans ?_
  rw [blk0_apply V c t p q, blk1_apply V c t q]
  rfl

/-- An index of the result array is in point `t`'s block iff each coordinate is in the block's range on its axis. -/
theorem mem_blk (t : Fin cfg3.N) (i : S50000x64.Idx) :
    i ∈ ((cfg3.win 2).blk t).view.set ↔ ∀ a : Fin 2, win3_2.index t a * S2000x64.size a ≤ (i a).val ∧ (i a).val < win3_2.index t a * S2000x64.size a + S2000x64.size a := by
  show i ∈ ((View.whole main_v64).slice (win3_2.rect t)).set ↔ _
  rw [View.set_slice_whole, Rect.mem_set_unit]
  exact Iff.rfl

/-- The blocks tile the rows: row `r` is in the block of point `r / 2000`, and every point writes its block back. -/
theorem cover (i : S50000x64.Idx) :
    ∃ t : Fin cfg3.N, (cfg3.win 2).flush t = true ∧ i ∈ ((cfg3.win 2).blk t).view.set := by
  have hi0 : (i 0).val < 50000 := (i 0).isLt
  have hi1 : (i 1).val < 64 := (i 1).isLt
  let t : Fin cfg3.N := Fin.cast N_3.symm ⟨(i 0).val / 2000, by omega⟩
  have ht : t.val = (i 0).val / 2000 := rfl
  obtain ⟨e0, e1, e2, e3, e4, e5⟩ := idx_facts t
  refine ⟨t, flush3_2 t, ?_⟩
  rw [mem_blk]
  intro a
  match a with
  | ⟨0, _⟩ => show win3_2.index t (0 : Fin 2) * 2000 ≤ (i 0).val ∧ (i 0).val < win3_2.index t (0 : Fin 2) * 2000 + 2000; omega
  | ⟨1, _⟩ => show win3_2.index t (1 : Fin 2) * 64 ≤ (i 1).val ∧ (i 1).val < win3_2.index t (1 : Fin 2) * 64 + 64; omega

/-- The result array after the region: the matrix with the bias row added to every row,
    as one function of the two arrays the region found on entry. -/
theorem array (c : Dev nD) :
    (dat3 (F := Ideal) V c).arrAt 2 cfg3.N = addRow (V c main_v62) (V c main_v63) :=
  (dat3 V c).arrAt_eq_of_cover 2 (addRow (V c main_v62) (V c main_v63)) (fun t _ => flushed_eq V c t) cover

end Cert.KernelIdeal.Region3

end
-- ==== Proof.Region4.lean ====
/-
  Region 4: a dense layer over row blocks, with a bias row.

  The region walks the 50000 rows of `main_v64` in 25 blocks of 2000 rows. At block `t` it multiplies rows
  `2000 t … 2000 t + 1999` by the whole `64 × 64` weight matrix `main_arg6`, adds the one row `main_v65` to every
  row of the product, and writes the result to the same rows of `main_v66`. On the extended reals the
  rounding to the narrower format is the identity and the product into a zero accumulator is the plain sum over
  the 64 inner positions, so entry `(r, q)` of the result is `∑ j, x (r, j) * w (j, q) + b (0, q)`, whichever
  block row `r` falls in: the array ends as `addRow (mul x w) b`.
-/
import proofs.«113196_j25048249270387_1_alg».proof.Proof.Gen.KernelIdeal.Frame
import proofs.«113196_j25048249270387_1_alg».proof.Proof.LibDenseRows
import Idealize.ShloMosaic.Lib.Pipeline.Value
import Idealize.ShloMosaic.Lib.ValueIdx
import Idealize.ShloMosaic.PureOps.Ideal.Laws

noncomputable section

namespace Cert.KernelIdeal.Region4

open Cert.KernelIdeal Cert.KernelIdeal.Gen Idealize.ShloMosaic Idealize.ShloMosaic.TcCoe Idealize.ShloMosaic.ValueIdx Idealize.ShloMosaic.Pipeline
open scoped BigOperators

/-! ## The block's arithmetic at one entry -/

/-- The product's dimension numbers: a `2000 × 64` block by the `64 × 64` weights, contracted over the one inner axis. -/
abbrev dims := dot_S2000x64_S64x64_S2000x64_1_0_0_1_n_n

/-- The left operand is read at the output's row … -/
theorem lhs_row (i : S2000x64.Idx) (k : dims.contr.Idx) : (dims.lhsIdx i k 0).val = (i 0).val := by
  unfold DotDims.lhsIdx
  rw [dif_neg (show ¬(0 : Fin S2000x64.rank) ∈ dims.lhsBatch by decide), dif_pos (show (0 : Fin S2000x64.rank) ∈ dims.lhsNonContracting by decide)]
  rfl
/-- … and at the inner position as its column. -/
theorem lhs_col (i : S2000x64.Idx) (k : dims.contr.Idx) : (dims.lhsIdx i k 1).val = (k ⟨0, by decide⟩).val :=
  dims.lhsIdx_val_of_single rfl i k
/-- The right operand is read at the inner position as its row … -/
theorem rhs_row (i : S2000x64.Idx) (k : dims.contr.Idx) : (dims.rhsIdx i k 0).val = (k ⟨0, by decide⟩).val :=
  dims.rhsIdx_val_of_single rfl i k
/-- … and at the output's column. -/
theorem rhs_col (i : S2000x64.Idx) (k : dims.contr.Idx) : (dims.rhsIdx i k 1).val = (i 1).val := by
  unfold DotDims.rhsIdx
  rw [dif_neg (show ¬(1 : Fin S64x64.rank) ∈ dims.rhsBatch by decide), dif_pos (show (1 : Fin S64x64.rank) ∈ dims.rhsNonContracting by decide)]
  rfl

/-- The product into the zero accumulator, at entry `(p, q)`: the sum over the inner position `j` of
    `a (p, j) * b (j, q)` (the sum over the one-axis contraction index re-indexed by its coordinate). -/
theorem dot_apply (a : FVec Ideal S2000x64 .bf16) (b : FVec Ideal S64x64 .bf16) (p : Fin 2000) (q : Fin 64) :
    FloatOps.matmul dims none a b (constant S2000x64 .f32 0x00000000#32) (ix2 p q)
      = ∑ j : Fin 64, a (ix2 p j) * b (ix2 j q) := by
  refine (Ideal.matmul_constant_zero_apply dims none a b (ix2 p q)).trans ?_
  rw [← Equiv.sum_comp (ValueIdx.contrEquiv1 dims 64 rfl rfl).symm]
  refine Finset.sum_congr rfl fun k _ => ?_
  have hk := ValueIdx.contrEquiv1_symm_val dims 64 rfl rfl k
  have el : dims.lhsIdx (ix2 p q) ((ValueIdx.contrEquiv1 dims 64 rfl rfl).symm k) = ix2 p k := funext fun a => Fin.ext (by
    match a with
    | ⟨0, _⟩ => exact lhs_row _ _
    | ⟨1, _⟩ => exact (lhs_col _ _).trans hk)
  have er : dims.rhsIdx (ix2 p q) ((ValueIdx.contrEquiv1 dims 64 rfl rfl).symm k) = ix2 k q := funext fun a => Fin.ext (by
    match a with
    | ⟨0, _⟩ => exact (rhs_row _ _).trans hk
    | ⟨1, _⟩ => exact rhs_col _ _)
  rw [el, er]

/-- The bias row spread over the block's 2000 rows, at entry `(p, q)`: the row's entry `(0, q)`. -/
theorem row_apply (x2 : Vec Ideal S1x64 .f32) (p : Fin 2000) (q : Fin 64) :
    broadcastTo S2000x64 (shapeCast S1x64 x2 shapeCasts_S1x64_S1x64) broadcasts_S1x64_S2000x64 (ix2 p q) = x2 (ix2 0 q) := by
  rw [shapeCast_self]
  exact broadcastTo_apply x2 broadcasts_S1x64_S2000x64 (ix2 p q) (ix2 0 q) (by
    intro a
    match a with
    | ⟨0, _⟩ => rfl
    | ⟨1, _⟩ => rfl)

/-- The block's arithmetic at entry `(p, q)`: the sum over `j` of `x0 (p, j) * x1 (j, q)`, plus the bias row's
    entry `(0, q)` (the change of format and the reshape to the same shape are the identity). -/
theorem pay_apply (x0 : Vec Ideal S2000x64 .f32) (x1 : Vec Ideal S64x64 .f32) (x2 : Vec Ideal S1x64 .f32) (p : Fin 2000) (q : Fin 64) :
    k4_pay1 (F := Ideal) x0 x1 x2 (ix2 p q) = (∑ j : Fin 64, x0 (ix2 p j) * x1 (ix2 j q)) + x2 (ix2 0 q) := by
  unfold k4_pay1
  show FloatOps.matmul dims none (shapeCast S2000x64 x0 shapeCasts_S2000x64_S2000x64 : FVec Ideal S2000x64 .bf16) (x1 : FVec Ideal S64x64 .bf16) (constant S2000x64 .f32 0x00000000#32) (ix2 p q)
      + broadcastTo S2000x64 (shapeCast S1x64 x2 shapeCasts_S1x64_S1x64) broadcasts_S1x64_S2000x64 (ix2 p q) = _
  rw [dot_apply, row_apply, shapeCast_self]

/-! ## The blocks as parts of the arrays -/

variable (V : (c : Dev nD) → (b : Ref sig .tc) → Buf (Elt Ideal) ((c : Thread nD τ).loc b))

/-- The zero offsets of a whole-buffer access. -/
theorem hz : (![0, 0] : Fin 2 → Nat) = fun _ => 0 := funext fun a => by fin_cases a <;> rfl

/-- The block indices over the 25 grid points: the input rows' block moves with the output rows' block, whose row
    index is the point itself; the weights and the bias row are whole (block index 0); no window moves along columns. -/
theorem idx_facts : ∀ t : Fin cfg4.N,
    win4_0.index t (0 : Fin 2) = win4_3.index t (0 : Fin 2) ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- Entry `x` of the input rows' block at point `t` is entry `k` of `main_v64`, when `k` is `x` moved down by the
    output block's row offset. -/
theorem blk0_apply (c : Dev nD) (t : Fin cfg4.N) (x : S2000x64.Idx) (k : S50000x64.Idx)
    (hk0 : (k 0).val = win4_3.index t (0 : Fin 2) * 2000 + (x 0).val) (hk1 : (k 1).val = (x 1).val) :
    (iblk4 (F := Ideal) V c 0 t : Vec Ideal S2000x64 .f32) x = (V c main_v64 : S50000x64.Idx → EReal) k := by
  obtain ⟨e0, e1, -⟩ := idx_facts t
  unfold iblk4
  rw [View.read_apply]
  show V c main_v64 _ = V c main_v64 _
  congr 1
  funext a
  apply Fin.ext
  match a with
  | ⟨0, _⟩ => show win4_0.index t (0 : Fin 2) * 2000 + 1 * (x 0).val = (k 0).val; omega
  | ⟨1, _⟩ => show win4_0.index t (1 : Fin 2) * 64 + 1 * (x 1).val = (k 1).val; omega

/-- The weights' block at every point is the whole of `main_arg6`. -/
theorem blk1_apply (c : Dev nD) (t : Fin cfg4.N) (x : S64x64.Idx) (k : S64x64.Idx)
    (hk0 : (k 0).val = (x 0).val) (hk1 : (k 1).val = (x 1).val) :
    (iblk4 (F := Ideal) V c 1 t : Vec Ideal S64x64 .f32) x = (V c main_arg6 : S64x64.Idx → EReal) k := by
  obtain ⟨-, -, e2, e3, -⟩ := idx_facts t
  unfold iblk4
  rw [View.read_apply]
  show V c main_arg6 _ = V c main_arg6 _
  congr 1
  funext a
  apply Fin.ext
  match a with
  | ⟨0, _⟩ => show win4_1.index t (0 : Fin 2) * 64 + 1 * (x 0).val = (k 0).val; omega
  | ⟨1, _⟩ => show win4_1.index t (1 : Fin 2) * 64 + 1 * (x 1).val = (k 1).val; omega

/-- The bias row's block at every point is the whole of `main_v65`. -/
theorem blk2_apply (c : Dev nD) (t : Fin cfg4.N) (x : S1x64.Idx) (k : S1x64.Idx)
    (hk0 : (k 0).val = (x 0).val) (hk1 : (k 1).val = (x 1).val) :
    (iblk4 (F := Ideal) V c 2 t : Vec Ideal S1x64 .f32) x = (V c main_v65 : S1x64.Idx → EReal) k := by
  obtain ⟨-, -, -, -, e4, e5, -⟩ := idx_facts t
  unfold iblk4
  rw [View.read_apply]
  show V c main_v65 _ = V c main_v65 _
  congr 1
  funext a
  apply Fin.ext
  match a with
  | ⟨0, _⟩ => show win4_2.index t (0 : Fin 2) * 1 + 1 * (x 0).val = (k 0).val; omega
  | ⟨1, _⟩ => show win4_2.index t (1 : Fin 2) * 64 + 1 * (x 1).val = (k 1).val; omega

/-! ## What a point writes back, and the array after the last point -/

/-- What point `t` writes back is block `t` of `addRow (mul x w) b` of the arrays as the region finds them: entry
    `(p, q)` of the block is the sum over `j` of the input block's `(p, j)` times the weights' `(j, q)` plus the bias
    row's `(0, q)`, and the input block's row `p` is the array's row `2000 t + p`, the output block's row `p`. -/
theorem flushed_eq (c : Dev nD) (t : Fin cfg4.N) :
    (dat4 (F := Ideal) V c).flushed 3 t = ((cfg4.win 3).blk t).view.read (Elt Ideal)
      (Cert.DenseRows.addRow (Cert.DenseRows.mul (n := 50000) (k := 64) (c := 64) (V c main_v64) (V c main_arg6)) (V c main_v65)) := by
  show (cfg4.win 3).cut (grid4.coords t) ((dat4 V c).after 3 t) = _
  rw [after4_3]
  unfold out4_3
  rw [View.canon_unit_zero hz]
  simp only [View.ld_unit_zero (S := S2000x64) hz, View.ld_unit_zero (S := S64x64) hz, View.ld_unit_zero (S := S1x64) hz]
  funext j
  obtain ⟨p, q, rfl⟩ : ∃ (p : Fin 2000) (q : Fin 64), j = ix2 p q := ⟨j 0, j 1, eq_ix2 j⟩
  show k4_pay1 (F := Ideal) (iblk4 V c 0 t) (iblk4 V c 1 t) (iblk4 V c 2 t) (ix2 p q)
    = Cert.DenseRows.addRow (Cert.DenseRows.mul (n := 50000) (k := 64) (c := 64) (V c main_v64) (V c main_arg6)) (V c main_v65) (((cfg4.win 3).blk t).view.emb (ix2 p q))
  refine (pay_apply _ _ _ p q).trans ?_
  rw [Cert.DenseRows.addRow_apply, Cert.DenseRows.mul_apply]
  have h0 : ((((cfg4.win 3).blk t).view.emb (ix2 p q)) 0).val = win4_3.index t (0 : Fin 2) * 2000 + p.val := by
    show win4_3.index t (0 : Fin 2) * 2000 + 1 * p.val = _; omega
  have h1 : ((((cfg4.win 3).blk t).view.emb (ix2 p q)) 1).val = q.val := by
    obtain ⟨-, -, -, -, -, -, -, e7⟩ := idx_facts t
    show win4_3.index t (1 : Fin 2) * 64 + 1 * q.val = _; omega
  congr 1
  · refine Finset.sum_congr rfl fun j _ => ?_
    rw [blk0_apply V c t (ix2 p j) (ix2 ((((cfg4.win 3).blk t).view.emb (ix2 p q)) 0) j) h0 rfl,
      blk1_apply V c t (ix2 j q) (ix2 j ((((cfg4.win 3).blk t).view.emb (ix2 p q)) 1)) rfl h1]
  · exact blk2_apply V c t (ix2 0 q) (ix2 0 ((((cfg4.win 3).blk t).view.emb (ix2 p q)) 1)) rfl h1

/-- An index of the output array is in point `t`'s block iff each coordinate is in the block's range on its axis. -/
theorem mem_blk (t : Fin cfg4.N) (i : S50000x64.Idx) :
    i ∈ ((cfg4.win 3).blk t).view.set ↔ ∀ a : Fin 2, win4_3.index t a * S2000x64.size a ≤ (i a).val ∧ (i a).val < win4_3.index t a * S2000x64.size a + S2000x64.size a := by
  show i ∈ ((View.whole main_v66).slice (win4_3.rect t)).set ↔ _
  rw [View.set_slice_whole, Rect.mem_set_unit]
  exact Iff.rfl

/-- Every index of the output array is in some point's block: row `r` is in block `r / 2000`, and every point writes back. -/
theorem cover (i : S50000x64.Idx) : ∃ t : Fin cfg4.N, (cfg4.win 3).flush t = true ∧ i ∈ ((cfg4.win 3).blk t).view.set := by
  have hi0 : (i 0).val < 50000 := (i 0).isLt
  have hi1 : (i 1).val < 64 := (i 1).isLt
  let t : Fin cfg4.N := Fin.cast N_4.symm ⟨(i 0).val / 2000, by omega⟩
  have ht : t.val = (i 0).val / 2000 := rfl
  obtain ⟨-, -, -, -, -, -, e6, e7⟩ := idx_facts t
  refine ⟨t, flush4_3 t, ?_⟩
  rw [mem_blk]
  intro a
  match a with
  | ⟨0, _⟩ => show win4_3.index t (0 : Fin 2) * 2000 ≤ (i 0).val ∧ (i 0).val < win4_3.index t (0 : Fin 2) * 2000 + 2000; omega
  | ⟨1, _⟩ => show win4_3.index t (1 : Fin 2) * 64 ≤ (i 1).val ∧ (i 1).val < win4_3.index t (1 : Fin 2) * 64 + 64; omega

/-- THE ARRAY after the region's last point: `main_v66` holds `main_v64 · main_arg6` plus the row `main_v65` on every row, of the
    arrays as the region finds them. -/
theorem array (c : Dev nD) :
    (dat4 (F := Ideal) V c).arrAt 3 cfg4.N
      = Cert.DenseRows.addRow (Cert.DenseRows.mul (n := 50000) (k := 64) (c := 64) (V c main_v64) (V c main_arg6)) (V c main_v65) :=
  (dat4 V c).arrAt_eq_of_cover 3 _ (fun t _ => flushed_eq V c t) cover

end Cert.KernelIdeal.Region4

end
-- ==== Proof.Region5.lean ====
/-
  Region 5: one dense layer without bias, row block by row block.

  The third graph-convolution layer's feature transform: 64 features in, 256 out.
  The 50000 node rows are cut into 25 blocks of 2000 rows. At block `t` the region reads rows
  `2000 t … 2000 t + 1999` of the node-feature array (64 features wide) and the whole 64 × 256 weight matrix,
  multiplies them (each entry a sum of 64 products, added into a zero accumulator), and writes the 2000 × 256
  result to the same rows of the output. On the extended reals the narrowing of the operands before the product
  changes nothing, so the output array is the matrix product of the two arrays, every row.
-/
import proofs.«113196_j25048249270387_1_alg».proof.Proof.Gen.KernelIdeal.Frame
import proofs.«113196_j25048249270387_1_alg».proof.Proof.LibDenseRows
import Idealize.ShloMosaic.Lib.Pipeline.Value
import Idealize.ShloMosaic.Lib.ValueIdx
import Idealize.ShloMosaic.PureOps.Ideal.Laws

noncomputable section

namespace Cert.KernelIdeal.Region5

open Cert.KernelIdeal Cert.KernelIdeal.Gen Idealize.ShloMosaic Idealize.ShloMosaic.TcCoe Idealize.ShloMosaic.ValueIdx
open Idealize.ShloMosaic.Pipeline (Dat)

/-! ## One block's product, entry by entry -/

/-- The product's left operand index on the row axis is the output's row. -/
theorem lhs_row (i : S2000x256.Idx) (k : dot_S2000x64_S64x256_S2000x256_1_0_0_1_n_n.contr.Idx) :
    (dot_S2000x64_S64x256_S2000x256_1_0_0_1_n_n.lhsIdx i k 0).val = (i 0).val := by
  unfold DotDims.lhsIdx
  rw [dif_neg (show ¬(0 : Fin S2000x64.rank) ∈ dot_S2000x64_S64x256_S2000x256_1_0_0_1_n_n.lhsBatch by decide),
    dif_pos (show (0 : Fin S2000x64.rank) ∈ dot_S2000x64_S64x256_S2000x256_1_0_0_1_n_n.lhsNonContracting by decide)]
  rfl

/-- The product's right operand index on the column axis is the output's column. -/
theorem rhs_col (i : S2000x256.Idx) (k : dot_S2000x64_S64x256_S2000x256_1_0_0_1_n_n.contr.Idx) :
    (dot_S2000x64_S64x256_S2000x256_1_0_0_1_n_n.rhsIdx i k 1).val = (i 1).val := by
  unfold DotDims.rhsIdx
  rw [dif_neg (show ¬(1 : Fin S64x256.rank) ∈ dot_S2000x64_S64x256_S2000x256_1_0_0_1_n_n.rhsBatch by decide),
    dif_pos (show (1 : Fin S64x256.rank) ∈ dot_S2000x64_S64x256_S2000x256_1_0_0_1_n_n.rhsNonContracting by decide)]
  rfl

/-- The body's payload at entry `(p, q)` of a block: the sum over `j` of `x0 (p, j) * x1 (j, q)`. The sum over the
    one-axis contraction index is carried to a sum over `Fin 64`; on the contracted axis both operand indices are
    that coordinate, on the other axis they are the output's row and column. -/
theorem pay_apply (x0 : Vec Ideal S2000x64 .f32) (x1 : Vec Ideal S64x256 .f32) (p : Fin 2000) (q : Fin 256) :
    k5_pay1 (F := Ideal) x0 x1 (ix2 p q) = ∑ j : Fin 64, x0 (ix2 p j) * x1 (ix2 j q) := by
  unfold k5_pay1
  refine (Ideal.matmul_constant_zero_apply _ none _ _ _).trans ?_
  rw [← Equiv.sum_comp (ValueIdx.contrEquiv1 dot_S2000x64_S64x256_S2000x256_1_0_0_1_n_n 64 rfl rfl).symm]
  refine Finset.sum_congr rfl fun k _ => ?_
  have hk := ValueIdx.contrEquiv1_symm_val dot_S2000x64_S64x256_S2000x256_1_0_0_1_n_n 64 rfl rfl k
  have el : dot_S2000x64_S64x256_S2000x256_1_0_0_1_n_n.lhsIdx (ix2 p q) ((ValueIdx.contrEquiv1 dot_S2000x64_S64x256_S2000x256_1_0_0_1_n_n 64 rfl rfl).symm k) = (ix2 p k : S2000x64.Idx) := funext fun a => Fin.ext (by
    match a with
    | ⟨0, _⟩ => exact lhs_row _ _
    | ⟨1, _⟩ => exact (dot_S2000x64_S64x256_S2000x256_1_0_0_1_n_n.lhsIdx_val_of_single rfl _ _).trans hk)
  have er : dot_S2000x64_S64x256_S2000x256_1_0_0_1_n_n.rhsIdx (ix2 p q) ((ValueIdx.contrEquiv1 dot_S2000x64_S64x256_S2000x256_1_0_0_1_n_n 64 rfl rfl).symm k) = (ix2 k q : S64x256.Idx) := funext fun a => Fin.ext (by
    match a with
    | ⟨0, _⟩ => exact (dot_S2000x64_S64x256_S2000x256_1_0_0_1_n_n.rhsIdx_val_of_single rfl _ _).trans hk
    | ⟨1, _⟩ => exact rhs_col _ _)
  show (shapeCast S2000x64 x0 shapeCasts_S2000x64_S2000x64) _ * x1 _ = _
  rw [el, er, shapeCast_self]

/-! ## The blocks on the grid -/

variable (V : (c : Dev nD) → (b : Ref sig .tc) → Buf (Elt Ideal) ((c : Thread nD τ).loc b))

theorem hz : (![0, 0] : Fin 2 → Nat) = fun _ => 0 := funext fun a => by fin_cases a <;> rfl

/-- The index maps, decided over the 25 points: the row-blocked windows (the node rows in, the product rows out) sit
    at block index `(t, 0)`, the weight matrix at `(0, 0)`. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_3.index t (0 : Fin 2) = t.val ∧ win5_3.index t (1 : Fin 2) = 0 :=
  (by decide +kernel : ∀ t : Fin grid5.N, _)

/-- Entry `(p, j)` of the node-row block at point `t` is entry `(2000 t + p, j)` of the node-feature array. -/
theorem rows_apply (c : Dev nD) (t : Fin cfg5.N) (p : Fin 2000) (j : Fin 64) (r : Fin 50000) (hr : r.val = t.val * 2000 + p.val) :
    iblk5 V c 0 t (ix2 p j) = V c main_v66 (ix2 r j) := by
  obtain ⟨e0, e1, -, -, -, -⟩ := idx_facts t
  show V c main_v66 (((cfg5.win 0).blk t).view.emb (ix2 p j)) = V c main_v66 (ix2 r j)
  refine congrArg _ (funext fun a => Fin.ext ?_)
  match a with
  | ⟨0, _⟩ => show win5_0.index t (0 : Fin 2) * 2000 + 1 * p.val = r.val; omega
  | ⟨1, _⟩ => show win5_0.index t (1 : Fin 2) * 64 + 1 * j.val = j.val; omega

/-- The weight block at any point is the whole weight matrix. -/
theorem weights_apply (c : Dev nD) (t : Fin cfg5.N) (j : Fin 64) (q : Fin 256) :
    iblk5 V c 1 t (ix2 j q) = V c main_arg8 (ix2 j q) := by
  obtain ⟨-, -, e2, e3, -, -⟩ := idx_facts t
  show V c main_arg8 (((cfg5.win 1).blk t).view.emb (ix2 j q)) = V c main_arg8 (ix2 j q)
  refine congrArg _ (funext fun a => Fin.ext ?_)
  match a with
  | ⟨0, _⟩ => show win5_1.index t (0 : Fin 2) * 64 + 1 * j.val = j.val; omega
  | ⟨1, _⟩ => show win5_1.index t (1 : Fin 2) * 256 + 1 * q.val = q.val; omega

/-- WHAT POINT `t` WRITES BACK is block `t` of the product of the node-feature array and the weight matrix: entry
    `(p, q)` of the block is the sum over `j` of row `2000 t + p` of the features against column `q` of the weights.
    (The third fetched window, a row of zeros, is not read by the body.) -/
theorem flushed_eq (c : Dev nD) (t : Fin cfg5.N) :
    (dat5 (F := Ideal) V c).flushed 3 t
      = ((cfg5.win 3).blk t).view.read (Elt Ideal) (Cert.DenseRows.mul (n := 50000) (k := 64) (c := 256) (V c main_v66) (V c main_arg8)) := by
  show (cfg5.win 3).cut (grid5.coords t) ((dat5 (F := Ideal) V c).after 3 t) = _
  rw [after5_3]
  unfold out5_3
  rw [View.canon_unit_zero hz]
  simp only [View.ld_unit_zero (S := S2000x64) hz, View.ld_unit_zero (S := S64x256) hz]
  obtain ⟨-, -, -, -, e4, e5⟩ := idx_facts t
  funext y
  obtain ⟨p, q, rfl⟩ : ∃ (p : Fin 2000) (q : Fin 256), y = ix2 p q := ⟨y 0, y 1, eq_ix2 y⟩
  show k5_pay1 (F := Ideal) (iblk5 V c 0 t) (iblk5 V c 1 t) (ix2 p q)
    = Cert.DenseRows.mul (n := 50000) (k := 64) (c := 256) (V c main_v66) (V c main_arg8) (((cfg5.win 3).blk t).view.emb (ix2 p q))
  refine (pay_apply _ _ p q).trans ?_
  rw [Cert.DenseRows.mul_apply]
  refine Finset.sum_congr rfl fun j _ => ?_
  have hr : ((((cfg5.win 3).blk t).view.emb (ix2 p q)) 0).val = t.val * 2000 + p.val := by
    show win5_3.index t (0 : Fin 2) * 2000 + 1 * p.val = _; omega
  have hq : ((((cfg5.win 3).blk t).view.emb (ix2 p q)) 1) = q := Fin.ext (by
    show win5_3.index t (1 : Fin 2) * 256 + 1 * q.val = _; omega)
  rw [rows_apply V c t p j _ hr, weights_apply V c t j q, hq]

/-! ## The blocks tile the output -/

/-- An index of the array is in point `t`'s block iff each coordinate is in the block's range on its axis. -/
theorem mem_blk (t : Fin cfg5.N) (i : S50000x256.Idx) :
    i ∈ ((cfg5.win 3).blk t).view.set ↔ ∀ a : Fin 2, win5_3.index t a * S2000x256.size a ≤ (i a).val ∧ (i a).val < win5_3.index t a * S2000x256.size a + S2000x256.size a := by
  show i ∈ ((View.whole main_v68).slice (win5_3.rect t)).set ↔ _
  rw [View.set_slice_whole, Rect.mem_set_unit]
  exact Iff.rfl

/-- Every row `r` of the output is in the block of the point `r / 2000`, and every point writes its block back. -/
theorem cover (i : S50000x256.Idx) :
    ∃ t : Fin cfg5.N, (cfg5.win 3).flush t = true ∧ i ∈ ((cfg5.win 3).blk t).view.set := by
  have hi0 : (i 0).val < 50000 := (i 0).isLt
  have hi1 : (i 1).val < 256 := (i 1).isLt
  have hN : cfg5.N = 25 := N_5
  let t : Fin cfg5.N := ⟨(i 0).val / 2000, by rw [hN]; omega⟩
  have ht : t.val = (i 0).val / 2000 := rfl
  obtain ⟨-, -, -, -, e4, e5⟩ := idx_facts t
  refine ⟨t, flush5_3 t, ?_⟩
  rw [mem_blk]
  intro a
  match a with
  | ⟨0, _⟩ => show win5_3.index t (0 : Fin 2) * 2000 ≤ (i 0).val ∧ (i 0).val < win5_3.index t (0 : Fin 2) * 2000 + 2000; omega
  | ⟨1, _⟩ => show win5_3.index t (1 : Fin 2) * 256 ≤ (i 1).val ∧ (i 1).val < win5_3.index t (1 : Fin 2) * 256 + 256; omega

/-- THE ARRAY the region leaves: the node-feature array times the weight matrix, every row. -/
theorem array (c : Dev nD) :
    (dat5 (F := Ideal) V c).arrAt 3 cfg5.N = Cert.DenseRows.mul (n := 50000) (k := 64) (c := 256) (V c main_v66) (V c main_arg8) :=
  (dat5 (F := Ideal) V c).arrAt_eq_of_cover 3 _ (fun t _ => flushed_eq V c t) cover

end Cert.KernelIdeal.Region5

end
-- ==== Proof.Region6.lean ====
/-
  Region 6: a bias row added to every row of a node-feature matrix, then the positive part.

  The region walks the [50000, 256] matrix in 25 blocks of 2000 rows. At block `t` it reads rows
  `2000 t … 2000 t + 1999` of the matrix and the whole [1, 256] bias row, and writes back, to the same rows of
  the result, each entry plus the bias entry of its column, replaced by zero where that is negative. The blocks
  tile the rows, so the result array ends holding `max (a (r, q) + b (0, q)) 0` at every `(r, q)`: the positive
  part of the matrix with the row added, as one function of the two whole arrays.
-/
import proofs.«113196_j25048249270387_1_alg».proof.Proof.Gen.KernelIdeal.Frame
import proofs.«113196_j25048249270387_1_alg».proof.Proof.LibDenseRows
import Idealize.ShloMosaic.Lib.Pipeline.Value
import Idealize.ShloMosaic.Lib.ValueIdx
import Idealize.ShloMosaic.PureOps.Ideal.Laws

noncomputable section

namespace Cert.KernelIdeal.Region6

open Cert.KernelIdeal Cert.KernelIdeal.Gen Idealize.ShloMosaic Idealize.ShloMosaic.TcCoe Idealize.ShloMosaic.ValueIdx Idealize.ShloMosaic.Pipeline
open Cert.DenseRows (addRow pos)

/-- The stored value at row `p`, column `q` of a block: the block's entry plus the bias row's entry in that
    column, then the positive part. The two casts are between equal shapes, hence identities; the bias row is
    repeated down the rows; the constant compared against is the extended real zero. -/
theorem pay_apply (x0 : Vec Ideal S2000x256 .f32) (x1 : Vec Ideal S1x256 .f32) (p : Fin 2000) (q : Fin 256) :
    k6_pay1 (F := Ideal) x0 x1 (ix2 p q) = max (x0 (ix2 p q) + x1 (ix2 (0 : Fin 1) q)) 0 := by
  unfold k6_pay1
  show max (shapeCast S2000x256 x0 shapeCasts_S2000x256_S2000x256 (ix2 p q)
      + broadcastTo S2000x256 (shapeCast S1x256 x1 shapeCasts_S1x256_S1x256) broadcasts_S1x256_S2000x256 (ix2 p q))
      (Ideal.ofBits .f32 0x00000000#32) = _
  rw [shapeCast_self, shapeCast_self, Ideal.ofBits_zero_f32]
  rw [broadcastTo_apply x1 broadcasts_S1x256_S2000x256 (ix2 p q) (ix2 (0 : Fin 1) q)]
  intro a
  match a with
  | ⟨0, _⟩ => rfl
  | ⟨1, _⟩ => rfl

/-- The offsets of the body's one load and one store per buffer are all zero. -/
theorem hz : (![0, 0] : Fin 2 → Nat) = fun _ => 0 := funext fun a => by fin_cases a <;> rfl

/-- The block indices over the 25 points, decided once: the matrix's block and the result's block at point `t`
    are block `t` of the rows and block 0 of the columns; the bias row's block is always block (0, 0). -/
theorem idx_facts : ∀ t : Fin cfg6.N, win6_0.index t (0 : Fin 2) = t.val
    ∧ win6_0.index t (1 : Fin 2) = 0
    ∧ win6_1.index t (0 : Fin 2) = 0
    ∧ win6_1.index t (1 : Fin 2) = 0
    ∧ win6_2.index t (0 : Fin 2) = t.val
    ∧ win6_2.index t (1 : Fin 2) = 0 :=
  (by decide +kernel : ∀ t : Fin grid6.N, _)

/-- There are 25 points. -/
theorem point_lt (t : Fin cfg6.N) : t.val < 25 := lt_of_lt_of_eq t.isLt N_6

/-- Row `p` of block `t` is row `2000 t + p` of the matrix. -/
def row (t : Fin cfg6.N) (p : Fin 2000) : Fin 50000 :=
  ⟨2000 * t.val + p.val, by have := point_lt t; have := p.isLt; omega⟩

/-- Where entry `(p, q)` of the result's block at point `t` sits in the result array: `(2000 t + p, q)`. -/
theorem emb_out (t : Fin cfg6.N) (p : Fin 2000) (q : Fin 256) :
    ((cfg6.win 2).blk t).view.emb (ix2 p q) = ix2 (row t p) q := by
  obtain ⟨e0, e1, e2, e3, e4, e5⟩ := idx_facts t
  funext a; apply Fin.ext
  match a with
  | ⟨0, _⟩ => show win6_2.index t (0 : Fin 2) * 2000 + 1 * p.val = 2000 * t.val + p.val; omega
  | ⟨1, _⟩ => show win6_2.index t (1 : Fin 2) * 256 + 1 * q.val = q.val; omega

variable (V : (c : Dev nD) → (b : Ref sig .tc) → Buf (Elt Ideal) ((c : Thread nD τ).loc b))

/-- Entry `(p, q)` of the matrix's block at point `t` is entry `(2000 t + p, q)` of the matrix. -/
theorem blk0_apply (c : Dev nD) (t : Fin cfg6.N) (p : Fin 2000) (q : Fin 256) :
    iblk6 (F := Ideal) V c 0 t (ix2 p q) = V c main_v81 (ix2 (row t p) q) := by
  obtain ⟨e0, e1, e2, e3, e4, e5⟩ := idx_facts t
  show V c main_v81 (((cfg6.win 0).blk t).view.emb (ix2 p q)) = _
  refine congrArg (V c main_v81 : S50000x256.Idx → EReal) (funext fun a => Fin.ext ?_)
  match a with
  | ⟨0, _⟩ => show win6_0.index t (0 : Fin 2) * 2000 + 1 * p.val = 2000 * t.val + p.val; omega
  | ⟨1, _⟩ => show win6_0.index t (1 : Fin 2) * 256 + 1 * q.val = q.val; omega

/-- The bias row's block at every point is the whole row: entry `(0, q)` of the block is entry `(0, q)` of the row. -/
theorem blk1_apply (c : Dev nD) (t : Fin cfg6.N) (q : Fin 256) :
    iblk6 (F := Ideal) V c 1 t (ix2 (0 : Fin 1) q) = V c main_v82 (ix2 (0 : Fin 1) q) := by
  obtain ⟨e0, e1, e2, e3, e4, e5⟩ := idx_facts t
  show V c main_v82 (((cfg6.win 1).blk t).view.emb (ix2 (0 : Fin 1) q)) = _
  refine congrArg (V c main_v82 : S1x256.Idx → EReal) (funext fun a => Fin.ext ?_)
  match a with
  | ⟨0, _⟩ => show win6_1.index t (0 : Fin 2) * 1 + 1 * 0 = 0; omega
  | ⟨1, _⟩ => show win6_1.index t (1 : Fin 2) * 256 + 1 * q.val = q.val; omega

/-- What point `t` writes back is block `t` of the whole-array function: at `(p, q)` of the block, the stored value
    is the function's value at `(2000 t + p, q)`. -/
theorem flushed_eq (c : Dev nD) (t : Fin cfg6.N) :
    (dat6 (F := Ideal) V c).flushed 2 t
      = ((cfg6.win 2).blk t).view.read (Elt Ideal) (pos (addRow (V c main_v81) (V c main_v82))) := by
  show (cfg6.win 2).cut (grid6.coords t) ((dat6 V c).after 2 t) = _
  rw [after6_2]
  unfold out6_2
  rw [View.canon_unit_zero hz]
  simp only [View.ld_unit_zero (S := S2000x256) hz, View.ld_unit_zero (S := S1x256) hz]
  funext j
  obtain ⟨p, q, rfl⟩ : ∃ (p : Fin 2000) (q : Fin 256), j = ix2 p q := ⟨j 0, j 1, eq_ix2 j⟩
  show k6_pay1 (F := Ideal) (iblk6 V c 0 t) (iblk6 V c 1 t) (ix2 p q)
    = (pos (addRow (V c main_v81) (V c main_v82))) (((cfg6.win 2).blk t).view.emb (ix2 p q))
  rw [emb_out]
  refine (pay_apply _ _ p q).trans ?_
  rw [blk0_apply V c t p q, blk1_apply V c t q]
  rfl

/-- An index of the result array is in point `t`'s block iff each coordinate is in the block's range on its axis. -/
theorem mem_blk (t : Fin cfg6.N) (i : S50000x256.Idx) :
    i ∈ ((cfg6.win 2).blk t).view.set ↔ ∀ a : Fin 2, win6_2.index t a * S2000x256.size a ≤ (i a).val ∧ (i a).val < win6_2.index t a * S2000x256.size a + S2000x256.size a := by
  show i ∈ ((View.whole main_v83).slice (win6_2.rect t)).set ↔ _
  rw [View.set_slice_whole, Rect.mem_set_unit]
  exact Iff.rfl

/-- The blocks tile the rows: row `r` is in the block of point `r / 2000`, and every point writes its block back. -/
theorem cover (i : S50000x256.Idx) :
    ∃ t : Fin cfg6.N, (cfg6.win 2).flush t = true ∧ i ∈ ((cfg6.win 2).blk t).view.set := by
  have hi0 : (i 0).val < 50000 := (i 0).isLt
  have hi1 : (i 1).val < 256 := (i 1).isLt
  let t : Fin cfg6.N := Fin.cast N_6.symm ⟨(i 0).val / 2000, by omega⟩
  have ht : t.val = (i 0).val / 2000 := rfl
  obtain ⟨e0, e1, e2, e3, e4, e5⟩ := idx_facts t
  refine ⟨t, flush6_2 t, ?_⟩
  rw [mem_blk]
  intro a
  match a with
  | ⟨0, _⟩ => show win6_2.index t (0 : Fin 2) * 2000 ≤ (i 0).val ∧ (i 0).val < win6_2.index t (0 : Fin 2) * 2000 + 2000; omega
  | ⟨1, _⟩ => show win6_2.index t (1 : Fin 2) * 256 ≤ (i 1).val ∧ (i 1).val < win6_2.index t (1 : Fin 2) * 256 + 256; omega

/-- The result array after the region: the positive part of the matrix with the bias row added to every row,
    as one function of the two arrays the region found on entry. -/
theorem array (c : Dev nD) :
    (dat6 (F := Ideal) V c).arrAt 2 cfg6.N = pos (addRow (V c main_v81) (V c main_v82)) :=
  (dat6 V c).arrAt_eq_of_cover 2 (pos (addRow (V c main_v81) (V c main_v82))) (fun t _ => flushed_eq V c t) cover

end Cert.KernelIdeal.Region6

end
-- ==== Proof.Region7.lean ====
/-
  Region 7: one dense layer without bias, row block by row block.

  The fourth graph-convolution layer's feature transform: 256 features in, 128 out.
  The 50000 node rows are cut into 25 blocks of 2000 rows. At block `t` the region reads rows
  `2000 t … 2000 t + 1999` of the node-feature array (256 features wide) and the whole 256 × 128 weight matrix,
  multiplies them (each entry a sum of 256 products, added into a zero accumulator), and writes the 2000 × 128
  result to the same rows of the output. On the extended reals the narrowing of the operands before the product
  changes nothing, so the output array is the matrix product of the two arrays, every row.
-/
import proofs.«113196_j25048249270387_1_alg».proof.Proof.Gen.KernelIdeal.Frame
import proofs.«113196_j25048249270387_1_alg».proof.Proof.LibDenseRows
import Idealize.ShloMosaic.Lib.Pipeline.Value
import Idealize.ShloMosaic.Lib.ValueIdx
import Idealize.ShloMosaic.PureOps.Ideal.Laws

noncomputable section

namespace Cert.KernelIdeal.Region7

open Cert.KernelIdeal Cert.KernelIdeal.Gen Idealize.ShloMosaic Idealize.ShloMosaic.TcCoe Idealize.ShloMosaic.ValueIdx
open Idealize.ShloMosaic.Pipeline (Dat)

/-! ## One block's product, entry by entry -/

/-- The product's left operand index on the row axis is the output's row. -/
theorem lhs_row (i : S2000x128.Idx) (k : dot_S2000x256_S256x128_S2000x128_1_0_0_1_n_n.contr.Idx) :
    (dot_S2000x256_S256x128_S2000x128_1_0_0_1_n_n.lhsIdx i k 0).val = (i 0).val := by
  unfold DotDims.lhsIdx
  rw [dif_neg (show ¬(0 : Fin S2000x256.rank) ∈ dot_S2000x256_S256x128_S2000x128_1_0_0_1_n_n.lhsBatch by decide),
    dif_pos (show (0 : Fin S2000x256.rank) ∈ dot_S2000x256_S256x128_S2000x128_1_0_0_1_n_n.lhsNonContracting by decide)]
  rfl

/-- The product's right operand index on the column axis is the output's column. -/
theorem rhs_col (i : S2000x128.Idx) (k : dot_S2000x256_S256x128_S2000x128_1_0_0_1_n_n.contr.Idx) :
    (dot_S2000x256_S256x128_S2000x128_1_0_0_1_n_n.rhsIdx i k 1).val = (i 1).val := by
  unfold DotDims.rhsIdx
  rw [dif_neg (show ¬(1 : Fin S256x128.rank) ∈ dot_S2000x256_S256x128_S2000x128_1_0_0_1_n_n.rhsBatch by decide),
    dif_pos (show (1 : Fin S256x128.rank) ∈ dot_S2000x256_S256x128_S2000x128_1_0_0_1_n_n.rhsNonContracting by decide)]
  rfl

/-- The body's payload at entry `(p, q)` of a block: the sum over `j` of `x0 (p, j) * x1 (j, q)`. The sum over the
    one-axis contraction index is carried to a sum over `Fin 256`; on the contracted axis both operand indices are
    that coordinate, on the other axis they are the output's row and column. -/
theorem pay_apply (x0 : Vec Ideal S2000x256 .f32) (x1 : Vec Ideal S256x128 .f32) (p : Fin 2000) (q : Fin 128) :
    k7_pay1 (F := Ideal) x0 x1 (ix2 p q) = ∑ j : Fin 256, x0 (ix2 p j) * x1 (ix2 j q) := by
  unfold k7_pay1
  refine (Ideal.matmul_constant_zero_apply _ none _ _ _).trans ?_
  rw [← Equiv.sum_comp (ValueIdx.contrEquiv1 dot_S2000x256_S256x128_S2000x128_1_0_0_1_n_n 256 rfl rfl).symm]
  refine Finset.sum_congr rfl fun k _ => ?_
  have hk := ValueIdx.contrEquiv1_symm_val dot_S2000x256_S256x128_S2000x128_1_0_0_1_n_n 256 rfl rfl k
  have el : dot_S2000x256_S256x128_S2000x128_1_0_0_1_n_n.lhsIdx (ix2 p q) ((ValueIdx.contrEquiv1 dot_S2000x256_S256x128_S2000x128_1_0_0_1_n_n 256 rfl rfl).symm k) = (ix2 p k : S2000x256.Idx) := funext fun a => Fin.ext (by
    match a with
    | ⟨0, _⟩ => exact lhs_row _ _
    | ⟨1, _⟩ => exact (dot_S2000x256_S256x128_S2000x128_1_0_0_1_n_n.lhsIdx_val_of_single rfl _ _).trans hk)
  have er : dot_S2000x256_S256x128_S2000x128_1_0_0_1_n_n.rhsIdx (ix2 p q) ((ValueIdx.contrEquiv1 dot_S2000x256_S256x128_S2000x128_1_0_0_1_n_n 256 rfl rfl).symm k) = (ix2 k q : S256x128.Idx) := funext fun a => Fin.ext (by
    match a with
    | ⟨0, _⟩ => exact (dot_S2000x256_S256x128_S2000x128_1_0_0_1_n_n.rhsIdx_val_of_single rfl _ _).trans hk
    | ⟨1, _⟩ => exact rhs_col _ _)
  show (shapeCast S2000x256 x0 shapeCasts_S2000x256_S2000x256) _ * x1 _ = _
  rw [el, er, shapeCast_self]

/-! ## The blocks on the grid -/

variable (V : (c : Dev nD) → (b : Ref sig .tc) → Buf (Elt Ideal) ((c : Thread nD τ).loc b))

theorem hz : (![0, 0] : Fin 2 → Nat) = fun _ => 0 := funext fun a => by fin_cases a <;> rfl

/-- The index maps, decided over the 25 points: the row-blocked windows (the node rows in, the product rows out) sit
    at block index `(t, 0)`, the weight matrix at `(0, 0)`. -/
theorem idx_facts : ∀ t : Fin cfg7.N, win7_0.index t (0 : Fin 2) = t.val ∧ win7_0.index t (1 : Fin 2) = 0
    ∧ win7_1.index t (0 : Fin 2) = 0 ∧ win7_1.index t (1 : Fin 2) = 0
    ∧ win7_3.index t (0 : Fin 2) = t.val ∧ win7_3.index t (1 : Fin 2) = 0 :=
  (by decide +kernel : ∀ t : Fin grid7.N, _)

/-- Entry `(p, j)` of the node-row block at point `t` is entry `(2000 t + p, j)` of the node-feature array. -/
theorem rows_apply (c : Dev nD) (t : Fin cfg7.N) (p : Fin 2000) (j : Fin 256) (r : Fin 50000) (hr : r.val = t.val * 2000 + p.val) :
    iblk7 V c 0 t (ix2 p j) = V c main_v83 (ix2 r j) := by
  obtain ⟨e0, e1, -, -, -, -⟩ := idx_facts t
  show V c main_v83 (((cfg7.win 0).blk t).view.emb (ix2 p j)) = V c main_v83 (ix2 r j)
  refine congrArg _ (funext fun a => Fin.ext ?_)
  match a with
  | ⟨0, _⟩ => show win7_0.index t (0 : Fin 2) * 2000 + 1 * p.val = r.val; omega
  | ⟨1, _⟩ => show win7_0.index t (1 : Fin 2) * 256 + 1 * j.val = j.val; omega

/-- The weight block at any point is the whole weight matrix. -/
theorem weights_apply (c : Dev nD) (t : Fin cfg7.N) (j : Fin 256) (q : Fin 128) :
    iblk7 V c 1 t (ix2 j q) = V c main_arg10 (ix2 j q) := by
  obtain ⟨-, -, e2, e3, -, -⟩ := idx_facts t
  show V c main_arg10 (((cfg7.win 1).blk t).view.emb (ix2 j q)) = V c main_arg10 (ix2 j q)
  refine congrArg _ (funext fun a => Fin.ext ?_)
  match a with
  | ⟨0, _⟩ => show win7_1.index t (0 : Fin 2) * 256 + 1 * j.val = j.val; omega
  | ⟨1, _⟩ => show win7_1.index t (1 : Fin 2) * 128 + 1 * q.val = q.val; omega

/-- WHAT POINT `t` WRITES BACK is block `t` of the product of the node-feature array and the weight matrix: entry
    `(p, q)` of the block is the sum over `j` of row `2000 t + p` of the features against column `q` of the weights.
    (The third fetched window, a row of zeros, is not read by the body.) -/
theorem flushed_eq (c : Dev nD) (t : Fin cfg7.N) :
    (dat7 (F := Ideal) V c).flushed 3 t
      = ((cfg7.win 3).blk t).view.read (Elt Ideal) (Cert.DenseRows.mul (n := 50000) (k := 256) (c := 128) (V c main_v83) (V c main_arg10)) := by
  show (cfg7.win 3).cut (grid7.coords t) ((dat7 (F := Ideal) V c).after 3 t) = _
  rw [after7_3]
  unfold out7_3
  rw [View.canon_unit_zero hz]
  simp only [View.ld_unit_zero (S := S2000x256) hz, View.ld_unit_zero (S := S256x128) hz]
  obtain ⟨-, -, -, -, e4, e5⟩ := idx_facts t
  funext y
  obtain ⟨p, q, rfl⟩ : ∃ (p : Fin 2000) (q : Fin 128), y = ix2 p q := ⟨y 0, y 1, eq_ix2 y⟩
  show k7_pay1 (F := Ideal) (iblk7 V c 0 t) (iblk7 V c 1 t) (ix2 p q)
    = Cert.DenseRows.mul (n := 50000) (k := 256) (c := 128) (V c main_v83) (V c main_arg10) (((cfg7.win 3).blk t).view.emb (ix2 p q))
  refine (pay_apply _ _ p q).trans ?_
  rw [Cert.DenseRows.mul_apply]
  refine Finset.sum_congr rfl fun j _ => ?_
  have hr : ((((cfg7.win 3).blk t).view.emb (ix2 p q)) 0).val = t.val * 2000 + p.val := by
    show win7_3.index t (0 : Fin 2) * 2000 + 1 * p.val = _; omega
  have hq : ((((cfg7.win 3).blk t).view.emb (ix2 p q)) 1) = q := Fin.ext (by
    show win7_3.index t (1 : Fin 2) * 128 + 1 * q.val = _; omega)
  rw [rows_apply V c t p j _ hr, weights_apply V c t j q, hq]

/-! ## The blocks tile the output -/

/-- An index of the array is in point `t`'s block iff each coordinate is in the block's range on its axis. -/
theorem mem_blk (t : Fin cfg7.N) (i : S50000x128.Idx) :
    i ∈ ((cfg7.win 3).blk t).view.set ↔ ∀ a : Fin 2, win7_3.index t a * S2000x128.size a ≤ (i a).val ∧ (i a).val < win7_3.index t a * S2000x128.size a + S2000x128.size a := by
  show i ∈ ((View.whole main_v85).slice (win7_3.rect t)).set ↔ _
  rw [View.set_slice_whole, Rect.mem_set_unit]
  exact Iff.rfl

/-- Every row `r` of the output is in the block of the point `r / 2000`, and every point writes its block back. -/
theorem cover (i : S50000x128.Idx) :
    ∃ t : Fin cfg7.N, (cfg7.win 3).flush t = true ∧ i ∈ ((cfg7.win 3).blk t).view.set := by
  have hi0 : (i 0).val < 50000 := (i 0).isLt
  have hi1 : (i 1).val < 128 := (i 1).isLt
  have hN : cfg7.N = 25 := N_7
  let t : Fin cfg7.N := ⟨(i 0).val / 2000, by rw [hN]; omega⟩
  have ht : t.val = (i 0).val / 2000 := rfl
  obtain ⟨-, -, -, -, e4, e5⟩ := idx_facts t
  refine ⟨t, flush7_3 t, ?_⟩
  rw [mem_blk]
  intro a
  match a with
  | ⟨0, _⟩ => show win7_3.index t (0 : Fin 2) * 2000 ≤ (i 0).val ∧ (i 0).val < win7_3.index t (0 : Fin 2) * 2000 + 2000; omega
  | ⟨1, _⟩ => show win7_3.index t (1 : Fin 2) * 128 ≤ (i 1).val ∧ (i 1).val < win7_3.index t (1 : Fin 2) * 128 + 128; omega

/-- THE ARRAY the region leaves: the node-feature array times the weight matrix, every row. -/
theorem array (c : Dev nD) :
    (dat7 (F := Ideal) V c).arrAt 3 cfg7.N = Cert.DenseRows.mul (n := 50000) (k := 256) (c := 128) (V c main_v83) (V c main_arg10) :=
  (dat7 (F := Ideal) V c).arrAt_eq_of_cover 3 _ (fun t _ => flushed_eq V c t) cover

end Cert.KernelIdeal.Region7

end
-- ==== Proof.Region8.lean ====
/-
  Region 8: a bias row added to every row of a node-feature matrix.

  The region walks the [50000, 128] matrix in 25 blocks of 2000 rows. At block `t` it reads rows
  `2000 t … 2000 t + 1999` of the matrix and the whole [1, 128] bias row, and writes back, to the same rows of
  the result, each entry plus the bias entry of its column. The blocks tile the rows, so the result array ends
  holding `a (r, q) + b (0, q)` at every `(r, q)`: the matrix with the row added, as one function of the two
  whole arrays.
-/
import proofs.«113196_j25048249270387_1_alg».proof.Proof.Gen.KernelIdeal.Frame
import proofs.«113196_j25048249270387_1_alg».proof.Proof.LibDenseRows
import Idealize.ShloMosaic.Lib.Pipeline.Value
import Idealize.ShloMosaic.Lib.ValueIdx
import Idealize.ShloMosaic.PureOps.Ideal.Laws

noncomputable section

namespace Cert.KernelIdeal.Region8

open Cert.KernelIdeal Cert.KernelIdeal.Gen Idealize.ShloMosaic Idealize.ShloMosaic.TcCoe Idealize.ShloMosaic.ValueIdx Idealize.ShloMosaic.Pipeline
open Cert.DenseRows (addRow pos)

/-- The stored value at row `p`, column `q` of a block: the block's entry plus the bias row's entry in that
    column. The two casts are between equal shapes, hence identities; the bias row is repeated down the rows. -/
theorem pay_apply (x0 : Vec Ideal S2000x128 .f32) (x1 : Vec Ideal S1x128 .f32) (p : Fin 2000) (q : Fin 128) :
    k8_pay1 (F := Ideal) x0 x1 (ix2 p q) = x0 (ix2 p q) + x1 (ix2 (0 : Fin 1) q) := by
  unfold k8_pay1
  show shapeCast S2000x128 x0 shapeCasts_S2000x128_S2000x128 (ix2 p q)
      + broadcastTo S2000x128 (shapeCast S1x128 x1 shapeCasts_S1x128_S1x128) broadcasts_S1x128_S2000x128 (ix2 p q) = _
  rw [shapeCast_self, shapeCast_self]
  rw [broadcastTo_apply x1 broadcasts_S1x128_S2000x128 (ix2 p q) (ix2 (0 : Fin 1) q)]
  intro a
  match a with
  | ⟨0, _⟩ => rfl
  | ⟨1, _⟩ => rfl

/-- The offsets of the body's one load and one store per buffer are all zero. -/
theorem hz : (![0, 0] : Fin 2 → Nat) = fun _ => 0 := funext fun a => by fin_cases a <;> rfl

/-- The block indices over the 25 points, decided once: the matrix's block and the result's block at point `t`
    are block `t` of the rows and block 0 of the columns; the bias row's block is always block (0, 0). -/
theorem idx_facts : ∀ t : Fin cfg8.N, win8_0.index t (0 : Fin 2) = t.val
    ∧ win8_0.index t (1 : Fin 2) = 0
    ∧ win8_1.index t (0 : Fin 2) = 0
    ∧ win8_1.index t (1 : Fin 2) = 0
    ∧ win8_2.index t (0 : Fin 2) = t.val
    ∧ win8_2.index t (1 : Fin 2) = 0 :=
  (by decide +kernel : ∀ t : Fin grid8.N, _)

/-- There are 25 points. -/
theorem point_lt (t : Fin cfg8.N) : t.val < 25 := lt_of_lt_of_eq t.isLt N_8

/-- Row `p` of block `t` is row `2000 t + p` of the matrix. -/
def row (t : Fin cfg8.N) (p : Fin 2000) : Fin 50000 :=
  ⟨2000 * t.val + p.val, by have := point_lt t; have := p.isLt; omega⟩

/-- Where entry `(p, q)` of the result's block at point `t` sits in the result array: `(2000 t + p, q)`. -/
theorem emb_out (t : Fin cfg8.N) (p : Fin 2000) (q : Fin 128) :
    ((cfg8.win 2).blk t).view.emb (ix2 p q) = ix2 (row t p) q := by
  obtain ⟨e0, e1, e2, e3, e4, e5⟩ := idx_facts t
  funext a; apply Fin.ext
  match a with
  | ⟨0, _⟩ => show win8_2.index t (0 : Fin 2) * 2000 + 1 * p.val = 2000 * t.val + p.val; omega
  | ⟨1, _⟩ => show win8_2.index t (1 : Fin 2) * 128 + 1 * q.val = q.val; omega

variable (V : (c : Dev nD) → (b : Ref sig .tc) → Buf (Elt Ideal) ((c : Thread nD τ).loc b))

/-- Entry `(p, q)` of the matrix's block at point `t` is entry `(2000 t + p, q)` of the matrix. -/
theorem blk0_apply (c : Dev nD) (t : Fin cfg8.N) (p : Fin 2000) (q : Fin 128) :
    iblk8 (F := Ideal) V c 0 t (ix2 p q) = V c main_v98 (ix2 (row t p) q) := by
  obtain ⟨e0, e1, e2, e3, e4, e5⟩ := idx_facts t
  show V c main_v98 (((cfg8.win 0).blk t).view.emb (ix2 p q)) = _
  refine congrArg (V c main_v98 : S50000x128.Idx → EReal) (funext fun a => Fin.ext ?_)
  match a with
  | ⟨0, _⟩ => show win8_0.index t (0 : Fin 2) * 2000 + 1 * p.val = 2000 * t.val + p.val; omega
  | ⟨1, _⟩ => show win8_0.index t (1 : Fin 2) * 128 + 1 * q.val = q.val; omega

/-- The bias row's block at every point is the whole row: entry `(0, q)` of the block is entry `(0, q)` of the row. -/
theorem blk1_apply (c : Dev nD) (t : Fin cfg8.N) (q : Fin 128) :
    iblk8 (F := Ideal) V c 1 t (ix2 (0 : Fin 1) q) = V c main_v99 (ix2 (0 : Fin 1) q) := by
  obtain ⟨e0, e1, e2, e3, e4, e5⟩ := idx_facts t
  show V c main_v99 (((cfg8.win 1).blk t).view.emb (ix2 (0 : Fin 1) q)) = _
  refine congrArg (V c main_v99 : S1x128.Idx → EReal) (funext fun a => Fin.ext ?_)
  match a with
  | ⟨0, _⟩ => show win8_1.index t (0 : Fin 2) * 1 + 1 * 0 = 0; omega
  | ⟨1, _⟩ => show win8_1.index t (1 : Fin 2) * 128 + 1 * q.val = q.val; omega

/-- What point `t` writes back is block `t` of the whole-array function: at `(p, q)` of the block, the stored value
    is the function's value at `(2000 t + p, q)`. -/
theorem flushed_eq (c : Dev nD) (t : Fin cfg8.N) :
    (dat8 (F := Ideal) V c).flushed 2 t
      = ((cfg8.win 2).blk t).view.read (Elt Ideal) (addRow (V c main_v98) (V c main_v99)) := by
  show (cfg8.win 2).cut (grid8.coords t) ((dat8 V c).after 2 t) = _
  rw [after8_2]
  unfold out8_2
  rw [View.canon_unit_zero hz]
  simp only [View.ld_unit_zero (S := S2000x128) hz, View.ld_unit_zero (S := S1x128) hz]
  funext j
  obtain ⟨p, q, rfl⟩ : ∃ (p : Fin 2000) (q : Fin 128), j = ix2 p q := ⟨j 0, j 1, eq_ix2 j⟩
  show k8_pay1 (F := Ideal) (iblk8 V c 0 t) (iblk8 V c 1 t) (ix2 p q)
    = (addRow (V c main_v98) (V c main_v99)) (((cfg8.win 2).blk t).view.emb (ix2 p q))
  rw [emb_out]
  refine (pay_apply _ _ p q).trans ?_
  rw [blk0_apply V c t p q, blk1_apply V c t q]
  rfl

/-- An index of the result array is in point `t`'s block iff each coordinate is in the block's range on its axis. -/
theorem mem_blk (t : Fin cfg8.N) (i : S50000x128.Idx) :
    i ∈ ((cfg8.win 2).blk t).view.set ↔ ∀ a : Fin 2, win8_2.index t a * S2000x128.size a ≤ (i a).val ∧ (i a).val < win8_2.index t a * S2000x128.size a + S2000x128.size a := by
  show i ∈ ((View.whole main_v100).slice (win8_2.rect t)).set ↔ _
  rw [View.set_slice_whole, Rect.mem_set_unit]
  exact Iff.rfl

/-- The blocks tile the rows: row `r` is in the block of point `r / 2000`, and every point writes its block back. -/
theorem cover (i : S50000x128.Idx) :
    ∃ t : Fin cfg8.N, (cfg8.win 2).flush t = true ∧ i ∈ ((cfg8.win 2).blk t).view.set := by
  have hi0 : (i 0).val < 50000 := (i 0).isLt
  have hi1 : (i 1).val < 128 := (i 1).isLt
  let t : Fin cfg8.N := Fin.cast N_8.symm ⟨(i 0).val / 2000, by omega⟩
  have ht : t.val = (i 0).val / 2000 := rfl
  obtain ⟨e0, e1, e2, e3, e4, e5⟩ := idx_facts t
  refine ⟨t, flush8_2 t, ?_⟩
  rw [mem_blk]
  intro a
  match a with
  | ⟨0, _⟩ => show win8_2.index t (0 : Fin 2) * 2000 ≤ (i 0).val ∧ (i 0).val < win8_2.index t (0 : Fin 2) * 2000 + 2000; omega
  | ⟨1, _⟩ => show win8_2.index t (1 : Fin 2) * 128 ≤ (i 1).val ∧ (i 1).val < win8_2.index t (1 : Fin 2) * 128 + 128; omega

/-- The result array after the region: the matrix with the bias row added to every row,
    as one function of the two arrays the region found on entry. -/
theorem array (c : Dev nD) :
    (dat8 (F := Ideal) V c).arrAt 2 cfg8.N = addRow (V c main_v98) (V c main_v99) :=
  (dat8 V c).arrAt_eq_of_cover 2 (addRow (V c main_v98) (V c main_v99)) (fun t _ => flushed_eq V c t) cover

end Cert.KernelIdeal.Region8

end
-- ==== Proof.Region9.lean ====
/-
  Region 9: a dense layer over row blocks, with a bias row.

  The region walks the 50000 rows of `main_v100` in 25 blocks of 2000 rows. At block `t` it multiplies rows
  `2000 t … 2000 t + 1999` by the whole `128 × 1024` weight matrix `main_arg12`, adds the one row `main_v101` to every
  row of the product, and writes the result to the same rows of `main_v102`. On the extended reals the
  rounding to the narrower format is the identity and the product into a zero accumulator is the plain sum over
  the 128 inner positions, so entry `(r, q)` of the result is `∑ j, x (r, j) * w (j, q) + b (0, q)`, whichever
  block row `r` falls in: the array ends as `addRow (mul x w) b`.
-/
import proofs.«113196_j25048249270387_1_alg».proof.Proof.Gen.KernelIdeal.Frame
import proofs.«113196_j25048249270387_1_alg».proof.Proof.LibDenseRows
import Idealize.ShloMosaic.Lib.Pipeline.Value
import Idealize.ShloMosaic.Lib.ValueIdx
import Idealize.ShloMosaic.PureOps.Ideal.Laws

noncomputable section

namespace Cert.KernelIdeal.Region9

open Cert.KernelIdeal Cert.KernelIdeal.Gen Idealize.ShloMosaic Idealize.ShloMosaic.TcCoe Idealize.ShloMosaic.ValueIdx Idealize.ShloMosaic.Pipeline
open scoped BigOperators

/-! ## The block's arithmetic at one entry -/

/-- The product's dimension numbers: a `2000 × 128` block by the `128 × 1024` weights, contracted over the one inner axis. -/
abbrev dims := dot_S2000x128_S128x1024_S2000x1024_1_0_0_1_n_n

/-- The left operand is read at the output's row … -/
theorem lhs_row (i : S2000x1024.Idx) (k : dims.contr.Idx) : (dims.lhsIdx i k 0).val = (i 0).val := by
  unfold DotDims.lhsIdx
  rw [dif_neg (show ¬(0 : Fin S2000x128.rank) ∈ dims.lhsBatch by decide), dif_pos (show (0 : Fin S2000x128.rank) ∈ dims.lhsNonContracting by decide)]
  rfl
/-- … and at the inner position as its column. -/
theorem lhs_col (i : S2000x1024.Idx) (k : dims.contr.Idx) : (dims.lhsIdx i k 1).val = (k ⟨0, by decide⟩).val :=
  dims.lhsIdx_val_of_single rfl i k
/-- The right operand is read at the inner position as its row … -/
theorem rhs_row (i : S2000x1024.Idx) (k : dims.contr.Idx) : (dims.rhsIdx i k 0).val = (k ⟨0, by decide⟩).val :=
  dims.rhsIdx_val_of_single rfl i k
/-- … and at the output's column. -/
theorem rhs_col (i : S2000x1024.Idx) (k : dims.contr.Idx) : (dims.rhsIdx i k 1).val = (i 1).val := by
  unfold DotDims.rhsIdx
  rw [dif_neg (show ¬(1 : Fin S128x1024.rank) ∈ dims.rhsBatch by decide), dif_pos (show (1 : Fin S128x1024.rank) ∈ dims.rhsNonContracting by decide)]
  rfl

/-- The product into the zero accumulator, at entry `(p, q)`: the sum over the inner position `j` of
    `a (p, j) * b (j, q)` (the sum over the one-axis contraction index re-indexed by its coordinate). -/
theorem dot_apply (a : FVec Ideal S2000x128 .bf16) (b : FVec Ideal S128x1024 .bf16) (p : Fin 2000) (q : Fin 1024) :
    FloatOps.matmul dims none a b (constant S2000x1024 .f32 0x00000000#32) (ix2 p q)
      = ∑ j : Fin 128, a (ix2 p j) * b (ix2 j q) := by
  refine (Ideal.matmul_constant_zero_apply dims none a b (ix2 p q)).trans ?_
  rw [← Equiv.sum_comp (ValueIdx.contrEquiv1 dims 128 rfl rfl).symm]
  refine Finset.sum_congr rfl fun k _ => ?_
  have hk := ValueIdx.contrEquiv1_symm_val dims 128 rfl rfl k
  have el : dims.lhsIdx (ix2 p q) ((ValueIdx.contrEquiv1 dims 128 rfl rfl).symm k) = ix2 p k := funext fun a => Fin.ext (by
    match a with
    | ⟨0, _⟩ => exact lhs_row _ _
    | ⟨1, _⟩ => exact (lhs_col _ _).trans hk)
  have er : dims.rhsIdx (ix2 p q) ((ValueIdx.contrEquiv1 dims 128 rfl rfl).symm k) = ix2 k q := funext fun a => Fin.ext (by
    match a with
    | ⟨0, _⟩ => exact (rhs_row _ _).trans hk
    | ⟨1, _⟩ => exact rhs_col _ _)
  rw [el, er]

/-- The bias row spread over the block's 2000 rows, at entry `(p, q)`: the row's entry `(0, q)`. -/
theorem row_apply (x2 : Vec Ideal S1x1024 .f32) (p : Fin 2000) (q : Fin 1024) :
    broadcastTo S2000x1024 (shapeCast S1x1024 x2 shapeCasts_S1x1024_S1x1024) broadcasts_S1x1024_S2000x1024 (ix2 p q) = x2 (ix2 0 q) := by
  rw [shapeCast_self]
  exact broadcastTo_apply x2 broadcasts_S1x1024_S2000x1024 (ix2 p q) (ix2 0 q) (by
    intro a
    match a with
    | ⟨0, _⟩ => rfl
    | ⟨1, _⟩ => rfl)

/-- The block's arithmetic at entry `(p, q)`: the sum over `j` of `x0 (p, j) * x1 (j, q)`, plus the bias row's
    entry `(0, q)` (the change of format and the reshape to the same shape are the identity). -/
theorem pay_apply (x0 : Vec Ideal S2000x128 .f32) (x1 : Vec Ideal S128x1024 .f32) (x2 : Vec Ideal S1x1024 .f32) (p : Fin 2000) (q : Fin 1024) :
    k9_pay1 (F := Ideal) x0 x1 x2 (ix2 p q) = (∑ j : Fin 128, x0 (ix2 p j) * x1 (ix2 j q)) + x2 (ix2 0 q) := by
  unfold k9_pay1
  show FloatOps.matmul dims none (shapeCast S2000x128 x0 shapeCasts_S2000x128_S2000x128 : FVec Ideal S2000x128 .bf16) (x1 : FVec Ideal S128x1024 .bf16) (constant S2000x1024 .f32 0x00000000#32) (ix2 p q)
      + broadcastTo S2000x1024 (shapeCast S1x1024 x2 shapeCasts_S1x1024_S1x1024) broadcasts_S1x1024_S2000x1024 (ix2 p q) = _
  rw [dot_apply, row_apply, shapeCast_self]

/-! ## The blocks as parts of the arrays -/

variable (V : (c : Dev nD) → (b : Ref sig .tc) → Buf (Elt Ideal) ((c : Thread nD τ).loc b))

/-- The zero offsets of a whole-buffer access. -/
theorem hz : (![0, 0] : Fin 2 → Nat) = fun _ => 0 := funext fun a => by fin_cases a <;> rfl

/-- The block indices over the 25 grid points: the input rows' block moves with the output rows' block, whose row
    index is the point itself; the weights and the bias row are whole (block index 0); no window moves along columns. -/
theorem idx_facts : ∀ t : Fin cfg9.N,
    win9_0.index t (0 : Fin 2) = win9_3.index t (0 : Fin 2) ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = t.val ∧ win9_3.index t (1 : Fin 2) = 0 :=
  (by decide +kernel : ∀ t : Fin grid9.N, _)

/-- Entry `x` of the input rows' block at point `t` is entry `k` of `main_v100`, when `k` is `x` moved down by the
    output block's row offset. -/
theorem blk0_apply (c : Dev nD) (t : Fin cfg9.N) (x : S2000x128.Idx) (k : S50000x128.Idx)
    (hk0 : (k 0).val = win9_3.index t (0 : Fin 2) * 2000 + (x 0).val) (hk1 : (k 1).val = (x 1).val) :
    (iblk9 (F := Ideal) V c 0 t : Vec Ideal S2000x128 .f32) x = (V c main_v100 : S50000x128.Idx → EReal) k := by
  obtain ⟨e0, e1, -⟩ := idx_facts t
  unfold iblk9
  rw [View.read_apply]
  show V c main_v100 _ = V c main_v100 _
  congr 1
  funext a
  apply Fin.ext
  match a with
  | ⟨0, _⟩ => show win9_0.index t (0 : Fin 2) * 2000 + 1 * (x 0).val = (k 0).val; omega
  | ⟨1, _⟩ => show win9_0.index t (1 : Fin 2) * 128 + 1 * (x 1).val = (k 1).val; omega

/-- The weights' block at every point is the whole of `main_arg12`. -/
theorem blk1_apply (c : Dev nD) (t : Fin cfg9.N) (x : S128x1024.Idx) (k : S128x1024.Idx)
    (hk0 : (k 0).val = (x 0).val) (hk1 : (k 1).val = (x 1).val) :
    (iblk9 (F := Ideal) V c 1 t : Vec Ideal S128x1024 .f32) x = (V c main_arg12 : S128x1024.Idx → EReal) k := by
  obtain ⟨-, -, e2, e3, -⟩ := idx_facts t
  unfold iblk9
  rw [View.read_apply]
  show V c main_arg12 _ = V c main_arg12 _
  congr 1
  funext a
  apply Fin.ext
  match a with
  | ⟨0, _⟩ => show win9_1.index t (0 : Fin 2) * 128 + 1 * (x 0).val = (k 0).val; omega
  | ⟨1, _⟩ => show win9_1.index t (1 : Fin 2) * 1024 + 1 * (x 1).val = (k 1).val; omega

/-- The bias row's block at every point is the whole of `main_v101`. -/
theorem blk2_apply (c : Dev nD) (t : Fin cfg9.N) (x : S1x1024.Idx) (k : S1x1024.Idx)
    (hk0 : (k 0).val = (x 0).val) (hk1 : (k 1).val = (x 1).val) :
    (iblk9 (F := Ideal) V c 2 t : Vec Ideal S1x1024 .f32) x = (V c main_v101 : S1x1024.Idx → EReal) k := by
  obtain ⟨-, -, -, -, e4, e5, -⟩ := idx_facts t
  unfold iblk9
  rw [View.read_apply]
  show V c main_v101 _ = V c main_v101 _
  congr 1
  funext a
  apply Fin.ext
  match a with
  | ⟨0, _⟩ => show win9_2.index t (0 : Fin 2) * 1 + 1 * (x 0).val = (k 0).val; omega
  | ⟨1, _⟩ => show win9_2.index t (1 : Fin 2) * 1024 + 1 * (x 1).val = (k 1).val; omega

/-! ## What a point writes back, and the array after the last point -/

/-- What point `t` writes back is block `t` of `addRow (mul x w) b` of the arrays as the region finds them: entry
    `(p, q)` of the block is the sum over `j` of the input block's `(p, j)` times the weights' `(j, q)` plus the bias
    row's `(0, q)`, and the input block's row `p` is the array's row `2000 t + p`, the output block's row `p`. -/
theorem flushed_eq (c : Dev nD) (t : Fin cfg9.N) :
    (dat9 (F := Ideal) V c).flushed 3 t = ((cfg9.win 3).blk t).view.read (Elt Ideal)
      (Cert.DenseRows.addRow (Cert.DenseRows.mul (n := 50000) (k := 128) (c := 1024) (V c main_v100) (V c main_arg12)) (V c main_v101)) := by
  show (cfg9.win 3).cut (grid9.coords t) ((dat9 V c).after 3 t) = _
  rw [after9_3]
  unfold out9_3
  rw [View.canon_unit_zero hz]
  simp only [View.ld_unit_zero (S := S2000x128) hz, View.ld_unit_zero (S := S128x1024) hz, View.ld_unit_zero (S := S1x1024) hz]
  funext j
  obtain ⟨p, q, rfl⟩ : ∃ (p : Fin 2000) (q : Fin 1024), j = ix2 p q := ⟨j 0, j 1, eq_ix2 j⟩
  show k9_pay1 (F := Ideal) (iblk9 V c 0 t) (iblk9 V c 1 t) (iblk9 V c 2 t) (ix2 p q)
    = Cert.DenseRows.addRow (Cert.DenseRows.mul (n := 50000) (k := 128) (c := 1024) (V c main_v100) (V c main_arg12)) (V c main_v101) (((cfg9.win 3).blk t).view.emb (ix2 p q))
  refine (pay_apply _ _ _ p q).trans ?_
  rw [Cert.DenseRows.addRow_apply, Cert.DenseRows.mul_apply]
  have h0 : ((((cfg9.win 3).blk t).view.emb (ix2 p q)) 0).val = win9_3.index t (0 : Fin 2) * 2000 + p.val := by
    show win9_3.index t (0 : Fin 2) * 2000 + 1 * p.val = _; omega
  have h1 : ((((cfg9.win 3).blk t).view.emb (ix2 p q)) 1).val = q.val := by
    obtain ⟨-, -, -, -, -, -, -, e7⟩ := idx_facts t
    show win9_3.index t (1 : Fin 2) * 1024 + 1 * q.val = _; omega
  congr 1
  · refine Finset.sum_congr rfl fun j _ => ?_
    rw [blk0_apply V c t (ix2 p j) (ix2 ((((cfg9.win 3).blk t).view.emb (ix2 p q)) 0) j) h0 rfl,
      blk1_apply V c t (ix2 j q) (ix2 j ((((cfg9.win 3).blk t).view.emb (ix2 p q)) 1)) rfl h1]
  · exact blk2_apply V c t (ix2 0 q) (ix2 0 ((((cfg9.win 3).blk t).view.emb (ix2 p q)) 1)) rfl h1

/-- An index of the output array is in point `t`'s block iff each coordinate is in the block's range on its axis. -/
theorem mem_blk (t : Fin cfg9.N) (i : S50000x1024.Idx) :
    i ∈ ((cfg9.win 3).blk t).view.set ↔ ∀ a : Fin 2, win9_3.index t a * S2000x1024.size a ≤ (i a).val ∧ (i a).val < win9_3.index t a * S2000x1024.size a + S2000x1024.size a := by
  show i ∈ ((View.whole main_v102).slice (win9_3.rect t)).set ↔ _
  rw [View.set_slice_whole, Rect.mem_set_unit]
  exact Iff.rfl

/-- Every index of the output array is in some point's block: row `r` is in block `r / 2000`, and every point writes back. -/
theorem cover (i : S50000x1024.Idx) : ∃ t : Fin cfg9.N, (cfg9.win 3).flush t = true ∧ i ∈ ((cfg9.win 3).blk t).view.set := by
  have hi0 : (i 0).val < 50000 := (i 0).isLt
  have hi1 : (i 1).val < 1024 := (i 1).isLt
  let t : Fin cfg9.N := Fin.cast N_9.symm ⟨(i 0).val / 2000, by omega⟩
  have ht : t.val = (i 0).val / 2000 := rfl
  obtain ⟨-, -, -, -, -, -, e6, e7⟩ := idx_facts t
  refine ⟨t, flush9_3 t, ?_⟩
  rw [mem_blk]
  intro a
  match a with
  | ⟨0, _⟩ => show win9_3.index t (0 : Fin 2) * 2000 ≤ (i 0).val ∧ (i 0).val < win9_3.index t (0 : Fin 2) * 2000 + 2000; omega
  | ⟨1, _⟩ => show win9_3.index t (1 : Fin 2) * 1024 ≤ (i 1).val ∧ (i 1).val < win9_3.index t (1 : Fin 2) * 1024 + 1024; omega

/-- THE ARRAY after the region's last point: `main_v102` holds `main_v100 · main_arg12` plus the row `main_v101` on every row, of the
    arrays as the region finds them. -/
theorem array (c : Dev nD) :
    (dat9 (F := Ideal) V c).arrAt 3 cfg9.N
      = Cert.DenseRows.addRow (Cert.DenseRows.mul (n := 50000) (k := 128) (c := 1024) (V c main_v100) (V c main_arg12)) (V c main_v101) :=
  (dat9 V c).arrAt_eq_of_cover 3 _ (fun t _ => flushed_eq V c t) cover

end Cert.KernelIdeal.Region9

end
-- ==== Proof.KernelValue.lean ====
/-
  The kernel program's result is the network of its arguments.

  Boundary by boundary through the program: a region's output array is the dense function of the arrays it
  was entered with (one module per region); a stretch of host operations computes the aggregation of the
  previous region's output with the edges' end nodes and weights, which have not changed since the first
  region was entered, and reshapes the next bias vector into a row; an argument is still the launch
  contents when a region or a stretch reads it. Substituting each boundary's value into the next gives the
  last region's output as the network of the arguments.
-/
import proofs.«113196_j25048249270387_1_alg».proof.Proof.KernelQuiet
import proofs.«113196_j25048249270387_1_alg».proof.Proof.Region0
import proofs.«113196_j25048249270387_1_alg».proof.Proof.Region1
import proofs.«113196_j25048249270387_1_alg».proof.Proof.Region2
import proofs.«113196_j25048249270387_1_alg».proof.Proof.Region3
import proofs.«113196_j25048249270387_1_alg».proof.Proof.Region4
import proofs.«113196_j25048249270387_1_alg».proof.Proof.Region5
import proofs.«113196_j25048249270387_1_alg».proof.Proof.Region6
import proofs.«113196_j25048249270387_1_alg».proof.Proof.Region7
import proofs.«113196_j25048249270387_1_alg».proof.Proof.Region8
import proofs.«113196_j25048249270387_1_alg».proof.Proof.Region9

noncomputable section

namespace Cert.KernelIdeal.Value

open Cert.KernelIdeal Cert.KernelIdeal.Gen Cert.KernelIdeal.Chain Cert.KernelIdeal.Layers Cert.KernelIdeal.Keep
open Cert.KernelIdeal.Prelude Cert.KernelIdeal.Stretch Cert.KernelIdeal.Quiet Cert.DenseRows
open Cert.KernelIdeal.Facts₀ Cert.KernelIdeal.Facts
open Idealize.ShloMosaic Idealize.ShloMosaic.TcCoe Idealize.ShloMosaic.ValueIdx Idealize.SL.Sem

variable (m : (ℓ : Loc nD τ sig) → Buf (Elt Ideal) ℓ) (ρ : Dev nD → PrngReg)

/-! ## Layer by layer -/

/-- After the second region: the first layer of the arguments. -/
theorem layer1_at6 (c : Dev nD) : W6 (F := Ideal) m ρ c (Proc.devRef .tc main_v47) = layer1 (m ((c : Thread nD τ).loc main_arg0)) (m ((c : Thread nD τ).loc main_arg1)) (m ((c : Thread nD τ).loc main_arg2)) (m ((c : Thread nD τ).loc main_arg3)) := by
  refine ((W6_arr m ρ c 2).trans (Cert.KernelIdeal.Region1.array (V5 m ρ) c)).trans ?_
  show pos (addRow (W5 (F := Ideal) m ρ c (Proc.devRef .tc main_v45)) (W5 (F := Ideal) m ρ c (Proc.devRef .tc main_v46))) = _
  rw [agg_at5 m ρ c, row_v46 m ρ c, ends0_at4 m ρ c, ends1_at4 m ρ c, weight_at4 m ρ c]
  have h0 : W4 (F := Ideal) m ρ c (Proc.devRef .tc main_v32) = mul (n := 50000) (k := 128) (c := 128) (m ((c : Thread nD τ).loc main_arg0)) (m ((c : Thread nD τ).loc main_arg2)) := by
    refine ((W4_arr m ρ c 3).trans (Cert.KernelIdeal.Region0.array (V3 m ρ) c)).trans ?_
    show mul (n := 50000) (k := 128) (c := 128) (W3 (F := Ideal) m ρ c (Proc.devRef .tc main_arg0)) (W3 (F := Ideal) m ρ c (Proc.devRef .tc main_arg2)) = _
    rw [arg0_at3 m ρ c, arg2_at3 m ρ c]
  rw [h0]
  rfl

/-- After the fourth region: the second layer of the first. -/
theorem layer2_at10 (c : Dev nD) : W10 (F := Ideal) m ρ c (Proc.devRef .tc main_v64)
    = layer2 (layer1 (m ((c : Thread nD τ).loc main_arg0)) (m ((c : Thread nD τ).loc main_arg1)) (m ((c : Thread nD τ).loc main_arg2)) (m ((c : Thread nD τ).loc main_arg3))) (m ((c : Thread nD τ).loc main_arg1)) (m ((c : Thread nD τ).loc main_arg4)) (m ((c : Thread nD τ).loc main_arg5)) := by
  refine ((W10_arr m ρ c 2).trans (Cert.KernelIdeal.Region3.array (V9 m ρ) c)).trans ?_
  show addRow (W9 (F := Ideal) m ρ c (Proc.devRef .tc main_v62)) (W9 (F := Ideal) m ρ c (Proc.devRef .tc main_v63)) = _
  rw [agg_at9 m ρ c, row_v63 m ρ c, ends0_at8 m ρ c, ends1_at8 m ρ c, weight_at8 m ρ c]
  have h0 : W8 (F := Ideal) m ρ c (Proc.devRef .tc main_v49) = mul (n := 50000) (k := 128) (c := 64) (layer1 (m ((c : Thread nD τ).loc main_arg0)) (m ((c : Thread nD τ).loc main_arg1)) (m ((c : Thread nD τ).loc main_arg2)) (m ((c : Thread nD τ).loc main_arg3))) (m ((c : Thread nD τ).loc main_arg4)) := by
    refine ((W8_arr m ρ c 3).trans (Cert.KernelIdeal.Region2.array (V7 m ρ) c)).trans ?_
    show mul (n := 50000) (k := 128) (c := 64) (W7 (F := Ideal) m ρ c (Proc.devRef .tc main_v47)) (W7 (F := Ideal) m ρ c (Proc.devRef .tc main_arg4)) = _
    rw [host_7 m ρ c main_v47 (by decide +kernel), layer1_at6 m ρ c, arg4_at7 m ρ c]
  rw [h0]
  rfl

/-- After the fifth region: the encoder's dense layer. -/
theorem dense1_at12 (c : Dev nD) : W12 (F := Ideal) m ρ c (Proc.devRef .tc main_v66)
    = dense1 (layer2 (layer1 (m ((c : Thread nD τ).loc main_arg0)) (m ((c : Thread nD τ).loc main_arg1)) (m ((c : Thread nD τ).loc main_arg2)) (m ((c : Thread nD τ).loc main_arg3))) (m ((c : Thread nD τ).loc main_arg1)) (m ((c : Thread nD τ).loc main_arg4)) (m ((c : Thread nD τ).loc main_arg5))) (m ((c : Thread nD τ).loc main_arg6)) (m ((c : Thread nD τ).loc main_arg7)) := by
  refine ((W12_arr m ρ c 3).trans (Cert.KernelIdeal.Region4.array (V11 m ρ) c)).trans ?_
  show addRow (mul (n := 50000) (k := 64) (c := 64) (W11 (F := Ideal) m ρ c (Proc.devRef .tc main_v64)) (W11 (F := Ideal) m ρ c (Proc.devRef .tc main_arg6))) (W11 (F := Ideal) m ρ c (Proc.devRef .tc main_v65)) = _
  rw [host_11 m ρ c main_v64 (by decide +kernel), layer2_at10 m ρ c, arg6_at11 m ρ c, row_v65 m ρ c]
  rfl

/-- After the seventh region: the third layer. -/
theorem layer3_at16 (c : Dev nD) : W16 (F := Ideal) m ρ c (Proc.devRef .tc main_v83)
    = layer3 (dense1 (layer2 (layer1 (m ((c : Thread nD τ).loc main_arg0)) (m ((c : Thread nD τ).loc main_arg1)) (m ((c : Thread nD τ).loc main_arg2)) (m ((c : Thread nD τ).loc main_arg3))) (m ((c : Thread nD τ).loc main_arg1)) (m ((c : Thread nD τ).loc main_arg4)) (m ((c : Thread nD τ).loc main_arg5))) (m ((c : Thread nD τ).loc main_arg6)) (m ((c : Thread nD τ).loc main_arg7))) (m ((c : Thread nD τ).loc main_arg1)) (m ((c : Thread nD τ).loc main_arg8)) (m ((c : Thread nD τ).loc main_arg9)) := by
  refine ((W16_arr m ρ c 2).trans (Cert.KernelIdeal.Region6.array (V15 m ρ) c)).trans ?_
  show pos (addRow (W15 (F := Ideal) m ρ c (Proc.devRef .tc main_v81)) (W15 (F := Ideal) m ρ c (Proc.devRef .tc main_v82))) = _
  rw [agg_at15 m ρ c, row_v82 m ρ c, ends0_at14 m ρ c, ends1_at14 m ρ c, weight_at14 m ρ c]
  have h0 : W14 (F := Ideal) m ρ c (Proc.devRef .tc main_v68) = mul (n := 50000) (k := 64) (c := 256)
      (dense1 (layer2 (layer1 (m ((c : Thread nD τ).loc main_arg0)) (m ((c : Thread nD τ).loc main_arg1)) (m ((c : Thread nD τ).loc main_arg2)) (m ((c : Thread nD τ).loc main_arg3))) (m ((c : Thread nD τ).loc main_arg1)) (m ((c : Thread nD τ).loc main_arg4)) (m ((c : Thread nD τ).loc main_arg5))) (m ((c : Thread nD τ).loc main_arg6)) (m ((c : Thread nD τ).loc main_arg7))) (m ((c : Thread nD τ).loc main_arg8)) := by
    refine ((W14_arr m ρ c 3).trans (Cert.KernelIdeal.Region5.array (V13 m ρ) c)).trans ?_
    show mul (n := 50000) (k := 64) (c := 256) (W13 (F := Ideal) m ρ c (Proc.devRef .tc main_v66)) (W13 (F := Ideal) m ρ c (Proc.devRef .tc main_arg8)) = _
    rw [host_13 m ρ c main_v66 (by decide +kernel), dense1_at12 m ρ c, arg8_at13 m ρ c]
  rw [h0]
  rfl

/-- After the ninth region: the fourth layer. -/
theorem layer4_at20 (c : Dev nD) : W20 (F := Ideal) m ρ c (Proc.devRef .tc main_v100)
    = layer4 (layer3 (dense1 (layer2 (layer1 (m ((c : Thread nD τ).loc main_arg0)) (m ((c : Thread nD τ).loc main_arg1)) (m ((c : Thread nD τ).loc main_arg2)) (m ((c : Thread nD τ).loc main_arg3))) (m ((c : Thread nD τ).loc main_arg1)) (m ((c : Thread nD τ).loc main_arg4)) (m ((c : Thread nD τ).loc main_arg5))) (m ((c : Thread nD τ).loc main_arg6)) (m ((c : Thread nD τ).loc main_arg7))) (m ((c : Thread nD τ).loc main_arg1)) (m ((c : Thread nD τ).loc main_arg8)) (m ((c : Thread nD τ).loc main_arg9))) (m ((c : Thread nD τ).loc main_arg1)) (m ((c : Thread nD τ).loc main_arg10)) (m ((c : Thread nD τ).loc main_arg11)) := by
  refine ((W20_arr m ρ c 2).trans (Cert.KernelIdeal.Region8.array (V19 m ρ) c)).trans ?_
  show addRow (W19 (F := Ideal) m ρ c (Proc.devRef .tc main_v98)) (W19 (F := Ideal) m ρ c (Proc.devRef .tc main_v99)) = _
  rw [agg_at19 m ρ c, row_v99 m ρ c, ends0_at18 m ρ c, ends1_at18 m ρ c, weight_at18 m ρ c]
  have h0 : W18 (F := Ideal) m ρ c (Proc.devRef .tc main_v85) = mul (n := 50000) (k := 256) (c := 128)
      (layer3 (dense1 (layer2 (layer1 (m ((c : Thread nD τ).loc main_arg0)) (m ((c : Thread nD τ).loc main_arg1)) (m ((c : Thread nD τ).loc main_arg2)) (m ((c : Thread nD τ).loc main_arg3))) (m ((c : Thread nD τ).loc main_arg1)) (m ((c : Thread nD τ).loc main_arg4)) (m ((c : Thread nD τ).loc main_arg5))) (m ((c : Thread nD τ).loc main_arg6)) (m ((c : Thread nD τ).loc main_arg7))) (m ((c : Thread nD τ).loc main_arg1)) (m ((c : Thread nD τ).loc main_arg8)) (m ((c : Thread nD τ).loc main_arg9))) (m ((c : Thread nD τ).loc main_arg10)) := by
    refine ((W18_arr m ρ c 3).trans (Cert.KernelIdeal.Region7.array (V17 m ρ) c)).trans ?_
    show mul (n := 50000) (k := 256) (c := 128) (W17 (F := Ideal) m ρ c (Proc.devRef .tc main_v83)) (W17 (F := Ideal) m ρ c (Proc.devRef .tc main_arg10)) = _
    rw [host_17 m ρ c main_v83 (by decide +kernel), layer3_at16 m ρ c, arg10_at17 m ρ c]
  rw [h0]
  rfl

/-- After the last region: the network of the arguments. -/
theorem result (c : Dev nD) : W22 (F := Ideal) m ρ c (Proc.devRef .tc main_v102)
    = network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine ((W22_arr m ρ c 3).trans (Cert.KernelIdeal.Region9.array (V21 m ρ) c)).trans ?_
  show addRow (mul (n := 50000) (k := 128) (c := 1024) (W21 (F := Ideal) m ρ c (Proc.devRef .tc main_v100)) (W21 (F := Ideal) m ρ c (Proc.devRef .tc main_arg12))) (W21 (F := Ideal) m ρ c (Proc.devRef .tc main_v101)) = _
  rw [host_21 m ρ c main_v100 (by decide +kernel), layer4_at20 m ρ c, arg12_at21 m ρ c, row_v101 m ρ c]
  rfl

end Cert.KernelIdeal.Value

end
-- ==== Proof.RefStages.lean ====
/-
  The reference network's dense stages, each as ONE function of whole arrays on the extended reals.

  The reference computes a layer's product with the host's general dot over the dimension numbers "contract the
  left operand's columns against the right operand's rows"; it adds a bias by first making the bias vector a
  one-row array and then repeating that row on every row; it takes a positive part as the maximum with the zero
  constant repeated at every entry. Read at an index, the first is the sum over the contracted coordinate of the
  products of the entries, the second is the entry plus the bias at the entry's column, the third is the maximum
  of the entry and zero: the functions `mul`, `addRow` and `pos` of the dense-rows specification.
  Every statement is over variables of the literal array types, one per shape the reference uses.
-/
import proofs.«113196_j25048249270387_1_alg».proof.Proof.Gen.ReferenceIdeal
import proofs.«113196_j25048249270387_1_alg».proof.Proof.LibDenseRows
import Idealize.ShloMosaic.Lib.ValueIdx
import Idealize.ShloMosaic.Lib.Pipeline.Value
import Idealize.ShloMosaic.PureOps.Ideal.Laws

noncomputable section

namespace Cert.ReferenceIdeal.Stages

open Cert.ReferenceIdeal Cert.ReferenceIdeal.Facts₀ Cert.ReferenceIdeal.Facts
open Idealize.ShloMosaic Idealize.ShloMosaic.ValueIdx Idealize.SL.Sem Idealize.ShloMosaic.StableHlo

/-! ## The six products -/

/-- The host product of a [50000, 128] array by a [128, 128] array contracts the first array's columns against the
    second's rows: entry `(r, q)` is the sum over `j` of `x (r, j) * w (j, q)`. -/
theorem dot_128_128 (x : (⟨S50000x128, .f32⟩ : BufTy).Contents (Elt Ideal)) (w : (⟨S128x128, .f32⟩ : BufTy).Contents (Elt Ideal)) :
    Host.dotGeneral (F := Ideal) (φ₁ := .f32) (φ₂ := .f32) dot_S50000x128_S128x128_S50000x128_1_0_0_1_n_n none x w = Cert.DenseRows.mul x w := by
  funext i
  -- off the contracted axis an operand's index is the output's coordinate, whatever the contraction position
  have l0 : ∀ q, (dot_S50000x128_S128x128_S50000x128_1_0_0_1_n_n.lhsIdx i q 0).val = (i 0).val := fun q => by
    unfold DotDims.lhsIdx
    rw [dif_neg (show ¬(0 : Fin S50000x128.rank) ∈ dot_S50000x128_S128x128_S50000x128_1_0_0_1_n_n.lhsBatch by decide),
      dif_pos (show (0 : Fin S50000x128.rank) ∈ dot_S50000x128_S128x128_S50000x128_1_0_0_1_n_n.lhsNonContracting by decide)]
    rfl
  have r1 : ∀ q, (dot_S50000x128_S128x128_S50000x128_1_0_0_1_n_n.rhsIdx i q 1).val = (i 1).val := fun q => by
    unfold DotDims.rhsIdx
    rw [dif_neg (show ¬(1 : Fin S128x128.rank) ∈ dot_S50000x128_S128x128_S50000x128_1_0_0_1_n_n.rhsBatch by decide),
      dif_pos (show (1 : Fin S128x128.rank) ∈ dot_S50000x128_S128x128_S50000x128_1_0_0_1_n_n.rhsNonContracting by decide)]
    rfl
  simp only [Host.dotGeneral]
  -- the sum over the one-axis contraction index is the sum over its coordinate
  rw [Ideal.dotGeneral_apply, ← Equiv.sum_comp (ValueIdx.contrEquiv1 dot_S50000x128_S128x128_S50000x128_1_0_0_1_n_n 128 rfl rfl).symm]
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx i ((ValueIdx.contrEquiv1 dot_S50000x128_S128x128_S50000x128_1_0_0_1_n_n 128 rfl rfl).symm k) = ix2 (i 0) k :=
    funext fun a => Fin.ext (by
      match a with
      | ⟨0, _⟩ => exact l0 _
      | ⟨1, _⟩ => exact (dot_S50000x128_S128x128_S50000x128_1_0_0_1_n_n.lhsIdx_val_of_single rfl i _).trans hk)
  have er : dot_S50000x128_S128x128_S50000x128_1_0_0_1_n_n.rhsIdx i ((ValueIdx.contrEquiv1 dot_S50000x128_S128x128_S50000x128_1_0_0_1_n_n 128 rfl rfl).symm k) = ix2 k (i 1) :=
    funext fun a => Fin.ext (by
      match a with
      | ⟨0, _⟩ => exact (dot_S50000x128_S128x128_S50000x128_1_0_0_1_n_n.rhsIdx_val_of_single rfl i _).trans hk
      | ⟨1, _⟩ => exact r1 _)
  exact congrArg₂ (fun p q => x p * w q) el er

/-- The host product of a [50000, 128] array by a [128, 64] array contracts the first array's columns against the
    second's rows: entry `(r, q)` is the sum over `j` of `x (r, j) * w (j, q)`. -/
theorem dot_128_64 (x : (⟨S50000x128, .f32⟩ : BufTy).Contents (Elt Ideal)) (w : (⟨S128x64, .f32⟩ : BufTy).Contents (Elt Ideal)) :
    Host.dotGeneral (F := Ideal) (φ₁ := .f32) (φ₂ := .f32) dot_S50000x128_S128x64_S50000x64_1_0_0_1_n_n none x w = Cert.DenseRows.mul x w := by
  funext i
  -- off the contracted axis an operand's index is the output's coordinate, whatever the contraction position
  have l0 : ∀ q, (dot_S50000x128_S128x64_S50000x64_1_0_0_1_n_n.lhsIdx i q 0).val = (i 0).val := fun q => by
    unfold DotDims.lhsIdx
    rw [dif_neg (show ¬(0 : Fin S50000x128.rank) ∈ dot_S50000x128_S128x64_S50000x64_1_0_0_1_n_n.lhsBatch by decide),
      dif_pos (show (0 : Fin S50000x128.rank) ∈ dot_S50000x128_S128x64_S50000x64_1_0_0_1_n_n.lhsNonContracting by decide)]
    rfl
  have r1 : ∀ q, (dot_S50000x128_S128x64_S50000x64_1_0_0_1_n_n.rhsIdx i q 1).val = (i 1).val := fun q => by
    unfold DotDims.rhsIdx
    rw [dif_neg (show ¬(1 : Fin S128x64.rank) ∈ dot_S50000x128_S128x64_S50000x64_1_0_0_1_n_n.rhsBatch by decide),
      dif_pos (show (1 : Fin S128x64.rank) ∈ dot_S50000x128_S128x64_S50000x64_1_0_0_1_n_n.rhsNonContracting by decide)]
    rfl
  simp only [Host.dotGeneral]
  -- the sum over the one-axis contraction index is the sum over its coordinate
  rw [Ideal.dotGeneral_apply, ← Equiv.sum_comp (ValueIdx.contrEquiv1 dot_S50000x128_S128x64_S50000x64_1_0_0_1_n_n 128 rfl rfl).symm]
  refine Finset.sum_congr rfl fun k _ => ?_
  have hk := ValueIdx.contrEquiv1_symm_val dot_S50000x128_S128x64_S50000x64_1_0_0_1_n_n 128 rfl rfl k
  have el : dot_S50000x128_S128x64_S50000x64_1_0_0_1_n_n.lhsIdx i ((ValueIdx.contrEquiv1 dot_S50000x128_S128x64_S50000x64_1_0_0_1_n_n 128 rfl rfl).symm k) = ix2 (i 0) k :=
    funext fun a => Fin.ext (by
      match a with
      | ⟨0, _⟩ => exact l0 _
      | ⟨1, _⟩ => exact (dot_S50000x128_S128x64_S50000x64_1_0_0_1_n_n.lhsIdx_val_of_single rfl i _).trans hk)
  have er : dot_S50000x128_S128x64_S50000x64_1_0_0_1_n_n.rhsIdx i ((ValueIdx.contrEquiv1 dot_S50000x128_S128x64_S50000x64_1_0_0_1_n_n 128 rfl rfl).symm k) = ix2 k (i 1) :=
    funext fun a => Fin.ext (by
      match a with
      | ⟨0, _⟩ => exact (dot_S50000x128_S128x64_S50000x64_1_0_0_1_n_n.rhsIdx_val_of_single rfl i _).trans hk
      | ⟨1, _⟩ => exact r1 _)
  exact congrArg₂ (fun p q => x p * w q) el er

/-- The host product of a [50000, 64] array by a [64, 64] array contracts the first array's columns against the
    second's rows: entry `(r, q)` is the sum over `j` of `x (r, j) * w (j, q)`. -/
theorem dot_64_64 (x : (⟨S50000x64, .f32⟩ : BufTy).Contents (Elt Ideal)) (w : (⟨S64x64, .f32⟩ : BufTy).Contents (Elt Ideal)) :
    Host.dotGeneral (F := Ideal) (φ₁ := .f32) (φ₂ := .f32) dot_S50000x64_S64x64_S50000x64_1_0_0_1_n_n none x w = Cert.DenseRows.mul x w := by
  funext i
  -- off the contracted axis an operand's index is the output's coordinate, whatever the contraction position
  have l0 : ∀ q, (dot_S50000x64_S64x64_S50000x64_1_0_0_1_n_n.lhsIdx i q 0).val = (i 0).val := fun q => by
    unfold DotDims.lhsIdx
    rw [dif_neg (show ¬(0 : Fin S50000x64.rank) ∈ dot_S50000x64_S64x64_S50000x64_1_0_0_1_n_n.lhsBatch by decide),
      dif_pos (show (0 : Fin S50000x64.rank) ∈ dot_S50000x64_S64x64_S50000x64_1_0_0_1_n_n.lhsNonContracting by decide)]
    rfl
  have r1 : ∀ q, (dot_S50000x64_S64x64_S50000x64_1_0_0_1_n_n.rhsIdx i q 1).val = (i 1).val := fun q => by
    unfold DotDims.rhsIdx
    rw [dif_neg (show ¬(1 : Fin S64x64.rank) ∈ dot_S50000x64_S64x64_S50000x64_1_0_0_1_n_n.rhsBatch by decide),
      dif_pos (show (1 : Fin S64x64.rank) ∈ dot_S50000x64_S64x64_S50000x64_1_0_0_1_n_n.rhsNonContracting by decide)]
    rfl
  simp only [Host.dotGeneral]
  -- the sum over the one-axis contraction index is the sum over its coordinate
  rw [Ideal.dotGeneral_apply, ← Equiv.sum_comp (ValueIdx.contrEquiv1 dot_S50000x64_S64x64_S50000x64_1_0_0_1_n_n 64 rfl rfl).symm]
  refine Finset.sum_congr rfl fun k _ => ?_
  have hk := ValueIdx.contrEquiv1_symm_val dot_S50000x64_S64x64_S50000x64_1_0_0_1_n_n 64 rfl rfl k
  have el : dot_S50000x64_S64x64_S50000x64_1_0_0_1_n_n.lhsIdx i ((ValueIdx.contrEquiv1 dot_S50000x64_S64x64_S50000x64_1_0_0_1_n_n 64 rfl rfl).symm k) = ix2 (i 0) k :=
    funext fun a => Fin.ext (by
      match a with
      | ⟨0, _⟩ => exact l0 _
      | ⟨1, _⟩ => exact (dot_S50000x64_S64x64_S50000x64_1_0_0_1_n_n.lhsIdx_val_of_single rfl i _).trans hk)
  have er : dot_S50000x64_S64x64_S50000x64_1_0_0_1_n_n.rhsIdx i ((ValueIdx.contrEquiv1 dot_S50000x64_S64x64_S50000x64_1_0_0_1_n_n 64 rfl rfl).symm k) = ix2 k (i 1) :=
    funext fun a => Fin.ext (by
      match a with
      | ⟨0, _⟩ => exact (dot_S50000x64_S64x64_S50000x64_1_0_0_1_n_n.rhsIdx_val_of_single rfl i _).trans hk
      | ⟨1, _⟩ => exact r1 _)
  exact congrArg₂ (fun p q => x p * w q) el er

/-- The host product of a [50000, 64] array by a [64, 256] array contracts the first array's columns against the
    second's rows: entry `(r, q)` is the sum over `j` of `x (r, j) * w (j, q)`. -/
theorem dot_64_256 (x : (⟨S50000x64, .f32⟩ : BufTy).Contents (Elt Ideal)) (w : (⟨S64x256, .f32⟩ : BufTy).Contents (Elt Ideal)) :
    Host.dotGeneral (F := Ideal) (φ₁ := .f32) (φ₂ := .f32) dot_S50000x64_S64x256_S50000x256_1_0_0_1_n_n none x w = Cert.DenseRows.mul x w := by
  funext i
  -- off the contracted axis an operand's index is the output's coordinate, whatever the contraction position
  have l0 : ∀ q, (dot_S50000x64_S64x256_S50000x256_1_0_0_1_n_n.lhsIdx i q 0).val = (i 0).val := fun q => by
    unfold DotDims.lhsIdx
    rw [dif_neg (show ¬(0 : Fin S50000x64.rank) ∈ dot_S50000x64_S64x256_S50000x256_1_0_0_1_n_n.lhsBatch by decide),
      dif_pos (show (0 : Fin S50000x64.rank) ∈ dot_S50000x64_S64x256_S50000x256_1_0_0_1_n_n.lhsNonContracting by decide)]
    rfl
  have r1 : ∀ q, (dot_S50000x64_S64x256_S50000x256_1_0_0_1_n_n.rhsIdx i q 1).val = (i 1).val := fun q => by
    unfold DotDims.rhsIdx
    rw [dif_neg (show ¬(1 : Fin S64x256.rank) ∈ dot_S50000x64_S64x256_S50000x256_1_0_0_1_n_n.rhsBatch by decide),
      dif_pos (show (1 : Fin S64x256.rank) ∈ dot_S50000x64_S64x256_S50000x256_1_0_0_1_n_n.rhsNonContracting by decide)]
    rfl
  simp only [Host.dotGeneral]
  -- the sum over the one-axis contraction index is the sum over its coordinate
  rw [Ideal.dotGeneral_apply, ← Equiv.sum_comp (ValueIdx.contrEquiv1 dot_S50000x64_S64x256_S50000x256_1_0_0_1_n_n 64 rfl rfl).symm]
  refine Finset.sum_congr rfl fun k _ => ?_
  have hk := ValueIdx.contrEquiv1_symm_val dot_S50000x64_S64x256_S50000x256_1_0_0_1_n_n 64 rfl rfl k
  have el : dot_S50000x64_S64x256_S50000x256_1_0_0_1_n_n.lhsIdx i ((ValueIdx.contrEquiv1 dot_S50000x64_S64x256_S50000x256_1_0_0_1_n_n 64 rfl rfl).symm k) = ix2 (i 0) k :=
    funext fun a => Fin.ext (by
      match a with
      | ⟨0, _⟩ => exact l0 _
      | ⟨1, _⟩ => exact (dot_S50000x64_S64x256_S50000x256_1_0_0_1_n_n.lhsIdx_val_of_single rfl i _).trans hk)
  have er : dot_S50000x64_S64x256_S50000x256_1_0_0_1_n_n.rhsIdx i ((ValueIdx.contrEquiv1 dot_S50000x64_S64x256_S50000x256_1_0_0_1_n_n 64 rfl rfl).symm k) = ix2 k (i 1) :=
    funext fun a => Fin.ext (by
      match a with
      | ⟨0, _⟩ => exact (dot_S50000x64_S64x256_S50000x256_1_0_0_1_n_n.rhsIdx_val_of_single rfl i _).trans hk
      | ⟨1, _⟩ => exact r1 _)
  exact congrArg₂ (fun p q => x p * w q) el er

/-- The host product of a [50000, 256] array by a [256, 128] array contracts the first array's columns against the
    second's rows: entry `(r, q)` is the sum over `j` of `x (r, j) * w (j, q)`. -/
theorem dot_256_128 (x : (⟨S50000x256, .f32⟩ : BufTy).Contents (Elt Ideal)) (w : (⟨S256x128, .f32⟩ : BufTy).Contents (Elt Ideal)) :
    Host.dotGeneral (F := Ideal) (φ₁ := .f32) (φ₂ := .f32) dot_S50000x256_S256x128_S50000x128_1_0_0_1_n_n none x w = Cert.DenseRows.mul x w := by
  funext i
  -- off the contracted axis an operand's index is the output's coordinate, whatever the contraction position
  have l0 : ∀ q, (dot_S50000x256_S256x128_S50000x128_1_0_0_1_n_n.lhsIdx i q 0).val = (i 0).val := fun q => by
    unfold DotDims.lhsIdx
    rw [dif_neg (show ¬(0 : Fin S50000x256.rank) ∈ dot_S50000x256_S256x128_S50000x128_1_0_0_1_n_n.lhsBatch by decide),
      dif_pos (show (0 : Fin S50000x256.rank) ∈ dot_S50000x256_S256x128_S50000x128_1_0_0_1_n_n.lhsNonContracting by decide)]
    rfl
  have r1 : ∀ q, (dot_S50000x256_S256x128_S50000x128_1_0_0_1_n_n.rhsIdx i q 1).val = (i 1).val := fun q => by
    unfold DotDims.rhsIdx
    rw [dif_neg (show ¬(1 : Fin S256x128.rank) ∈ dot_S50000x256_S256x128_S50000x128_1_0_0_1_n_n.rhsBatch by decide),
      dif_pos (show (1 : Fin S256x128.rank) ∈ dot_S50000x256_S256x128_S50000x128_1_0_0_1_n_n.rhsNonContracting by decide)]
    rfl
  simp only [Host.dotGeneral]
  -- the sum over the one-axis contraction index is the sum over its coordinate
  rw [Ideal.dotGeneral_apply, ← Equiv.sum_comp (ValueIdx.contrEquiv1 dot_S50000x256_S256x128_S50000x128_1_0_0_1_n_n 256 rfl rfl).symm]
  refine Finset.sum_congr rfl fun k _ => ?_
  have hk := ValueIdx.contrEquiv1_symm_val dot_S50000x256_S256x128_S50000x128_1_0_0_1_n_n 256 rfl rfl k
  have el : dot_S50000x256_S256x128_S50000x128_1_0_0_1_n_n.lhsIdx i ((ValueIdx.contrEquiv1 dot_S50000x256_S256x128_S50000x128_1_0_0_1_n_n 256 rfl rfl).symm k) = ix2 (i 0) k :=
    funext fun a => Fin.ext (by
      match a with
      | ⟨0, _⟩ => exact l0 _
      | ⟨1, _⟩ => exact (dot_S50000x256_S256x128_S50000x128_1_0_0_1_n_n.lhsIdx_val_of_single rfl i _).trans hk)
  have er : dot_S50000x256_S256x128_S50000x128_1_0_0_1_n_n.rhsIdx i ((ValueIdx.contrEquiv1 dot_S50000x256_S256x128_S50000x128_1_0_0_1_n_n 256 rfl rfl).symm k) = ix2 k (i 1) :=
    funext fun a => Fin.ext (by
      match a with
      | ⟨0, _⟩ => exact (dot_S50000x256_S256x128_S50000x128_1_0_0_1_n_n.rhsIdx_val_of_single rfl i _).trans hk
      | ⟨1, _⟩ => exact r1 _)
  exact congrArg₂ (fun p q => x p * w q) el er

/-- The host product of a [50000, 128] array by a [128, 1024] array contracts the first array's columns against the
    second's rows: entry `(r, q)` is the sum over `j` of `x (r, j) * w (j, q)`. -/
theorem dot_128_1024 (x : (⟨S50000x128, .f32⟩ : BufTy).Contents (Elt Ideal)) (w : (⟨S128x1024, .f32⟩ : BufTy).Contents (Elt Ideal)) :
    Host.dotGeneral (F := Ideal) (φ₁ := .f32) (φ₂ := .f32) dot_S50000x128_S128x1024_S50000x1024_1_0_0_1_n_n none x w = Cert.DenseRows.mul x w := by
  funext i
  -- off the contracted axis an operand's index is the output's coordinate, whatever the contraction position
  have l0 : ∀ q, (dot_S50000x128_S128x1024_S50000x1024_1_0_0_1_n_n.lhsIdx i q 0).val = (i 0).val := fun q => by
    unfold DotDims.lhsIdx
    rw [dif_neg (show ¬(0 : Fin S50000x128.rank) ∈ dot_S50000x128_S128x1024_S50000x1024_1_0_0_1_n_n.lhsBatch by decide),
      dif_pos (show (0 : Fin S50000x128.rank) ∈ dot_S50000x128_S128x1024_S50000x1024_1_0_0_1_n_n.lhsNonContracting by decide)]
    rfl
  have r1 : ∀ q, (dot_S50000x128_S128x1024_S50000x1024_1_0_0_1_n_n.rhsIdx i q 1).val = (i 1).val := fun q => by
    unfold DotDims.rhsIdx
    rw [dif_neg (show ¬(1 : Fin S128x1024.rank) ∈ dot_S50000x128_S128x1024_S50000x1024_1_0_0_1_n_n.rhsBatch by decide),
      dif_pos (show (1 : Fin S128x1024.rank) ∈ dot_S50000x128_S128x1024_S50000x1024_1_0_0_1_n_n.rhsNonContracting by decide)]
    rfl
  simp only [Host.dotGeneral]
  -- the sum over the one-axis contraction index is the sum over its coordinate
  rw [Ideal.dotGeneral_apply, ← Equiv.sum_comp (ValueIdx.contrEquiv1 dot_S50000x128_S128x1024_S50000x1024_1_0_0_1_n_n 128 rfl rfl).symm]
  refine Finset.sum_congr rfl fun k _ => ?_
  have hk := ValueIdx.contrEquiv1_symm_val dot_S50000x128_S128x1024_S50000x1024_1_0_0_1_n_n 128 rfl rfl k
  have el : dot_S50000x128_S128x1024_S50000x1024_1_0_0_1_n_n.lhsIdx i ((ValueIdx.contrEquiv1 dot_S50000x128_S128x1024_S50000x1024_1_0_0_1_n_n 128 rfl rfl).symm k) = ix2 (i 0) k :=
    funext fun a => Fin.ext (by
      match a with
      | ⟨0, _⟩ => exact l0 _
      | ⟨1, _⟩ => exact (dot_S50000x128_S128x1024_S50000x1024_1_0_0_1_n_n.lhsIdx_val_of_single rfl i _).trans hk)
  have er : dot_S50000x128_S128x1024_S50000x1024_1_0_0_1_n_n.rhsIdx i ((ValueIdx.contrEquiv1 dot_S50000x128_S128x1024_S50000x1024_1_0_0_1_n_n 128 rfl rfl).symm k) = ix2 k (i 1) :=
    funext fun a => Fin.ext (by
      match a with
      | ⟨0, _⟩ => exact (dot_S50000x128_S128x1024_S50000x1024_1_0_0_1_n_n.rhsIdx_val_of_single rfl i _).trans hk
      | ⟨1, _⟩ => exact r1 _)
  exact congrArg₂ (fun p q => x p * w q) el er

/-! ## The bias additions -/

/-- A bias vector of length 128, made a one-row array and then repeated on every row, added to a [50000, 128] array:
    entry `(r, q)` is `a (r, q) + b q`. -/
theorem bias_128 (a : (⟨S50000x128, .f32⟩ : BufTy).Contents (Elt Ideal)) (b : (⟨S128, .f32⟩ : BufTy).Contents (Elt Ideal)) :
    addf (F := Ideal) (φ := .f32) a (broadcastInDim S50000x128 ![0, 1] bcast_S1x128_S50000x128_0_1 (broadcastInDim S1x128 ![1] bcast_S128_S1x128_1 b))
      = Cert.DenseRows.addRow a (fun i => b (ix1 (i 1))) := by
  funext i
  show a i + broadcastInDim S50000x128 ![0, 1] bcast_S1x128_S50000x128_0_1 (broadcastInDim S1x128 ![1] bcast_S128_S1x128_1 b) i
    = a i + b (ix1 (i 1))
  refine congrArg (a i + ·) ?_
  -- the repeated row read at (r, q) is the one row at (0, q) …
  refine (broadcastInDim_apply _ bcast_S1x128_S50000x128_0_1 _ i (ix2 0 (i 1)) (fun ax => match ax with
    | ⟨0, _⟩ => by show 0 = if (1 : Nat) = 1 then 0 else (i 0).val; rw [if_pos rfl]
    | ⟨1, _⟩ => by show (i 1).val = if (128 : Nat) = 1 then 0 else (i 1).val; rw [if_neg (by decide)])).trans ?_
  -- … and the one row at (0, q) is the vector at q
  exact broadcastInDim_apply _ bcast_S128_S1x128_1 b (ix2 0 (i 1)) (ix1 (i 1)) (fun ax => match ax with
    | ⟨0, _⟩ => by show (i 1).val = if (128 : Nat) = 1 then 0 else (i 1).val; rw [if_neg (by decide)])

/-- A bias vector of length 64, made a one-row array and then repeated on every row, added to a [50000, 64] array:
    entry `(r, q)` is `a (r, q) + b q`. -/
theorem bias_64 (a : (⟨S50000x64, .f32⟩ : BufTy).Contents (Elt Ideal)) (b : (⟨S64, .f32⟩ : BufTy).Contents (Elt Ideal)) :
    addf (F := Ideal) (φ := .f32) a (broadcastInDim S50000x64 ![0, 1] bcast_S1x64_S50000x64_0_1 (broadcastInDim S1x64 ![1] bcast_S64_S1x64_1 b))
      = Cert.DenseRows.addRow a (fun i => b (ix1 (i 1))) := by
  funext i
  show a i + broadcastInDim S50000x64 ![0, 1] bcast_S1x64_S50000x64_0_1 (broadcastInDim S1x64 ![1] bcast_S64_S1x64_1 b) i
    = a i + b (ix1 (i 1))
  refine congrArg (a i + ·) ?_
  -- the repeated row read at (r, q) is the one row at (0, q) …
  refine (broadcastInDim_apply _ bcast_S1x64_S50000x64_0_1 _ i (ix2 0 (i 1)) (fun ax => match ax with
    | ⟨0, _⟩ => by show 0 = if (1 : Nat) = 1 then 0 else (i 0).val; rw [if_pos rfl]
    | ⟨1, _⟩ => by show (i 1).val = if (64 : Nat) = 1 then 0 else (i 1).val; rw [if_neg (by decide)])).trans ?_
  -- … and the one row at (0, q) is the vector at q
  exact broadcastInDim_apply _ bcast_S64_S1x64_1 b (ix2 0 (i 1)) (ix1 (i 1)) (fun ax => match ax with
    | ⟨0, _⟩ => by show (i 1).val = if (64 : Nat) = 1 then 0 else (i 1).val; rw [if_neg (by decide)])

/-- A bias vector of length 256, made a one-row array and then repeated on every row, added to a [50000, 256] array:
    entry `(r, q)` is `a (r, q) + b q`. -/
theorem bias_256 (a : (⟨S50000x256, .f32⟩ : BufTy).Contents (Elt Ideal)) (b : (⟨S256, .f32⟩ : BufTy).Contents (Elt Ideal)) :
    addf (F := Ideal) (φ := .f32) a (broadcastInDim S50000x256 ![0, 1] bcast_S1x256_S50000x256_0_1 (broadcastInDim S1x256 ![1] bcast_S256_S1x256_1 b))
      = Cert.DenseRows.addRow a (fun i => b (ix1 (i 1))) := by
  funext i
  show a i + broadcastInDim S50000x256 ![0, 1] bcast_S1x256_S50000x256_0_1 (broadcastInDim S1x256 ![1] bcast_S256_S1x256_1 b) i
    = a i + b (ix1 (i 1))
  refine congrArg (a i + ·) ?_
  -- the repeated row read at (r, q) is the one row at (0, q) …
  refine (broadcastInDim_apply _ bcast_S1x256_S50000x256_0_1 _ i (ix2 0 (i 1)) (fun ax => match ax with
    | ⟨0, _⟩ => by show 0 = if (1 : Nat) = 1 then 0 else (i 0).val; rw [if_pos rfl]
    | ⟨1, _⟩ => by show (i 1).val = if (256 : Nat) = 1 then 0 else (i 1).val; rw [if_neg (by decide)])).trans ?_
  -- … and the one row at (0, q) is the vector at q
  exact broadcastInDim_apply _ bcast_S256_S1x256_1 b (ix2 0 (i 1)) (ix1 (i 1)) (fun ax => match ax with
    | ⟨0, _⟩ => by show (i 1).val = if (256 : Nat) = 1 then 0 else (i 1).val; rw [if_neg (by decide)])

/-- A bias vector of length 1024, made a one-row array and then repeated on every row, added to a [50000, 1024] array:
    entry `(r, q)` is `a (r, q) + b q`. -/
theorem bias_1024 (a : (⟨S50000x1024, .f32⟩ : BufTy).Contents (Elt Ideal)) (b : (⟨S1024, .f32⟩ : BufTy).Contents (Elt Ideal)) :
    addf (F := Ideal) (φ := .f32) a (broadcastInDim S50000x1024 ![0, 1] bcast_S1x1024_S50000x1024_0_1 (broadcastInDim S1x1024 ![1] bcast_S1024_S1x1024_1 b))
      = Cert.DenseRows.addRow a (fun i => b (ix1 (i 1))) := by
  funext i
  show a i + broadcastInDim S50000x1024 ![0, 1] bcast_S1x1024_S50000x1024_0_1 (broadcastInDim S1x1024 ![1] bcast_S1024_S1x1024_1 b) i
    = a i + b (ix1 (i 1))
  refine congrArg (a i + ·) ?_
  -- the repeated row read at (r, q) is the one row at (0, q) …
  refine (broadcastInDim_apply _ bcast_S1x1024_S50000x1024_0_1 _ i (ix2 0 (i 1)) (fun ax => match ax with
    | ⟨0, _⟩ => by show 0 = if (1 : Nat) = 1 then 0 else (i 0).val; rw [if_pos rfl]
    | ⟨1, _⟩ => by show (i 1).val = if (1024 : Nat) = 1 then 0 else (i 1).val; rw [if_neg (by decide)])).trans ?_
  -- … and the one row at (0, q) is the vector at q
  exact broadcastInDim_apply _ bcast_S1024_S1x1024_1 b (ix2 0 (i 1)) (ix1 (i 1)) (fun ax => match ax with
    | ⟨0, _⟩ => by show (i 1).val = if (1024 : Nat) = 1 then 0 else (i 1).val; rw [if_neg (by decide)])

/-! ## The positive parts -/

/-- The maximum of a [50000, 128] array with the zero constant repeated at every entry is the positive part entry by
    entry. -/
theorem relu_128 (a : (⟨S50000x128, .f32⟩ : BufTy).Contents (Elt Ideal)) :
    maximumf (F := Ideal) (φ := .f32) a (broadcastInDim S50000x128 ![] bcast_S_S50000x128 (constant (F := Ideal) S_ .f32 0x00000000#32))
      = Cert.DenseRows.pos a := by
  funext i
  show max (a i) (broadcastInDim S50000x128 ![] bcast_S_S50000x128 (constant (F := Ideal) S_ .f32 0x00000000#32) i) = max (a i) 0
  refine congrArg (max (a i)) ?_
  -- the repeated scalar read anywhere is the scalar, and the zero word is the number zero
  refine (broadcastInDim_apply _ bcast_S_S50000x128 _ i ix0 (fun ax => ax.elim0)).trans ?_
  exact Ideal.ofBits_zero_f32

/-- The maximum of a [50000, 256] array with the zero constant repeated at every entry is the positive part entry by
    entry. -/
theorem relu_256 (a : (⟨S50000x256, .f32⟩ : BufTy).Contents (Elt Ideal)) :
    maximumf (F := Ideal) (φ := .f32) a (broadcastInDim S50000x256 ![] bcast_S_S50000x256 (constant (F := Ideal) S_ .f32 0x00000000#32))
      = Cert.DenseRows.pos a := by
  funext i
  show max (a i) (broadcastInDim S50000x256 ![] bcast_S_S50000x256 (constant (F := Ideal) S_ .f32 0x00000000#32) i) = max (a i) 0
  refine congrArg (max (a i)) ?_
  -- the repeated scalar read anywhere is the scalar, and the zero word is the number zero
  refine (broadcastInDim_apply _ bcast_S_S50000x256 _ i ix0 (fun ax => ax.elim0)).trans ?_
  exact Ideal.ofBits_zero_f32

end Cert.ReferenceIdeal.Stages

end
-- ==== Proof.RefValue.lean ====
/-
  The reference's result is the network.

  The reference program computes its one result by host operations only: per graph-convolution layer a product
  with the layer's weights, the aggregation over the edges (gather the source node's row of every edge, scale it
  by the edge's weight, add it into the target node's row), a bias added to every row and, after the first and
  the third layer, the positive part; per dense layer a product and a bias. Its composed term, as a function of
  the fourteen arguments, is rewritten here stage by stage: every product, bias addition and positive part is the
  corresponding dense-rows function of its operands, and the operations that remain between them are, one for
  one, those the network's definition applies — over dimension numbers that the two programs state separately
  and that are equal, being the same literal lists over the same literal shapes.
-/
import proofs.«113196_j25048249270387_1_alg».proof.Proof.RefRun
import proofs.«113196_j25048249270387_1_alg».proof.Proof.RefStages
import proofs.«113196_j25048249270387_1_alg».proof.Proof.Layers

noncomputable section

namespace Cert.ReferenceIdeal.RefValue

open Cert.ReferenceIdeal Cert.ReferenceIdeal.Gen Idealize.ShloMosaic Idealize.ShloMosaic.TcCoe Idealize.SL.Sem Idealize.ShloMosaic.StableHlo

/-! ## The two programs' gather and scatter dimension numbers agree -/

/-- The scattered sum that counts, per node, the edges ending in it: the two programs' dimension numbers are the same literal lists over the same literal shapes. -/
theorem scatterCount_eq : Cert.ReferenceIdeal.scatter_S50000_S850000x1_S850000_n_0_0_1 = Cert.KernelIdeal.scatter_S50000_S850000x1_S850000_n_0_0_1 := rfl
/-- The gather of one per-node number for every edge: the two programs' dimension numbers are the same literal lists over the same literal shapes. -/
theorem gatherNode_eq : Cert.ReferenceIdeal.gather_S50000_S850000x1_S850000_n_0_n_n_0_1_1 = Cert.KernelIdeal.gather_S50000_S850000x1_S850000_n_0_n_n_0_1_1 := rfl
/-- The gather of a 128-wide feature row for every edge: the two programs' dimension numbers are the same literal lists over the same literal shapes. -/
theorem gatherRows128_eq : Cert.ReferenceIdeal.gather_S50000x128_S850000x1_S850000x128_1_0_n_n_0_1_1128 = Cert.KernelIdeal.gather_S50000x128_S850000x1_S850000x128_1_0_n_n_0_1_1128 := rfl
/-- The scattered sum of 128-wide rows into the edges' target nodes: the two programs' dimension numbers are the same literal lists over the same literal shapes. -/
theorem scatterRows128_eq : Cert.ReferenceIdeal.scatter_S50000x128_S850000x1_S850000x128_1_0_0_1 = Cert.KernelIdeal.scatter_S50000x128_S850000x1_S850000x128_1_0_0_1 := rfl
/-- The gather of a 64-wide feature row for every edge: the two programs' dimension numbers are the same literal lists over the same literal shapes. -/
theorem gatherRows64_eq : Cert.ReferenceIdeal.gather_S50000x64_S850000x1_S850000x64_1_0_n_n_0_1_164 = Cert.KernelIdeal.gather_S50000x64_S850000x1_S850000x64_1_0_n_n_0_1_164 := rfl
/-- The scattered sum of 64-wide rows into the edges' target nodes: the two programs' dimension numbers are the same literal lists over the same literal shapes. -/
theorem scatterRows64_eq : Cert.ReferenceIdeal.scatter_S50000x64_S850000x1_S850000x64_1_0_0_1 = Cert.KernelIdeal.scatter_S50000x64_S850000x1_S850000x64_1_0_0_1 := rfl
/-- The gather of a 256-wide feature row for every edge: the two programs' dimension numbers are the same literal lists over the same literal shapes. -/
theorem gatherRows256_eq : Cert.ReferenceIdeal.gather_S50000x256_S850000x1_S850000x256_1_0_n_n_0_1_1256 = Cert.KernelIdeal.gather_S50000x256_S850000x1_S850000x256_1_0_n_n_0_1_1256 := rfl
/-- The scattered sum of 256-wide rows into the edges' target nodes: the two programs' dimension numbers are the same literal lists over the same literal shapes. -/
theorem scatterRows256_eq : Cert.ReferenceIdeal.scatter_S50000x256_S850000x1_S850000x256_1_0_0_1 = Cert.KernelIdeal.scatter_S50000x256_S850000x1_S850000x256_1_0_0_1 := rfl

/-! ## The result -/

set_option maxRecDepth 8192 in
/-- The reference's result, as a function of the fourteen arguments, is the network: every product, bias
    addition and positive part is the dense-rows function of its operands, and what remains between them — the
    edges' end nodes, the degrees, the edge weights, and each layer's gather, scaling and scattered sum — is,
    operation for operation, the chain the network is defined with. -/
theorem result (m : (ℓ : Loc nD τ sig) → Buf (Elt Ideal) ℓ) (c : Dev nD) :
    ValueP.res_main_v201 (F := Ideal) m c = Cert.KernelIdeal.Layers.network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  unfold ValueP.res_main_v201
  -- the six products, the six bias additions and the two positive parts, each at its own operands
  rw [Stages.dot_128_128, Stages.dot_128_64, Stages.dot_64_64, Stages.dot_64_256, Stages.dot_256_128, Stages.dot_128_1024, Stages.bias_128, Stages.bias_128, Stages.bias_64, Stages.bias_64, Stages.bias_256, Stages.bias_1024, Stages.relu_128, Stages.relu_256]
  -- the gathers and scattered sums over the other program's (equal) dimension numbers
  rw [scatterCount_eq, gatherNode_eq, gatherRows128_eq, scatterRows128_eq, gatherRows64_eq, scatterRows64_eq, gatherRows256_eq, scatterRows256_eq]
  -- the network, spelled out down to the same operations
  unfold Cert.KernelIdeal.Layers.network Cert.KernelIdeal.Layers.dense2 Cert.KernelIdeal.Layers.layer4 Cert.KernelIdeal.Layers.layer3 Cert.KernelIdeal.Layers.dense1 Cert.KernelIdeal.Layers.layer2 Cert.KernelIdeal.Layers.layer1 Cert.KernelIdeal.Layers.row Cert.KernelIdeal.Chain.aggregate128 Cert.KernelIdeal.Chain.aggregate64 Cert.KernelIdeal.Chain.aggregate256 Cert.KernelIdeal.Chain.edgeWeight Cert.KernelIdeal.Chain.invSqrtDegree Cert.KernelIdeal.Chain.degree Cert.KernelIdeal.Chain.wrapCol Cert.KernelIdeal.Chain.ends0 Cert.KernelIdeal.Chain.ends1
  -- what is left differs only in the names of equal literal shapes and in proofs of the same side conditions
  with_reducible rfl

end Cert.ReferenceIdeal.RefValue

end
-- ==== Proof.lean ====
/-
  The certificate of the graph network: the kernel program (ten row-blocked regions among host operations)
  against its host-only reference, as functions on the extended reals.

  Both programs compute four graph-convolution layers and two dense layers. They share, operation for
  operation, the host side of a layer: the edges' end nodes with the self-loops appended, the degrees, the
  edge weights (products of inverse square root degrees, zero where a degree is not positive), the gather of
  source rows, their scaling, and the scattered sum into target rows. They differ only in where the dense
  pieces run: the kernel multiplies a block of 2000 rows by the whole weight matrix in a region (rounding
  to a narrower format on the way in, which changes nothing on the extended reals, and accumulating into
  zero) and adds the bias row and takes the positive part in another region, where the reference applies one
  matrix product, one broadcast sum and one maximum to the whole arrays. An entry of a product is the same
  finite sum of products whichever way the rows are tiled, and the bias and the positive part act entry by
  entry; no law that could fail at an infinity is used, so the inputs' finiteness is not needed.

  The three frames: the two kernel programs' are the launch theorem applied to their regions and host
  stretches; the reference's is its run with the result dropped. The idealization rewrote no operation.
  The value claim: the kernel's run ends with its result at the fold's last contents of it, which is the
  network of the arguments (region by region, stretch by stretch); the reference's run ends with its result
  at the composed term of its operations, which is the same network; the arguments agree.
-/
import proofs.«113196_j25048249270387_1_alg».proof.Defs
import proofs.«113196_j25048249270387_1_alg».proof.Proof.Gen.Kernel
import proofs.«113196_j25048249270387_1_alg».proof.Proof.Gen.Kernel.Skeleton
import proofs.«113196_j25048249270387_1_alg».proof.Proof.Gen.Kernel.Launch
import proofs.«113196_j25048249270387_1_alg».proof.Proof.Gen.Kernel.Points
import proofs.«113196_j25048249270387_1_alg».proof.Proof.Gen.Kernel.Frame
import proofs.«113196_j25048249270387_1_alg».proof.Proof.Gen.KernelIdeal
import proofs.«113196_j25048249270387_1_alg».proof.Proof.Gen.KernelIdeal.Skeleton
import proofs.«113196_j25048249270387_1_alg».proof.Proof.Gen.KernelIdeal.Launch
import proofs.«113196_j25048249270387_1_alg».proof.Proof.Gen.KernelIdeal.Points
import proofs.«113196_j25048249270387_1_alg».proof.Proof.Gen.KernelIdeal.Frame
import proofs.«113196_j25048249270387_1_alg».proof.Proof.Gen.ReferenceIdeal
import proofs.«113196_j25048249270387_1_alg».proof.Proof.Gen.Pre_finite_inputs
import proofs.«113196_j25048249270387_1_alg».proof.Proof.KernelNamed
import proofs.«113196_j25048249270387_1_alg».proof.Proof.KernelValue
import proofs.«113196_j25048249270387_1_alg».proof.Proof.RefRun
import proofs.«113196_j25048249270387_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs, nothing faulting, its arguments unchanged. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation of the kernel. -/
theorem preserves : Cert.preserves_Kernel_KernelIdeal := trivial

/-- Both idealized programs end with the network of the arguments in their result. -/
theorem algebraic : Cert.algebraic_KernelIdeal_ReferenceIdeal := by
  intro m ρ m' ρ' _ hagree
  refine ⟨fun c => Cert.KernelIdeal.Layers.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · exact (θ_run Cert.KernelIdeal.defs _ _).mono
      (fun r h c => ⟨(h c).1.trans (Cert.KernelIdeal.Value.result m ρ c), (h c).2⟩)
      (Cert.KernelIdeal.Named.run_named (F := Ideal) m ρ)
  · refine (θ_run Cert.ReferenceIdeal.defs _ _).mono (fun r h c => ⟨(h c).1.trans ?_, (h c).2⟩)
      (Cert.ReferenceIdeal.ValueP.run (F := Ideal) m' ρ')
    obtain ⟨e0, e1, e2, e3, e4, e5, e6, e7, e8, e9, e10, e11, e12, e13⟩ := hagree c
    rw [Cert.ReferenceIdeal.RefValue.result m' c, e0, e1, e2, e3, e4, e5, e6, e7, e8, e9, e10, e11, e12, e13]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
